-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S500000x2 : Shape := ⟨2, ![500000, 2]⟩
abbrev S128 : Shape := ⟨1, ![128]⟩
abbrev S100000 : Shape := ⟨1, ![100000]⟩
abbrev S128x256 : Shape := ⟨2, ![128, 256]⟩
abbrev S256 : Shape := ⟨1, ![256]⟩
abbrev S256x128 : Shape := ⟨2, ![256, 128]⟩
abbrev S514x256 : Shape := ⟨2, ![514, 256]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128 : S_.BroadcastsInDim S128 (![] : Fin 0 → Fin S128.rank)
  reducesTo_S128_S_d0 : S128.ReducesTo [0] S_
  bcast_S_S100000 : S_.BroadcastsInDim S100000 (![] : Fin 0 → Fin S100000.rank)
  reducesTo_S100000_S_d0 : S100000.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S514x256 : S_.BroadcastsInDim S514x256 (![] : Fin 0 → Fin S514x256.rank)
  reducesTo_S514x256_S_d0_1 : S514x256.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg16 : FVec F S256x128 .f32) (main_arg17 : FVec F S128 .f32) (main_arg18 : FVec F S128x1 .f32) (main_arg19 : FVec F S1 .f32) (main_v63 : IVec S_ 1) (main_v67 : IVec S_ 1) : IVec S_ 1 :=
  let main_v68 : IVec S_ 1 := andi main_v63 main_v67
  let main_v69 : FVec F S256x128 .f32 := Host.absf main_arg16
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x1 .f32 := Host.absf main_arg18
  let main_cst_30 : FVec F S_ .f32 := constant S_ .f32 0x7F800000#32
  let main_v80 : FVec F S128x1 .f32 := broadcastInDim S128x1 ![] bcast_S_S128x1 main_cst_30
  let main_v81 : IVec S128x1 1 := cmpf .olt main_v79 main_v80
  let main_c_31 : IVec S_ 1 := constantI S_ 1 1#1
  let main_v82 : IVec S_ 1 := (fun x v => Host.reduce IntOp.andi x v reducesTo_S128x1_S_d0_1 h_S_) main_v81 main_c_31
  let main_v83 : IVec S_ 1 := andi main_v78 main_v82
  let main_v84 : FVec F S1 .f32 := Host.absf main_arg19
  let main_cst_32 : FVec F S_ .f32 := constant S_ .f32 0x7F800000#32
  fn_part5 (F := F) main_v83 main_v84 main_cst_32

def fn_part3 {F : FTy → Type} [FloatOps F] (main_arg13 : FVec F S128 .f32) (main_arg14 : FVec F S514x256 .f32) (main_arg15 : FVec F S256 .f32) (main_arg16 : FVec F S256x128 .f32) (main_arg17 : FVec F S128 .f32) (main_arg18 : FVec F S128x1 .f32) (main_arg19 : FVec F S1 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S514x256 .f32 := Host.absf main_arg14
  let main_cst_22 : FVec F S_ .f32 := constant S_ .f32 0x7F800000#32
  let main_v60 : FVec F S514x256 .f32 := broadcastInDim S514x256 ![] bcast_S_S514x256 main_cst_22
  let main_v61 : IVec S514x256 1 := cmpf .olt main_v59 main_v60
  let main_c_23 : IVec S_ 1 := constantI S_ 1 1#1
  let main_v62 : IVec S_ 1 := (fun x v => Host.reduce IntOp.andi x v reducesTo_S514x256_S_d0_1 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg16 main_arg17 main_arg18 main_arg19 main_v63 main_v67

def fn_part2 {F : FTy → Type} [FloatOps F] (main_arg9 : FVec F S256 .f32) (main_arg10 : FVec F S256 .f32) (main_arg11 : FVec F S256 .f32) (main_arg12 : FVec F S256x128 .f32) (main_arg13 : FVec F S128 .f32) (main_arg14 : FVec F S514x256 .f32) (main_arg15 : FVec F S256 .f32) (main_arg16 : FVec F S256x128 .f32) (main_arg17 : FVec F S128 .f32) (main_arg18 : FVec F S128x1 .f32) (main_arg19 : FVec F S1 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x128 .f32 := Host.absf main_arg12
  let main_cst_18 : FVec F S_ .f32 := constant S_ .f32 0x7F800000#32
  let main_v50 : FVec F S256x128 .f32 := broadcastInDim S256x128 ![] bcast_S_S256x128 main_cst_18
  fn_part3 (F := F) main_arg13 main_arg14 main_arg15 main_arg16 main_arg17 main_arg18 main_arg19 main_v48 main_v49 main_v50

def fn_part1 {F : FTy → Type} [FloatOps F] (main_arg6 : FVec F S128x256 .f32) (main_arg7 : FVec F S256 .f32) (main_arg8 : FVec F S256 .f32) (main_arg9 : FVec F S256 .f32) (main_arg10 : FVec F S256 .f32) (main_arg11 : FVec F S256 .f32) (main_arg12 : FVec F S256x128 .f32) (main_arg13 : FVec F S128 .f32) (main_arg14 : FVec F S514x256 .f32) (main_arg15 : FVec F S256 .f32) (main_arg16 : FVec F S256x128 .f32) (main_arg17 : FVec F S128 .f32) (main_arg18 : FVec F S128x1 .f32) (main_arg19 : FVec F S1 .f32) (main_v13 : IVec S_ 1) (main_v16 : IVec S100000 1) : IVec S_ 1 :=
  let main_c_5 : IVec S_ 1 := constantI S_ 1 1#1
  let main_v17 : IVec S_ 1 := (fun x v => Host.reduce IntOp.andi x v reducesTo_S100000_S_d0 h_S_) main_v16 main_c_5
  let main_v18 : IVec S_ 1 := andi main_v13 main_v17
  let main_v19 : FVec F S128x256 .f32 := Host.absf main_arg6
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S100000x128 .f32) (main_arg1 : IVec S2x1000000 32) (main_arg2 : IVec S500000x2 32) (main_arg3 : FVec F S128 .f32) (main_arg4 : FVec F S128 .f32) (main_arg5 : FVec F S100000 .f32) (main_arg6 : FVec F S128x256 .f32) (main_arg7 : FVec F S256 .f32) (main_arg8 : FVec F S256 .f32) (main_arg9 : FVec F S256 .f32) (main_arg10 : FVec F S256 .f32) (main_arg11 : FVec F S256 .f32) (main_arg12 : FVec F S256x128 .f32) (main_arg13 : FVec F S128 .f32) (main_arg14 : FVec F S514x256 .f32) (main_arg15 : FVec F S256 .f32) (main_arg16 : FVec F S256x128 .f32) (main_arg17 : FVec F S128 .f32) (main_arg18 : FVec F S128x1 .f32) (main_arg19 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128 .f32 := Host.absf main_arg3
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S100000 .f32 := Host.absf main_arg5
  let main_cst_4 : FVec F S_ .f32 := constant S_ .f32 0x7F800000#32
  let main_v15 : FVec F S100000 .f32 := broadcastInDim S100000 ![] bcast_S_S100000 main_cst_4
  let main_v16 : IVec S100000 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S100000x128 : Shape := ⟨2, ![100000, 128]⟩
abbrev S2x1000000 : Shape := ⟨2, ![2, 1000000]⟩
abbrev S500000x2 : Shape := ⟨2, ![500000, 2]⟩
abbrev S128 : Shape := ⟨1, ![128]⟩
abbrev S100000 : Shape := ⟨1, ![100000]⟩
abbrev S128x256 : Shape := ⟨2, ![128, 256]⟩
abbrev S256 : Shape := ⟨1, ![256]⟩
abbrev S256x128 : Shape := ⟨2, ![256, 128]⟩
abbrev S514x256 : Shape := ⟨2, ![514, 256]⟩
abbrev S128x1 : Shape := ⟨2, ![128, 1]⟩
abbrev S1 : Shape := ⟨1, ![1]⟩
abbrev S10000x128 : Shape := ⟨2, ![10000, 128]⟩
abbrev S1x128 : Shape := ⟨2, ![1, 128]⟩
abbrev S10000x256 : Shape := ⟨2, ![10000, 256]⟩
abbrev S1x256 : Shape := ⟨2, ![1, 256]⟩
abbrev S500000x1 : Shape := ⟨2, ![500000, 1]⟩
abbrev S500000 : Shape := ⟨1, ![500000]⟩
abbrev S_ : Shape := ⟨0, ![]⟩
abbrev S503808 : Shape := ⟨1, ![503808]⟩
abbrev S503808x1 : Shape := ⟨2, ![503808, 1]⟩
abbrev S503808x128 : Shape := ⟨2, ![503808, 128]⟩
abbrev S503808x2 : Shape := ⟨2, ![503808, 2]⟩
abbrev S2x256 : Shape := ⟨2, ![2, 256]⟩
abbrev S4096x128 : Shape := ⟨2, ![4096, 128]⟩
abbrev S4096x2 : Shape := ⟨2, ![4096, 2]⟩
abbrev S4096 : Shape := ⟨1, ![4096]⟩
abbrev S4096x256 : Shape := ⟨2, ![4096, 256]⟩
abbrev S4096x1 : Shape := ⟨2, ![4096, 1]⟩
abbrev S1x1 : Shape := ⟨2, ![1, 1]⟩

abbrev nBuf : Space → Nat
  | .hbm => 96
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S500000x2, .i32⟩
  | .hbm, ⟨3, _⟩ => ⟨S128, .f32⟩
  | .hbm, ⟨4, _⟩ => ⟨S128, .f32⟩
  | .hbm, ⟨5, _⟩ => ⟨S100000, .f32⟩
  | .hbm, ⟨6, _⟩ => ⟨S128x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256x128, .f32⟩
  | .hbm, ⟨13, _⟩ => ⟨S128, .f32⟩
  | .hbm, ⟨14, _⟩ => ⟨S514x256, .f32⟩
  | .hbm, ⟨15, _⟩ => ⟨S256, .f32⟩
  | .hbm, ⟨16, _⟩ => ⟨S256x128, .f32⟩
  | .hbm, ⟨17, _⟩ => ⟨S128, .f32⟩
  | .hbm, ⟨18, _⟩ => ⟨S128x1, .f32⟩
  | .hbm, ⟨19, _⟩ => ⟨S1, .f32⟩
  | .hbm, ⟨20, _⟩ => ⟨S100000x128, .f32⟩
  | .hbm, ⟨21, _⟩ => ⟨S500000x1, .i32⟩
  | .hbm, ⟨22, _⟩ => ⟨S500000, .i32⟩
  | .hbm, ⟨23, _⟩ => ⟨S500000x1, .i32⟩
  | .hbm, ⟨24, _⟩ => ⟨S500000, .i32⟩
  | .hbm, ⟨25, _⟩ => ⟨S_, .i32⟩
  | .hbm, ⟨26, _⟩ => ⟨S_, .i32⟩
  | .hbm, ⟨27, _⟩ => ⟨S503808, .i32⟩
  | .hbm, ⟨28, _⟩ => ⟨S_, .i32⟩
  | .hbm, ⟨29, _⟩ => ⟨S_, .i32⟩
  | .hbm, ⟨30, _⟩ => ⟨S503808, .i32⟩
  | .hbm, ⟨31, _⟩ => ⟨S_, .i32⟩
  | .hbm, ⟨32, _⟩ => ⟨S503808, .i32⟩
  | .hbm, ⟨33, _⟩ => ⟨S503808, .i1⟩
  | .hbm, ⟨34, _⟩ => ⟨S_, .i32⟩
  | .hbm, ⟨35, _⟩ => ⟨S503808, .i32⟩
  | .hbm, ⟨36, _⟩ => ⟨S503808, .i32⟩
  | .hbm, ⟨37, _⟩ => ⟨S503808, .i32⟩
  | .hbm, ⟨38, _⟩ => ⟨S503808x1, .i32⟩
  | .hbm, ⟨39, _⟩ => ⟨S503808x128, .f32⟩
  | .hbm, ⟨40, _⟩ => ⟨S_, .i32⟩
  | .hbm, ⟨41, _⟩ => ⟨S503808, .i32⟩
  | .hbm, ⟨42, _⟩ => ⟨S503808, .i1⟩
  | .hbm, ⟨43, _⟩ => ⟨S_, .i32⟩
  | .hbm, ⟨44, _⟩ => ⟨S503808, .i32⟩
  | .hbm, ⟨45, _⟩ => ⟨S503808, .i32⟩
  | .hbm, ⟨46, _⟩ => ⟨S503808, .i32⟩
  | .hbm, ⟨47, _⟩ => ⟨S503808x1, .i32⟩
  | .hbm, ⟨48, _⟩ => ⟨S503808x128, .f32⟩
  | .hbm, ⟨49, _⟩ => ⟨S_, .i32⟩
  | .hbm, ⟨50, _⟩ => ⟨S503808, .i32⟩
  | .hbm, ⟨51, _⟩ => ⟨S503808, .i1⟩
  | .hbm, ⟨52, _⟩ => ⟨S_, .i32⟩
  | .hbm, ⟨53, _⟩ => ⟨S503808, .i32⟩
  | .hbm, ⟨54, _⟩ => ⟨S503808, .i32⟩
  | .hbm, ⟨55, _⟩ => ⟨S503808, .i32⟩
  | .hbm, ⟨56, _⟩ => ⟨S503808x1, .i32⟩
  | .hbm, ⟨57, _⟩ => ⟨S503808, .f32⟩
  | .hbm, ⟨58, _⟩ => ⟨S_, .i32⟩
  | .hbm, ⟨59, _⟩ => ⟨S503808, .i32⟩
  | .hbm, ⟨60, _⟩ => ⟨S503808, .i1⟩
  | .hbm, ⟨61, _⟩ => ⟨S_, .i32⟩
  | .hbm, ⟨62, _⟩ => ⟨S503808, .i32⟩
  | .hbm, ⟨63, _⟩ => ⟨S503808, .i32⟩
  | .hbm, ⟨64, _⟩ => ⟨S503808, .i32⟩
  | .hbm, ⟨65, _⟩ => ⟨S503808x1, .i32⟩
  | .hbm, ⟨66, _⟩ => ⟨S503808, .f32⟩
  | .hbm, ⟨67, _⟩ => ⟨S503808x1, .f32⟩
  | .hbm, ⟨68, _⟩ => ⟨S503808x1, .f32⟩
  | .hbm, ⟨69, _⟩ => ⟨S503808x2, .f32⟩
  | .hbm, ⟨70, _⟩ => ⟨S128x256, .f32⟩
  | .hbm, ⟨71, _⟩ => ⟨S128x256, .f32⟩
  | .hbm, ⟨72, _⟩ => ⟨S128x256, .f32⟩
  | .hbm, ⟨73, _⟩ => ⟨S128x256, .f32⟩
  | .hbm, ⟨74, _⟩ => ⟨S2x256, .f32⟩
  | .hbm, ⟨75, _⟩ => ⟨S503808, .f32⟩
  | .hbm, ⟨76, _⟩ => ⟨S500000, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S500000, .i1⟩
  | .hbm, ⟨81, _⟩ => ⟨S_, .f32⟩
  | .hbm, ⟨82, _⟩ => ⟨S500000, .f32⟩
  | .hbm, ⟨83, _⟩ => ⟨S500000, .f32⟩
  | .hbm, ⟨84, _⟩ => ⟨S_, .f32⟩
  | .hbm, ⟨85, _⟩ => ⟨S500000, .f32⟩
  | .hbm, ⟨86, _⟩ => ⟨S500000, .i1⟩
  | .hbm, ⟨87, _⟩ => ⟨S_, .f32⟩
  | .hbm, ⟨88, _⟩ => ⟨S500000, .f32⟩
  | .hbm, ⟨89, _⟩ => ⟨S500000, .f32⟩
  | .hbm, ⟨90, _⟩ => ⟨S_, .f32⟩
  | .hbm, ⟨91, _⟩ => ⟨S500000, .f32⟩
  | .hbm, ⟨92, _⟩ => ⟨S500000, .i1⟩
  | .hbm, ⟨93, _⟩ => ⟨S_, .f32⟩
  | .hbm, ⟨94, _⟩ => ⟨S500000, .f32⟩
  | .hbm, ⟨95, _⟩ => ⟨S500000, .f32⟩
  | .local _ .vmem, ⟨0, _⟩ => ⟨S10000x128, .f32⟩
  | .local _ .vmem, ⟨1, _⟩ => ⟨S10000x128, .f32⟩
  | .local _ .vmem, ⟨2, _⟩ => ⟨S128, .f32⟩
  | .local _ .vmem, ⟨3, _⟩ => ⟨S128, .f32⟩
  | .local _ .vmem, ⟨4, _⟩ => ⟨S128x256, .f32⟩
  | .local _ .vmem, ⟨5, _⟩ => ⟨S256, .f32⟩
  | .local _ .vmem, ⟨6, _⟩ => ⟨S256, .f32⟩
  | .local _ .vmem, ⟨7, _⟩ => ⟨S256, .f32⟩
  | .local _ .vmem, ⟨8, _⟩ => ⟨S256, .f32⟩
  | .local _ .vmem, ⟨9, _⟩ => ⟨S256, .f32⟩
  | .local _ .vmem, ⟨10, _⟩ => ⟨S256x128, .f32⟩
  | .local _ .vmem, ⟨11, _⟩ => ⟨S128, .f32⟩
  | .local _ .vmem, ⟨12, _⟩ => ⟨S10000x128, .f32⟩
  | .local _ .vmem, ⟨13, _⟩ => ⟨S10000x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S4096x2, .f32⟩
  | .local _ .vmem, ⟨19, _⟩ => ⟨S4096x2, .f32⟩
  | .local _ .vmem, ⟨20, _⟩ => ⟨S128x256, .f32⟩
  | .local _ .vmem, ⟨21, _⟩ => ⟨S128x256, .f32⟩
  | .local _ .vmem, ⟨22, _⟩ => ⟨S128x256, .f32⟩
  | .local _ .vmem, ⟨23, _⟩ => ⟨S128x256, .f32⟩
  | .local _ .vmem, ⟨24, _⟩ => ⟨S2x256, .f32⟩
  | .local _ .vmem, ⟨25, _⟩ => ⟨S256, .f32⟩
  | .local _ .vmem, ⟨26, _⟩ => ⟨S256x128, .f32⟩
  | .local _ .vmem, ⟨27, _⟩ => ⟨S128, .f32⟩
  | .local _ .vmem, ⟨28, _⟩ => ⟨S128x1, .f32⟩
  | .local _ .vmem, ⟨29, _⟩ => ⟨S1, .f32⟩
  | .local _ .vmem, ⟨30, _⟩ => ⟨S4096, .f32⟩
  | .local _ .vmem, ⟨31, _⟩ => ⟨S4096, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_c : Ref sig .tc := ⟨.hbm, 25, rfl⟩
abbrev main_call0_v0 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_v6 : Ref sig .tc := ⟨.hbm, 30, rfl⟩
abbrev main_c_1 : Ref sig .tc := ⟨.hbm, 31, rfl⟩
abbrev main_v7 : Ref sig .tc := ⟨.hbm, 32, rfl⟩
abbrev main_v8 : Ref sig .tc := ⟨.hbm, 33, rfl⟩
abbrev main_c_2 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_c_3 : Ref sig .tc := ⟨.hbm, 40, rfl⟩
abbrev main_v14 : Ref sig .tc := ⟨.hbm, 41, rfl⟩
abbrev main_v15 : Ref sig .tc := ⟨.hbm, 42, rfl⟩
abbrev main_c_4 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_c_5 : Ref sig .tc := ⟨.hbm, 49, rfl⟩
abbrev main_v21 : Ref sig .tc := ⟨.hbm, 50, rfl⟩
abbrev main_v22 : Ref sig .tc := ⟨.hbm, 51, rfl⟩
abbrev main_c_6 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_c_7 : Ref sig .tc := ⟨.hbm, 58, rfl⟩
abbrev main_v28 : Ref sig .tc := ⟨.hbm, 59, rfl⟩
abbrev main_v29 : Ref sig .tc := ⟨.hbm, 60, rfl⟩
abbrev main_c_8 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst : Ref sig .tc := ⟨.hbm, 77, rfl⟩
abbrev main_cst_9 : Ref sig .tc := ⟨.hbm, 78, rfl⟩
abbrev main_cst_10 : Ref sig .tc := ⟨.hbm, 79, rfl⟩
abbrev main_call2_v0 : Ref sig .tc := ⟨.hbm, 80, rfl⟩
abbrev main_call2_v1 : Ref sig .tc := ⟨.hbm, 81, rfl⟩
abbrev main_call2_call0_v0 : Ref sig .tc := ⟨.hbm, 82, rfl⟩
abbrev main_call2_v2 : Ref sig .tc := ⟨.hbm, 83, rfl⟩
abbrev main_call2_cst : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_call1_v0 : Ref sig .tc := ⟨.hbm, 88, rfl⟩
abbrev main_call2_v6 : Ref sig .tc := ⟨.hbm, 89, rfl⟩
abbrev main_call2_cst_0 : Ref sig .tc := ⟨.hbm, 90, rfl⟩
abbrev main_call2_v7 : Ref sig .tc := ⟨.hbm, 91, rfl⟩
abbrev main_call2_v8 : Ref sig .tc := ⟨.hbm, 92, rfl⟩
abbrev main_call2_v9 : Ref sig .tc := ⟨.hbm, 93, rfl⟩
abbrev main_call2_call2_v0 : Ref sig .tc := ⟨.hbm, 94, rfl⟩
abbrev main_v45 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg11_0 : Ref sig .tc := ⟨.vmem, 28, rfl⟩
abbrev cc1_stg12_0 : Ref sig .tc := ⟨.vmem, 29, rfl⟩
abbrev cc1_stg13_0 : Ref sig .tc := ⟨.vmem, 30, rfl⟩
abbrev cc1_stg13_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc1_sem12_0 : DmaSem sig := 29
abbrev cc1_sem13_0 : DmaSem sig := 30
abbrev cc1_sem13_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S10000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![123], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S4096 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S10000x256 : S1x256.Broadcasts S10000x256
  inb_S256x128_S256x128_0_0 : ∀ a, (![0, 0] : Fin 2 → Nat) a + S256x128.size a ≤ S256x128.size a
  h_S256x128 : 0 < S256x128.numel
  slices_S500000x2_S500000x1_0_0 : S500000x2.Slices ![0, 0] S500000x1
  shapeCasts_S500000x1_S500000 : S500000x1.ShapeCasts S500000
  slices_S500000x2_S500000x1_0_1 : S500000x2.Slices ![0, 1] S500000x1
  pads_S500000_S503808_038080 : S500000.Pads (![0] : Fin 1 → Nat) ![3808] ![0] S503808
  h_S_ : 0 < S_.numel
  bcast_S_S503808 : S_.BroadcastsInDim S503808 (![] : Fin 0 → Fin S503808.rank)
  bcast_S503808_S503808x1_0 : S503808.BroadcastsInDim S503808x1 (![0] : Fin 1 → Fin S503808x1.rank)
  concatenates_S503808x1_S503808x1_S503808x2_d1 : Shape.Concatenates [S503808x1, S503808x1] S503808x2 1
  slices_S514x256_S128x256_0_0 : S514x256.Slices ![0, 0] S128x256
  slices_S514x256_S128x256_128_0 : S514x256.Slices ![128, 0] S128x256
  slices_S514x256_S128x256_256_0 : S514x256.Slices ![256, 0] S128x256
  slices_S514x256_S128x256_384_0 : S514x256.Slices ![384, 0] S128x256
  slices_S514x256_S2x256_512_0 : S514x256.Slices ![512, 0] S2x256
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096x2_S4096x2_0_0 : ∀ a, (![0, 0] : Fin 2 → Nat) a + S4096x2.size a ≤ S4096x2.size a
  h_S4096x2 : 0 < S4096x2.numel
  shapeCasts_S4096x2_S4096x2 : S4096x2.ShapeCasts S4096x2
  shapeCasts_S128x256_S128x256 : S128x256.ShapeCasts S128x256
  inb_S2x256_S2x256_0_0 : ∀ a, (![0, 0] : Fin 2 → Nat) a + S2x256.size a ≤ S2x256.size a
  h_S2x256 : 0 < S2x256.numel
  shapeCasts_S2x256_S2x256 : S2x256.ShapeCasts S2x256
  broadcasts_S1x256_S4096x256 : S1x256.Broadcasts S4096x256
  broadcasts_S1x128_S4096x128 : S1x128.Broadcasts S4096x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S4096x1 : S1x1.Broadcasts S4096x1
  shapeCasts_S4096x1_S4096 : S4096x1.ShapeCasts S4096
  inb_S4096_S4096_0 : ∀ a, (![0] : Fin 1 → Nat) a + S4096.size a ≤ S4096.size a
  h_S4096 : 0 < S4096.numel
  slices_S503808_S500000_0 : S503808.Slices ![0] S500000
  bcast_S_S500000 : S_.BroadcastsInDim S500000 (![] : Fin 0 → Fin S500000.rank)
  dot_S10000x128_S128x256_S10000x256_1_0_0_1_n_n_wf : DotDims.WF S10000x128 S128x256 S10000x256 [1] [0] [0] [1] [] []
  dot_S10000x256_S256x128_S10000x128_1_0_0_1_n_n_wf : DotDims.WF S10000x256 S256x128 S10000x128 [1] [0] [0] [1] [] []
  gather_S100000x128_S503808x1_S503808x128_1_0_n_n_0_1_1128_wf : GatherDims.WF S100000x128 S503808x1 S503808x128 [1] [0] [] [0] [] 1 ![1, 128]
  gather_S100000_S503808x1_S503808_n_0_n_n_0_1_1_wf : GatherDims.WF S100000 S503808x1 S503808 [] [0] [] [0] [] 1 ![1]
  dot_S4096x128_S128x256_S4096x256_1_0_0_1_n_n_wf : DotDims.WF S4096x128 S128x256 S4096x256 [1] [0] [0] [1] [] []
  dot_S4096x2_S2x256_S4096x256_1_0_0_1_n_n_wf : DotDims.WF S4096x2 S2x256 S4096x256 [1] [0] [0] [1] [] []
  dot_S4096x256_S256x128_S4096x128_1_0_0_1_n_n_wf : DotDims.WF S4096x256 S256x128 S4096x128 [1] [0] [0] [1] [] []
  dot_S4096x128_S128x1_S4096x1_1_0_0_1_n_n_wf : DotDims.WF S4096x128 S128x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S128.size a
  hwx0_1 : ∀ i : grid0.Coords, EltTy.bits .f32 = 32 ∨ (Rect.block (s := S128) S128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S256x128.size a
  hwx0_9 : ∀ i : grid0.Coords, EltTy.bits .f32 = 32 ∨ (Rect.block (s := S256x128) S256x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S10000x128.size a ≤ S100000x128.size a
  hwx0_11 : ∀ i : grid0.Coords, EltTy.bits .f32 = 32 ∨ (Rect.block (s := S100000x128) S10000x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S503808x128.size a
  hwx1_0 : ∀ i : grid1.Coords, EltTy.bits .f32 = 32 ∨ (Rect.block (s := S503808x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S503808x128.size a
  hwx1_1 : ∀ i : grid1.Coords, EltTy.bits .f32 = 32 ∨ (Rect.block (s := S503808x128) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x2.size a ≤ S503808x2.size a
  hwx1_2 : ∀ i : grid1.Coords, EltTy.bits .f32 = 32 ∨ (Rect.block (s := S503808x2) S4096x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .f32 = 32 ∨ (Rect.block (s := S128x256) S128x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x256.size a ≤ S128x256.size a
  hwx1_5 : ∀ i : grid1.Coords, EltTy.bits .f32 = 32 ∨ (Rect.block (s := S128x256) S128x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x256.size a ≤ S128x256.size a
  hwx1_6 : ∀ i : grid1.Coords, EltTy.bits .f32 = 32 ∨ (Rect.block (s := S128x256) S128x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S2x256.size a ≤ S2x256.size a
  hwx1_7 : ∀ i : grid1.Coords, EltTy.bits .f32 = 32 ∨ (Rect.block (s := S2x256) S2x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256.size a ≤ S256.size a
  hwx1_8 : ∀ i : grid1.Coords, EltTy.bits .f32 = 32 ∨ (Rect.block (s := S256) S256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256x128.size a ≤ S256x128.size a
  hwx1_9 : ∀ i : grid1.Coords, EltTy.bits .f32 = 32 ∨ (Rect.block (s := S256x128) S256x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128.size a ≤ S128.size a
  hwx1_10 : ∀ i : grid1.Coords, EltTy.bits .f32 = 32 ∨ (Rect.block (s := S128) S128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128x1.size a ≤ S128x1.size a
  hwx1_11 : ∀ i : grid1.Coords, EltTy.bits .f32 = 32 ∨ (Rect.block (s := S128x1) S128x1.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1.size a ≤ S1.size a
  hwx1_12 : ∀ i : grid1.Coords, EltTy.bits .f32 = 32 ∨ (Rect.block (s := S1) S1.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S4096.size a ≤ S503808.size a
  hwx1_13 : ∀ i : grid1.Coords, EltTy.bits .f32 = 32 ∨ (Rect.block (s := S503808) S4096.size (cc1_transform_13 i) (hinb1_13 i)).WholeWords (EltTy.packing .f32)

variable [Facts₀]

def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S100000x128_S503808x1_S503808x128_1_0_n_n_0_1_1128 : GatherDims S100000x128 S503808x1 S503808x128 where
  offsetDims := [1]
  collapsedSliceDims := [0]
  operandBatchingDims := []
  startIndicesBatchingDims := []
  startIndexMap := [0]
  indexVectorDim := 1
  sliceSizes := ![1, 128]
  wf := gather_S100000x128_S503808x1_S503808x128_1_0_n_n_0_1_1128_wf
def gather_S100000_S503808x1_S503808_n_0_n_n_0_1_1 : GatherDims S100000 S503808x1 S503808 where
  offsetDims := []
  collapsedSliceDims := [0]
  operandBatchingDims := []
  startIndicesBatchingDims := []
  startIndexMap := [0]
  indexVectorDim := 1
  sliceSizes := ![1]
  wf := gather_S100000_S503808x1_S503808_n_0_n_n_0_1_1_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x2_S2x256_S4096x256_1_0_0_1_n_n : DotDims S4096x2 S2x256 S4096x256 where
  lhsContracting := [1]
  rhsContracting := [0]
  lhsNonContracting := [0]
  rhsNonContracting := [1]
  lhsBatch := []
  rhsBatch := []
  wf := dot_S4096x2_S2x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg12) S256x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg13) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0) S10000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v13) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S4096x2.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S128x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S128x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v42) S2x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg15) S256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg16) S256x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg17) S128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg18) S128x1.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg19) S1.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v43) S4096.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S500000x2 : Shape := ⟨2, ![500000, 2]⟩
abbrev S128 : Shape := ⟨1, ![128]⟩
abbrev S100000 : Shape := ⟨1, ![100000]⟩
abbrev S128x256 : Shape := ⟨2, ![128, 256]⟩
abbrev S256 : Shape := ⟨1, ![256]⟩
abbrev S256x128 : Shape := ⟨2, ![256, 128]⟩
abbrev S514x256 : Shape := ⟨2, ![514, 256]⟩
abbrev S128x1 : Shape := ⟨2, ![128, 1]⟩
abbrev S1 : Shape := ⟨1, ![1]⟩
abbrev S_ : Shape := ⟨0, ![]⟩
abbrev S1x128 : Shape := ⟨2, ![1, 128]⟩
abbrev S100000x256 : Shape := ⟨2, ![100000, 256]⟩
abbrev S1x256 : Shape := ⟨2, ![1, 256]⟩
abbrev S500000x1 : Shape := ⟨2, ![500000, 1]⟩
abbrev S500000 : Shape := ⟨1, ![500000]⟩
abbrev S500000x128 : Shape := ⟨2, ![500000, 128]⟩
abbrev S500000x514 : Shape := ⟨2, ![500000, 514]⟩
abbrev S500000x256 : Shape := ⟨2, ![500000, 256]⟩
abbrev S1x1 : Shape := ⟨2, ![1, 1]⟩

abbrev nBuf : Space → Nat
  | .hbm => 168
  | .vmem => 0
  | .smem => 0
  | _ => 0

abbrev hbmTy0_0 (i : Nat) : BufTy := match i % 128 with
  | 0 => ⟨S100000x128, .f32⟩
  | 1 => ⟨S2x1000000, .i32⟩
  | 2 => ⟨S500000x2, .i32⟩
  | 3 => ⟨S128, .f32⟩
  | 4 => ⟨S128, .f32⟩
  | 5 => ⟨S100000, .f32⟩
  | 6 => ⟨S128x256, .f32⟩
  | 7 => ⟨S256, .f32⟩
  | 8 => ⟨S256, .f32⟩
  | 9 => ⟨S256, .f32⟩
  | 10 => ⟨S256, .f32⟩
  | 11 => ⟨S256, .f32⟩
  | 12 => ⟨S256x128, .f32⟩
  | 13 => ⟨S128, .f32⟩
  | 14 => ⟨S514x256, .f32⟩
  | 15 => ⟨S256, .f32⟩
  | 16 => ⟨S256x128, .f32⟩
  | 17 => ⟨S128, .f32⟩
  | 18 => ⟨S128x1, .f32⟩
  | 19 => ⟨S1, .f32⟩
  | 20 => ⟨S_, .f32⟩
  | 21 => ⟨S_, .f32⟩
  | 22 => ⟨S_, .f32⟩
  | 23 => ⟨S100000x128, .i1⟩
  | 24 => ⟨S_, .f32⟩
  | 25 => ⟨S100000x128, .f32⟩
  | 26 => ⟨S100000x128, .f32⟩
  | 27 => ⟨S_, .f32⟩
  | 28 => ⟨S100000x128, .f32⟩
  | 29 => ⟨S100000x128, .i1⟩
  | 30 => ⟨S_, .f32⟩
  | 31 => ⟨S100000x128, .f32⟩
  | 32 => ⟨S100000x128, .f32⟩
  | 33 => ⟨S_, .f32⟩
  | 34 => ⟨S100000x128, .f32⟩
  | 35 => ⟨S100000x128, .i1⟩
  | 36 => ⟨S_, .f32⟩
  | 37 => ⟨S100000x128, .f32⟩
  | 38 => ⟨S100000x128, .f32⟩
  | 39 => ⟨S1x128, .f32⟩
  | 40 => ⟨S100000x128, .f32⟩
  | 41 => ⟨S100000x128, .f32⟩
  | 42 => ⟨S1x128, .f32⟩
  | 43 => ⟨S100000x128, .f32⟩
  | 44 => ⟨S100000x128, .f32⟩
  | 45 => ⟨S_, .f32⟩
  | 46 => ⟨S_, .f32⟩
  | 47 => ⟨S_, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S100000x256, .f32⟩
  | 54 => ⟨S1x256, .f32⟩
  | 55 => ⟨S100000x256, .f32⟩
  | 56 => ⟨S100000x256, .f32⟩
  | 57 => ⟨S1x256, .f32⟩
  | 58 => ⟨S100000x256, .f32⟩
  | 59 => ⟨S100000x256, .f32⟩
  | 60 => ⟨S_, .f32⟩
  | 61 => ⟨S256, .f32⟩
  | 62 => ⟨S256, .f32⟩
  | 63 => ⟨S256, .f32⟩
  | 64 => ⟨S1x256, .f32⟩
  | 65 => ⟨S100000x256, .f32⟩
  | 66 => ⟨S100000x256, .f32⟩
  | 67 => ⟨S1x256, .f32⟩
  | 68 => ⟨S100000x256, .f32⟩
  | 69 => ⟨S100000x256, .f32⟩
  | 70 => ⟨S1x256, .f32⟩
  | 71 => ⟨S100000x256, .f32⟩
  | 72 => ⟨S100000x256, .f32⟩
  | 73 => ⟨S_, .f32⟩
  | 74 => ⟨S100000x256, .f32⟩
  | 75 => ⟨S100000x256, .f32⟩
  | 76 => ⟨S100000x128, .f32⟩
  | 77 => ⟨S1x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S500000x1, .i32⟩
  | 84 => ⟨S500000, .i32⟩
  | 85 => ⟨S500000x1, .i32⟩
  | 86 => ⟨S500000, .i32⟩
  | 87 => ⟨S_, .i32⟩
  | 88 => ⟨S500000, .i32⟩
  | 89 => ⟨S500000, .i1⟩
  | 90 => ⟨S_, .i32⟩
  | 91 => ⟨S500000, .i32⟩
  | 92 => ⟨S500000, .i32⟩
  | 93 => ⟨S500000, .i32⟩
  | 94 => ⟨S500000x1, .i32⟩
  | 95 => ⟨S500000x128, .f32⟩
  | 96 => ⟨S_, .i32⟩
  | 97 => ⟨S500000, .i32⟩
  | 98 => ⟨S500000, .i1⟩
  | 99 => ⟨S_, .i32⟩
  | 100 => ⟨S500000, .i32⟩
  | 101 => ⟨S500000, .i32⟩
  | 102 => ⟨S500000, .i32⟩
  | 103 => ⟨S500000x1, .i32⟩
  | 104 => ⟨S500000x128, .f32⟩
  | 105 => ⟨S_, .i32⟩
  | 106 => ⟨S500000, .i32⟩
  | 107 => ⟨S500000, .i1⟩
  | 108 => ⟨S_, .i32⟩
  | 109 => ⟨S500000, .i32⟩
  | 110 => ⟨S500000, .i32⟩
  | 111 => ⟨S500000, .i32⟩
  | 112 => ⟨S500000x1, .i32⟩
  | 113 => ⟨S500000, .f32⟩
  | 114 => ⟨S_, .i32⟩
  | 115 => ⟨S500000, .i32⟩
  | 116 => ⟨S500000, .i1⟩
  | 117 => ⟨S_, .i32⟩
  | 118 => ⟨S500000, .i32⟩
  | 119 => ⟨S500000, .i32⟩
  | 120 => ⟨S500000, .i32⟩
  | 121 => ⟨S500000x1, .i32⟩
  | 122 => ⟨S500000, .f32⟩
  | 123 => ⟨S500000x1, .f32⟩
  | 124 => ⟨S500000x1, .f32⟩
  | 125 => ⟨S500000x2, .f32⟩
  | 126 => ⟨S500000x128, .f32⟩
  | 127 => ⟨S500000x128, .f32⟩
  | _ => ⟨S100000x128, .f32⟩

abbrev hbmTy0_1 (i : Nat) : BufTy := match i % 128 with
  | 0 => ⟨S500000x128, .f32⟩
  | 1 => ⟨S500000x514, .f32⟩
  | 2 => ⟨S500000x256, .f32⟩
  | 3 => ⟨S1x256, .f32⟩
  | 4 => ⟨S500000x256, .f32⟩
  | 5 => ⟨S500000x256, .f32⟩
  | 6 => ⟨S_, .f32⟩
  | 7 => ⟨S500000x256, .f32⟩
  | 8 => ⟨S500000x256, .f32⟩
  | 9 => ⟨S500000x128, .f32⟩
  | 10 => ⟨S1x128, .f32⟩
  | 11 => ⟨S500000x128, .f32⟩
  | 12 => ⟨S500000x128, .f32⟩
  | 13 => ⟨S_, .f32⟩
  | 14 => ⟨S500000x128, .f32⟩
  | 15 => ⟨S500000x128, .f32⟩
  | 16 => ⟨S500000x1, .f32⟩
  | 17 => ⟨S1x1, .f32⟩
  | 18 => ⟨S500000x1, .f32⟩
  | 19 => ⟨S500000x1, .f32⟩
  | 20 => ⟨S500000, .f32⟩
  | 21 => ⟨S_, .f32⟩
  | 22 => ⟨S_, .f32⟩
  | 23 => ⟨S_, .f32⟩
  | 24 => ⟨S500000, .i1⟩
  | 25 => ⟨S_, .f32⟩
  | 26 => ⟨S500000, .f32⟩
  | 27 => ⟨S500000, .f32⟩
  | 28 => ⟨S_, .f32⟩
  | 29 => ⟨S500000, .f32⟩
  | 30 => ⟨S500000, .i1⟩
  | 31 => ⟨S_, .f32⟩
  | 32 => ⟨S500000, .f32⟩
  | 33 => ⟨S500000, .f32⟩
  | 34 => ⟨S_, .f32⟩
  | 35 => ⟨S500000, .f32⟩
  | 36 => ⟨S500000, .i1⟩
  | 37 => ⟨S_, .f32⟩
  | 38 => ⟨S500000, .f32⟩
  | 39 => ⟨S500000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_cst_0 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_call0_call0_v0 : Ref sig .tc := ⟨.hbm, 25, rfl⟩
abbrev main_call0_v2 : Ref sig .tc := ⟨.hbm, 26, rfl⟩
abbrev main_call0_cst : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_call1_v0 : Ref sig .tc := ⟨.hbm, 31, rfl⟩
abbrev main_call0_v6 : Ref sig .tc := ⟨.hbm, 32, rfl⟩
abbrev main_call0_cst_0 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_call2_v0 : Ref sig .tc := ⟨.hbm, 37, rfl⟩
abbrev main_v0 : Ref sig .tc := ⟨.hbm, 38, rfl⟩
abbrev main_v1 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_cst_2 : Ref sig .tc := ⟨.hbm, 45, rfl⟩
abbrev main_cst_3 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v7 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_cst_4 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_call2_cst : Ref sig .tc := ⟨.hbm, 73, rfl⟩
abbrev main_call2_v0 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_call3_cst : Ref sig .tc := ⟨.hbm, 80, rfl⟩
abbrev main_call3_v0 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_c : Ref sig .tc := ⟨.hbm, 87, rfl⟩
abbrev main_v37 : Ref sig .tc := ⟨.hbm, 88, rfl⟩
abbrev main_v38 : Ref sig .tc := ⟨.hbm, 89, rfl⟩
abbrev main_c_5 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_c_6 : Ref sig .tc := ⟨.hbm, 96, rfl⟩
abbrev main_v44 : Ref sig .tc := ⟨.hbm, 97, rfl⟩
abbrev main_v45 : Ref sig .tc := ⟨.hbm, 98, rfl⟩
abbrev main_c_7 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_c_8 : Ref sig .tc := ⟨.hbm, 105, rfl⟩
abbrev main_v51 : Ref sig .tc := ⟨.hbm, 106, rfl⟩
abbrev main_v52 : Ref sig .tc := ⟨.hbm, 107, rfl⟩
abbrev main_c_9 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_c_10 : Ref sig .tc := ⟨.hbm, 114, rfl⟩
abbrev main_v58 : Ref sig .tc := ⟨.hbm, 115, rfl⟩
abbrev main_v59 : Ref sig .tc := ⟨.hbm, 116, rfl⟩
abbrev main_c_11 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_call4_cst : Ref sig .tc := ⟨.hbm, 134, rfl⟩
abbrev main_call4_v0 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_call5_cst : Ref sig .tc := ⟨.hbm, 141, rfl⟩
abbrev main_call5_v0 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_cst_12 : Ref sig .tc := ⟨.hbm, 149, rfl⟩
abbrev main_cst_13 : Ref sig .tc := ⟨.hbm, 150, rfl⟩
abbrev main_cst_14 : Ref sig .tc := ⟨.hbm, 151, rfl⟩
abbrev main_call6_v0 : Ref sig .tc := ⟨.hbm, 152, rfl⟩
abbrev main_call6_v1 : Ref sig .tc := ⟨.hbm, 153, rfl⟩
abbrev main_call6_call0_v0 : Ref sig .tc := ⟨.hbm, 154, rfl⟩
abbrev main_call6_v2 : Ref sig .tc := ⟨.hbm, 155, rfl⟩
abbrev main_call6_cst : Ref sig .tc := ⟨.hbm, 156, rfl⟩
abbrev main_call6_v3 : Ref sig .tc := ⟨.hbm, 157, rfl⟩
abbrev main_call6_v4 : Ref sig .tc := ⟨.hbm, 158, rfl⟩
abbrev main_call6_v5 : Ref sig .tc := ⟨.hbm, 159, rfl⟩
abbrev main_call6_call1_v0 : Ref sig .tc := ⟨.hbm, 160, rfl⟩
abbrev main_call6_v6 : Ref sig .tc := ⟨.hbm, 161, rfl⟩
abbrev main_call6_cst_0 : Ref sig .tc := ⟨.hbm, 162, rfl⟩
abbrev main_call6_v7 : Ref sig .tc := ⟨.hbm, 163, rfl⟩
abbrev main_call6_v8 : Ref sig .tc := ⟨.hbm, 164, rfl⟩
abbrev main_call6_v9 : Ref sig .tc := ⟨.hbm, 165, rfl⟩
abbrev main_call6_call2_v0 : Ref sig .tc := ⟨.hbm, 166, rfl⟩
abbrev main_v87 : Ref sig .tc := ⟨.hbm, 167, rfl⟩

abbrev nD : Nat := 1
abbrev τ : Topo := Topo.v7x

variable {F : FTy → Type} [FloatOps F]

class Facts₀ : Prop where
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S256 : S_.BroadcastsInDim S256 (![] : Fin 0 → Fin S256.rank)
  bcast_S_S100000x256 : S_.BroadcastsInDim S100000x256 (![] : Fin 0 → Fin S100000x256.rank)
  slices_S500000x2_S500000x1_0_0 : S500000x2.Slices ![0, 0] S500000x1
  shapeCasts_S500000x1_S500000 : S500000x1.ShapeCasts S500000
  slices_S500000x2_S500000x1_0_1 : S500000x2.Slices ![0, 1] S500000x1
  bcast_S_S500000 : S_.BroadcastsInDim S500000 (![] : Fin 0 → Fin S500000.rank)
  bcast_S500000_S500000x1_0 : S500000.BroadcastsInDim S500000x1 (![0] : Fin 1 → Fin S500000x1.rank)
  concatenates_S500000x1_S500000x1_S500000x2_d1 : Shape.Concatenates [S500000x1, S500000x1] S500000x2 1
  concatenates_S500000x128_S500000x128_S500000x128_S500000x128_S500000x2_S500000x514_d1 : Shape.Concatenates [S500000x128, S500000x128, S500000x128, S500000x128, S500000x2] S500000x514 1
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  dot_S100000x128_S128x256_S100000x256_1_0_0_1_n_n_wf : DotDims.WF S100000x128 S128x256 S100000x256 [1] [0] [0] [1] [] []
  dot_S100000x256_S256x128_S100000x128_1_0_0_1_n_n_wf : DotDims.WF S100000x256 S256x128 S100000x128 [1] [0] [0] [1] [] []
  gather_S100000x128_S500000x1_S500000x128_1_0_n_n_0_1_1128_wf : GatherDims.WF S100000x128 S500000x1 S500000x128 [1] [0] [] [0] [] 1 ![1, 128]
  gather_S100000_S500000x1_S500000_n_0_n_n_0_1_1_wf : GatherDims.WF S100000 S500000x1 S500000 [] [0] [] [0] [] 1 ![1]
  dot_S500000x514_S514x256_S500000x256_1_0_0_1_n_n_wf : DotDims.WF S500000x514 S514x256 S500000x256 [1] [0] [0] [1] [] []
  dot_S500000x256_S256x128_S500000x128_1_0_0_1_n_n_wf : DotDims.WF S500000x256 S256x128 S500000x128 [1] [0] [0] [1] [] []
  dot_S500000x128_S128x1_S500000x1_1_0_0_1_n_n_wf : DotDims.WF S500000x128 S128x1 S500000x1 [1] [0] [0] [1] [] []

variable [Facts₀]

def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def dot_S500000x514_S514x256_S500000x256_1_0_0_1_n_n : DotDims S500000x514 S514x256 S500000x256 where
  lhsContracting := [1]
  rhsContracting := [0]
  lhsNonContracting := [0]
  rhsNonContracting := [1]
  lhsBatch := []
  rhsBatch := []
  wf := dot_S500000x514_S514x256_S500000x256_1_0_0_1_n_n_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf

class Facts : Prop extends Facts₀ where

variable [Facts]
-- ==== Proof.KernelRun.lean ====
/- The kernel program's run, with the result buffer named.

   Every weakly fair execution of @main on the TensorCores from a memory `m` with zero counters
   terminates without a fault; in the final state the result buffer `main_v45` holds the contents
   the last segment boundary assigns to it (`Gen.W9`: the fold of the host operations and of the
   two regions' write-backs from the launch memory), and every argument array holds what it held at launch. -/
import proofs.«173014_j64493228917219_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main at any `F`: it terminates, nothing faults, the result buffer ends at the last boundary's
    contents and the twenty argument arrays end as launched. -/
theorem run_result : θ_run defs (onTc (τ := τ) (main (F := F))) ⟨m, fun _ => 0, ρ⟩ (fun r => ∀ c : Dev nD,
      r.2.mem ((c.tc : Thread nD τ).loc main_v45) = Gen.W9 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v45 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c),
       (h c _ (mem_uc main_arg17 (by decide))).trans (W9_main_arg17 m ρ c),
       (h c _ (mem_uc main_arg18 (by decide))).trans (W9_main_arg18 m ρ c),
       (h c _ (mem_uc main_arg19 (by decide))).trans (W9_main_arg19 m ρ c)⟩)

end Cert.KernelIdeal.Hand

end
-- ==== Proof.LibNodeScatter.lean ====
/-
  Rows of a node-by-feature array gathered, and accumulated, along the node axis, read at an index.

  The operand is an array over (node, feature) of extents `N, D`; the indices are a column of `M` words, each
  naming a node; the other array is over (index, feature) of extents `M, D`.
  * An ACCUMULATING SCATTER adds update row `e` to operand row `idx[e]` (the word read signed; a row outside
    `[0, N)` is dropped). On the extended reals entry `(n, d)` of the result is the operand's entry plus the sum,
    over the rows `e` with `idx[e] = n`, of update entry `(e, d)` (`hostScatterAdd_nodes_apply`), because update
    entry `(e, d)` lands exactly at `(idx[e], d)` (`resultIdx?_nodes`).
  * A GATHER reads operand row `idx[e]`, the word read signed and clamped into `[0, N − 1]`, into result row `e`
    (`gather_nodes_apply`).
  Neither statement depends on the feature extent `D`: the same rows are selected whatever the width of a row.
-/
import Idealize.ShloMosaic.PureOps.Ideal
import Idealize.ShloMosaic.Lib.ValueIdx

noncomputable section
open scoped BigOperators
namespace Cert.LibNodes

open Idealize.ShloMosaic Idealize.ShloMosaic.ValueIdx

/-- The dimension numbers of a scatter of whole rows into a node-by-feature array: update axis 1 is the window
    axis, operand axis 0 is the inserted one and the one the index names. -/
abbrev nodeScatterDims (N D M : Nat)
    (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

variable {N D M w : Nat} (wf : ScatterDims.WF ⟨2, ![N, D]⟩ ⟨2, ![M, 1]⟩ ⟨2, ![M, D]⟩ [1] [0] [0] 1)

/-- On the node axis an update's start is its row's index word, read signed. -/
theorem start0 (j : (⟨2, ![M, D]⟩ : Shape).Idx) (idx : IVec ⟨2, ![M, 1]⟩ w) :
    (nodeScatterDims N D M wf).start j idx 0 = (idx (ix2 (j 0) (0 : Fin 1))).toInt := by
  unfold ScatterDims.start
  rw [dif_pos (show (0 : Fin 2) ∈ (nodeScatterDims N D M wf).scatterDimsToOperandDims from List.mem_singleton.mpr rfl)]
  congr 2
  funext b; refine Fin.ext ?_
  match b with
  | ⟨0, _⟩ => rfl
  | ⟨1, _⟩ => rfl

/-- Update entry `(e, d)` lands at `(n, d')` exactly when the feature agrees and row `e`'s index word, read
    signed, is `n`. -/
theorem resultIdx?_nodes (e : Fin M) (d : Fin D) (idx : IVec ⟨2, ![M, 1]⟩ w) (n : Fin N) (d' : Fin D) :
    (nodeScatterDims N D M wf).resultIdx? (ix2 e d) idx = some (ix2 n d') ↔
      d' = d ∧ (idx (ix2 e (0 : Fin 1))).toInt = (n.val : ℤ) := by
  have hs : (nodeScatterDims N D M wf).start (ix2 e d) idx 0 = (idx (ix2 e (0 : Fin 1))).toInt := start0 wf _ idx
  unfold ScatterDims.resultIdx?
  split
  · next h =>
    rw [Option.some.injEq]
    constructor
    · intro hf
      have h0 := congrArg (fun f => (f 0).val) hf
      have h1 := congrArg (fun f => (f 1).val) hf
      have g0 := (h 0).1
      simp only at h0 h1
      refine ⟨Fin.ext ?_, ?_⟩
      · have : ((0 : ℤ) + ((d.val : ℕ) : ℤ)).toNat = d'.val := h1
        omega
      · have e1 : ((nodeScatterDims N D M wf).start (ix2 e d) idx 0 + ((0 : ℕ) : ℤ)).toNat = n.val := h0
        have e2 : 0 ≤ (nodeScatterDims N D M wf).start (ix2 e d) idx 0 + ((0 : ℕ) : ℤ) := g0
        rw [hs] at e1 e2
        omega
    · rintro ⟨rfl, hx⟩
      funext a
      refine Fin.ext ?_
      match a with
      | ⟨0, _⟩ =>
        show ((nodeScatterDims N D M wf).start (ix2 e d') idx 0 + ((0 : ℕ) : ℤ)).toNat = n.val
        rw [hs, hx]; omega
      | ⟨1, _⟩ => show ((0 : ℤ) + ((d'.val : ℕ) : ℤ)).toNat = d'.val; omega
  · next h =>
    constructor
    · intro hf; exact absurd hf (by simp)
    · rintro ⟨rfl, hx⟩
      exfalso; apply h
      intro a
      match a with
      | ⟨0, _⟩ =>
        show 0 ≤ (nodeScatterDims N D M wf).start (ix2 e d') idx 0 + ((0 : ℕ) : ℤ)
          ∧ (nodeScatterDims N D M wf).start (ix2 e d') idx 0 + ((0 : ℕ) : ℤ) < ((N : ℕ) : ℤ)
        rw [hs, hx]; have := n.isLt; omega
      | ⟨1, _⟩ =>
        show 0 ≤ (0 : ℤ) + ((d'.val : ℕ) : ℤ) ∧ (0 : ℤ) + ((d'.val : ℕ) : ℤ) < ((D : ℕ) : ℤ)
        have := d'.isLt; omega

/-- The accumulating row scatter read at `(n, d)`: the operand's entry plus the update entries `(e, d)` of the
    rows `e` whose index word names node `n`. -/
theorem hostScatterAdd_nodes_apply (x : (⟨2, ![N, D]⟩ : Shape).Idx → EReal) (idx : IVec ⟨2, ![M, 1]⟩ w)
    (upd : (⟨2, ![M, D]⟩ : Shape).Idx → EReal) (n : Fin N) (d : Fin D) :
    Ideal.hostScatterAdd (nodeScatterDims N D M wf) x idx upd (ix2 n d)
      = x (ix2 n d) + ∑ e : Fin M, if (idx (ix2 e (0 : Fin 1))).toInt = (n.val : ℤ) then upd (ix2 e d) else 0 := by
  unfold Ideal.hostScatterAdd
  refine congrArg (x (ix2 n d) + ·) ?_
  rw [← Finset.sum_filter]
  refine Finset.sum_nbij' (fun j => (j 0 : Fin M)) (fun e => ix2 e d) ?_ ?_ ?_ ?_ ?_
  · intro j hj
    have hj' := (Finset.mem_filter.mp hj).2
    rw [eq_ix2 j] at hj'
    exact Finset.mem_filter.mpr ⟨Finset.mem_univ _, ((resultIdx?_nodes wf _ _ idx n d).mp hj').2⟩
  · intro e he
    have he' := (Finset.mem_filter.mp he).2
    exact Finset.mem_filter.mpr ⟨Finset.mem_univ _, (resultIdx?_nodes wf e d idx n d).mpr ⟨rfl, he'⟩⟩
  · intro j hj
    have hj' := (Finset.mem_filter.mp hj).2
    rw [eq_ix2 j] at hj'
    obtain ⟨h1, -⟩ := (resultIdx?_nodes wf _ _ idx n d).mp hj'
    have hjj : j = ix2 (j 0) d := by rw [h1]; exact eq_ix2 j
    exact hjj.symm
  · intro e _; rfl
  · intro j hj
    have hj' := (Finset.mem_filter.mp hj).2
    rw [eq_ix2 j] at hj'
    obtain ⟨h1, -⟩ := (resultIdx?_nodes wf _ _ idx n d).mp hj'
    have hjj : j = ix2 (j 0) d := by rw [h1]; exact eq_ix2 j
    exact congrArg upd hjj

/-- The dimension numbers of a gather of whole rows of a node-by-feature array: a column of `M` start indices
    naming nodes, the result over (index, feature). -/
abbrev nodeGatherDims (N D M : Nat)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- The node a start-index word names: read signed and clamped into `[0, N − 1]`. -/
def nodeOf (N : Nat) (hN : 0 < N) {w : Nat} (x : BitVec w) : Fin N := ⟨min x.toInt.toNat (N - 1), by omega⟩

/-- The row gather read at `(e, d)`: the operand at the row `idx[e]` names. -/
theorem gather_nodes_apply {α : Type} (hN : 0 < N)
    (wfg : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (d : Fin D) :
    Host.gather (nodeGatherDims N D M wfg) x idx (ix2 e d)
      = x (ix2 (nodeOf N hN (idx (ix2 e (0 : Fin 1)))) d) := by
  unfold Host.gather
  refine congrArg x (funext fun a => Fin.ext ?_)
  have hst : (nodeGatherDims N D M wfg).start (ix2 e d) idx 0 = min (idx (ix2 e (0 : Fin 1))).toInt.toNat (N - 1) := by
    unfold GatherDims.start
    rw [dif_pos (show (0 : Fin 2) ∈ (nodeGatherDims N D M wfg).startIndexMap from List.mem_singleton.mpr rfl)]
    have hsi : (nodeGatherDims N D M wfg).siIdx (ix2 e d) ⟨List.idxOf (0 : Fin 2) (nodeGatherDims N D M wfg).startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl
  match a with
  | ⟨0, _⟩ =>
    show (nodeGatherDims N D M wfg).start (ix2 e d) idx 0 + (nodeGatherDims N D M wfg).batchCoord (ix2 e d) 0
      + (nodeGatherDims N D M wfg).offCoord (ix2 e d) 0 = min (idx (ix2 e (0 : Fin 1))).toInt.toNat (N - 1)
    have h2 : (nodeGatherDims N D M wfg).batchCoord (ix2 e d) 0 = 0 := rfl
    have h3 : (nodeGatherDims N D M wfg).offCoord (ix2 e d) 0 = 0 := rfl
    rw [hst, h2, h3]; rfl
  | ⟨1, _⟩ =>
    show (nodeGatherDims N D M wfg).start (ix2 e d) idx 1 + (nodeGatherDims N D M wfg).batchCoord (ix2 e d) 1
      + (nodeGatherDims N D M wfg).offCoord (ix2 e d) 1 = d.val
    have h1 : (nodeGatherDims N D M wfg).start (ix2 e d) idx 1 = 0 := rfl
    have h2 : (nodeGatherDims N D M wfg).batchCoord (ix2 e d) 1 = 0 := rfl
    have h3 : (nodeGatherDims N D M wfg).offCoord (ix2 e d) 1 = d.val := rfl
    rw [h1, h2, h3]; omega

end Cert.LibNodes
end
-- ==== Proof.Spec.lean ====
/-
  The function both programs compute, one row at a time, on the extended reals.

  A node's embedding is read off that node's row of the feature matrix: each feature is cleaned of the
  non-numbers (an entry that differs from itself, then the two infinities, each replaced by a constant), centred,
  scaled and clipped to [-10, 10]; a dense layer, an affine normalisation of its 256 outputs by a reciprocal square
  root, a rectifier, a second dense layer and a rectifier follow. A pair's score is read off the two embedding rows
  of its end points and their two degree entries: the rows, their entrywise product and the entrywise absolute value
  of their difference, and the degree pair, each multiplied into its own band of rows of the first scorer matrix,
  the five products added in that order with the bias, rectified; then a rectified dense layer and a last product
  with a one-column matrix. An index word names a node after a wrap of the negative words by the number of nodes
  and a clamp into the node range.
-/
import Idealize.ShloMosaic.PureOps.Ideal
import Idealize.ShloMosaic.PureOps.Ideal.Laws
import Idealize.ShloMosaic.Lib.ValueIdx
import Idealize.ShloMosaic.Lib.Pipeline.Value
import proofs.«173014_j64493228917219_1_alg».proof.Proof.LibNodeScatter

noncomputable section

namespace Cert.Spec

open Idealize.ShloMosaic Idealize.ShloMosaic.ValueIdx

/-- A vector of `a` extended reals. -/
abbrev V1 (a : ℕ) := (⟨1, ![a]⟩ : Shape).Idx → EReal
/-- An `a × b` matrix of extended reals. -/
abbrev V2 (a b : ℕ) := (⟨2, ![a, b]⟩ : Shape).Idx → EReal

/-- The extended real a 32-bit float word denotes. -/
abbrev lit (w : BitVec 32) : EReal := Ideal.ofBits .f32 w

/-- One entry cleaned of the non-numbers: `cn` where it differs from itself, else `cp` where it is the word of
    +infinity, else `cm` where it is the word of -infinity, else itself. -/
def n2n (cn cp cm a : EReal) : EReal :=
  Scalar.select
    (Ideal.cmp .oeq (Scalar.select (Ideal.cmp .oeq (Scalar.select (Ideal.cmp .une a a) cn a) (lit 0x7F800000#32)) cp
      (Scalar.select (Ideal.cmp .une a a) cn a)) (lit 0xFF800000#32))
    cm
    (Scalar.select (Ideal.cmp .oeq (Scalar.select (Ideal.cmp .une a a) cn a) (lit 0x7F800000#32)) cp
      (Scalar.select (Ideal.cmp .une a a) cn a))

/-- Feature `j` of a node, cleaned, centred, scaled and clipped to [-10, 10]. -/
def xfRow (xr : Fin 128 → EReal) (mean std : V1 128) (j : Fin 128) : EReal :=
  min (lit 0x41200000#32) (max (lit 0xC1200000#32)
    (Ideal.div (n2n (lit 0x00000000#32) (lit 0x00000000#32) (lit 0x00000000#32) (xr j) - mean (ix1 j)) (std (ix1 j))))

/-- Hidden unit `k` of a node: the first dense layer, normalised (`mu` subtracted, times the reciprocal square root of
    `var` plus a small constant, times `g`, plus `be`), rectified. -/
def h1Row (xr : Fin 128 → EReal) (mean std : V1 128) (W1 : V2 128 256) (b1 g be mu var : V1 256) (k : Fin 256) : EReal :=
  max ((((((∑ j : Fin 128, xfRow xr mean std j * W1 (ix2 j k)) + b1 (ix1 k)) - mu (ix1 k))
      * Ideal.rsqrt (var (ix1 k) + lit 0x3727C5AC#32)) * g (ix1 k)) + be (ix1 k)) 0

/-- Entry `e` of a node's embedding. -/
def encRow (xr : Fin 128 → EReal) (mean std : V1 128) (W1 : V2 128 256) (b1 g be mu var : V1 256) (W2 : V2 256 128)
    (b2 : V1 128) (e : Fin 128) : EReal :=
  max ((∑ k : Fin 256, h1Row xr mean std W1 b1 g be mu var k * W2 (ix2 k e)) + b2 (ix1 e)) 0

/-- Unit `j` of a pair's first scorer layer, the five products in the order the blocked program adds them. -/
def s1Row (s d : Fin 128 → EReal) (dg : Fin 2 → EReal) (A B C D : V2 128 256) (E : V2 2 256) (sb1 : V1 256) (j : Fin 256) : EReal :=
  max ((((((∑ k : Fin 128, s k * A (ix2 k j)) + ∑ k : Fin 128, d k * B (ix2 k j))
        + ∑ k : Fin 128, (s k * d k) * C (ix2 k j))
        + ∑ k : Fin 128, max (s k - d k) (-(s k - d k)) * D (ix2 k j))
        + ∑ k : Fin 2, dg k * E (ix2 k j)) + sb1 (ix1 j)) 0

/-- Unit `j` of a pair's second scorer layer. -/
def s2Row (s d : Fin 128 → EReal) (dg : Fin 2 → EReal) (A B C D : V2 128 256) (E : V2 2 256) (sb1 : V1 256)
    (sw2 : V2 256 128) (sb2 : V1 128) (j : Fin 128) : EReal :=
  max ((∑ k : Fin 256, s1Row s d dg A B C D E sb1 k * sw2 (ix2 k j)) + sb2 (ix1 j)) 0

/-- A pair's score before the last cleaning. -/
def logitRow (s d : Fin 128 → EReal) (dg : Fin 2 → EReal) (A B C D : V2 128 256) (E : V2 2 256) (sb1 : V1 256)
    (sw2 : V2 256 128) (sb2 : V1 128) (sw3 : V2 128 1) (sb3 : V1 1) : EReal :=
  (∑ k : Fin 128, s2Row s d dg A B C D E sb1 sw2 sb2 k * sw3 (ix2 k (0 : Fin 1))) + sb3 (ix1 (0 : Fin 1))

/-- A negative index word wrapped by the number of nodes. -/
def norm (e : BitVec 32) : BitVec 32 := Scalar.select (IntOp.cmpi .slt e 0#32) (IntOp.addi e 100000#32) e

/-- The node an index word names: wrapped, read signed, clamped into the node range. -/
def row (e : BitVec 32) : Fin 100000 := Cert.LibNodes.nodeOf 100000 (by decide) (norm e)

/-- The band of 128 rows of the first scorer matrix that starts at row `off`. -/
abbrev band (SW1 : V2 514 256) (off : ℕ) (h : (⟨2, ![514, 256]⟩ : Shape).Slices ![off, 0] ⟨2, ![128, 256]⟩) : V2 128 256 :=
  extractStridedSlice ⟨2, ![128, 256]⟩ ![off, 0] SW1 h

/-- The last two rows of the first scorer matrix. -/
abbrev band2 (SW1 : V2 514 256) (h : (⟨2, ![514, 256]⟩ : Shape).Slices ![512, 0] ⟨2, ![2, 256]⟩) : V2 2 256 :=
  extractStridedSlice ⟨2, ![2, 256]⟩ ![512, 0] SW1 h

/-- The embedding row of the node an index word names. -/
def zRow (x : V2 100000 128) (mean std : V1 128) (W1 : V2 128 256) (b1 g be mu var : V1 256) (W2 : V2 256 128) (b2 : V1 128)
    (e : BitVec 32) : Fin 128 → EReal :=
  encRow (fun j => x (ix2 (row e) j)) mean std W1 b1 g be mu var W2 b2

/-- The whole result: pair `p`'s cleaned score. -/
def out (x : V2 100000 128) (ep : (⟨2, ![500000, 2]⟩ : Shape).Idx → BitVec 32) (mean std : V1 128) (ld : V1 100000)
    (W1 : V2 128 256) (b1 g be mu var : V1 256) (W2 : V2 256 128) (b2 : V1 128)
    (SW1 : V2 514 256) (Sb1 : V1 256) (SW2 : V2 256 128) (Sb2 : V1 128) (SW3 : V2 128 1) (Sb3 : V1 1)
    (h0 : (⟨2, ![514, 256]⟩ : Shape).Slices ![0, 0] ⟨2, ![128, 256]⟩) (h1 : (⟨2, ![514, 256]⟩ : Shape).Slices ![128, 0] ⟨2, ![128, 256]⟩)
    (h2 : (⟨2, ![514, 256]⟩ : Shape).Slices ![256, 0] ⟨2, ![128, 256]⟩) (h3 : (⟨2, ![514, 256]⟩ : Shape).Slices ![384, 0] ⟨2, ![128, 256]⟩)
    (h4 : (⟨2, ![514, 256]⟩ : Shape).Slices ![512, 0] ⟨2, ![2, 256]⟩) :
    (⟨1, ![500000]⟩ : Shape).Idx → EReal :=
  fun i =>
    n2n (lit 0x00000000#32) (lit 0x41A00000#32) (lit 0xC1A00000#32)
      (logitRow (zRow x mean std W1 b1 g be mu var W2 b2 (ep (ix2 (⟨(i 0).val, (i 0).isLt⟩ : Fin 500000) (0 : Fin 2))))
        (zRow x mean std W1 b1 g be mu var W2 b2 (ep (ix2 (⟨(i 0).val, (i 0).isLt⟩ : Fin 500000) (1 : Fin 2))))
        (fun k => ld (ix1 (row (ep (ix2 (⟨(i 0).val, (i 0).isLt⟩ : Fin 500000) k)))))
        (band SW1 0 h0) (band SW1 128 h1) (band SW1 256 h2) (band SW1 384 h3) (band2 SW1 h4) Sb1 SW2 Sb2 SW3 Sb3)

end Cert.Spec

end
-- ==== Proof.LibHostRead.lean ====
/-
  Host and kernel layout operations read at an index of a rank-2 array, and a plain matrix product as a sum.

  `broadcast_in_dim` in the five forms a row-wise reference uses — a vector as the one row or the one column of a
  matrix, a row or a column repeated along a matrix, a scalar spread over any shape —, each read at `ix2 p c`; and a
  dot that is rows × contraction times contraction × columns (`PlainDot`: one contracted axis, the four coordinate
  facts, each a `decide` or a library lemma at a literal dot) read at `(p, j)` as `Σ k, lhs (p, k) · rhs (k, j)`,
  for the host's `dot_general` and for the kernel's matrix product into the zero accumulator. On the extended reals.
-/
import Idealize.ShloMosaic.Lib.Pipeline.Value
import Idealize.ShloMosaic.Lib.ValueIdx
import Idealize.ShloMosaic.PureOps.Ideal.Laws

noncomputable section

namespace Cert.LibHostRead

open Idealize.ShloMosaic Idealize.ShloMosaic.ValueIdx

variable {α : Type}

/-- A vector `[b]` placed as the one row of `[1, b]`: at `(u, c)` it reads the vector at `c`. -/
theorem bid_b_1b_apply {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) :=
  broadcastInDim_apply _ h x _ _ fun a => by
    match a with
    | ⟨0, _⟩ =>
      show c.val = if b = 1 then 0 else c.val
      split
      · have := c.isLt; omega
      · rfl

/-- A row `[1, b]` repeated along `[a, b]`: at `(p, c)` it reads the row at `c`. -/
theorem bid_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ => show 0 = if (1 : ℕ) = 1 then 0 else p.val; rw [if_pos rfl]
    | ⟨1, _⟩ =>
      show c.val = if b = 1 then 0 else c.val
      split
      · have := c.isLt; omega
      · rfl

/-- A vector `[a]` placed as the one column of `[a, 1]`: at `(p, u)` it reads the vector at `p`. -/
theorem bid_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x _ _ fun ax => by
    match ax with
    | ⟨0, _⟩ =>
      show p.val = if a = 1 then 0 else p.val
      split
      · have := p.isLt; omega
      · rfl

/-- A column `[a, 1]` repeated along `[a, b]`: at `(p, c)` it reads the column at `p`. -/
theorem bid_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ => show 0 = if (1 : ℕ) = 1 then 0 else c.val; rw [if_pos rfl]

/-- A scalar spread over any shape reads the scalar everywhere. -/
theorem bid_scalar_apply {t : Shape} (x : (⟨0, ![]⟩ : Shape).Idx → α) (h : (⟨0, ![]⟩ : Shape).BroadcastsInDim t ![])
    (i : t.Idx) : broadcastInDim t ![] h x i = x ix0 :=
  broadcastInDim_apply _ h x i ix0 fun a => a.elim0

/-- What makes a dot a plain product of an `M × K` by a `K × N` matrix: one contracted axis of extent `K`; the left operand
    is read at (row of the result, contracted coordinate), the right at (contracted coordinate, column of the result). -/
structure PlainDot {M K N : ℕ} (d : DotDims ⟨2, ![M, K]⟩ ⟨2, ![K, N]⟩ ⟨2, ![M, N]⟩) : Prop where
  hr : d.contr.rank = 1
  hs : d.contr.size ⟨0, by omega⟩ = K
  hl0 : ∀ (i : (⟨2, ![M, N]⟩ : Shape).Idx) (q : d.contr.Idx), (d.lhsIdx i q 0).val = (i 0).val
  hl1 : ∀ (i : (⟨2, ![M, N]⟩ : Shape).Idx) (q : d.contr.Idx), (d.lhsIdx i q 1).val = (q ⟨0, by omega⟩).val
  hr0 : ∀ (i : (⟨2, ![M, N]⟩ : Shape).Idx) (q : d.contr.Idx), (d.rhsIdx i q 0).val = (q ⟨0, by omega⟩).val
  hr1 : ∀ (i : (⟨2, ![M, N]⟩ : Shape).Idx) (q : d.contr.Idx), (d.rhsIdx i q 1).val = (i 1).val

/-- The sum over a plain dot's contraction index is the sum over `Fin K` of the products along row `p` and column `j`. -/
theorem PlainDot.sum_eq {M K N : ℕ} {d : DotDims ⟨2, ![M, K]⟩ ⟨2, ![K, N]⟩ ⟨2, ![M, N]⟩} (hd : PlainDot d)
    (lhs : (⟨2, ![M, K]⟩ : Shape).Idx → EReal) (rhs : (⟨2, ![K, N]⟩ : Shape).Idx → EReal) (p : Fin M) (j : Fin N) :
    ∑ k : d.contr.Idx, lhs (d.lhsIdx (ix2 p j) k) * rhs (d.rhsIdx (ix2 p j) k) = ∑ k : Fin K, lhs (ix2 p k) * rhs (ix2 k j) := by
  rw [← Equiv.sum_comp (contrEquiv1 d K hd.hr hd.hs).symm]
  refine Finset.sum_congr rfl fun k _ => ?_
  have hk := contrEquiv1_symm_val d K hd.hr hd.hs k
  have el : d.lhsIdx (ix2 p j) ((contrEquiv1 d K hd.hr hd.hs).symm k) = ix2 p k := funext fun a => Fin.ext (by
    match a with
    | ⟨0, _⟩ => exact hd.hl0 _ _
    | ⟨1, _⟩ => exact (hd.hl1 _ _).trans hk)
  have er : d.rhsIdx (ix2 p j) ((contrEquiv1 d K hd.hr hd.hs).symm k) = ix2 k j := funext fun a => Fin.ext (by
    match a with
    | ⟨0, _⟩ => exact (hd.hr0 _ _).trans hk
    | ⟨1, _⟩ => exact hd.hr1 _ _)
  rw [el, er]

/-- The host's product of two matrices at `(p, j)`. -/
theorem dotGeneral_plain_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.dotGeneral d none .single lhs rhs (ix2 p j) = ∑ k : Fin K, lhs (ix2 p k) * rhs (ix2 k j) := by
  rw [Ideal.dotGeneral_apply]
  exact hd.sum_eq lhs rhs p j

/-- The kernel's matrix product into the zero accumulator at `(p, j)`. -/
theorem matmul_plain_zero_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.matmul d none lhs rhs (constant ⟨2, ![M, N]⟩ .f32 0x00000000#32) (ix2 p j)
      = ∑ k : Fin K, lhs (ix2 p k) * rhs (ix2 k j) := by
  rw [Ideal.matmul_constant_zero_apply]
  exact hd.sum_eq lhs rhs p j

end Cert.LibHostRead

end
-- ==== Proof.LibColumn.lean ====
/-
  A column [a, 1] cast to a vector [a], read at an index: entry i of the vector is entry (i, 0) of the column
  (both are position i of the row-major order).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a, 1]` column cast to `[a]` reads, at `i`, the column's entry `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibColumn

end
-- ==== Proof.LibGather1.lean ====
/-
  Entries of a vector gathered through a column of index words, read at an index.

  The operand is a vector of `N` entries; the indices are a column of `M` words, each naming an entry; the result
  is a vector of `M` entries. Result entry `e` is the operand's entry `idx[e]`, the word read signed and clamped
  into `[0, N − 1]`.
-/
import Idealize.ShloMosaic.PureOps.Ideal
import Idealize.ShloMosaic.Lib.ValueIdx

noncomputable section
namespace Cert.LibGather1

open Idealize.ShloMosaic Idealize.ShloMosaic.ValueIdx

/-- The dimension numbers of a gather of single entries of a vector: a column of `M` start indices, the one
    operand axis collapsed, no window axis in the result. -/
abbrev entryGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The entry a start-index word names: read signed and clamped into `[0, N − 1]`. -/
def entryOf (N : Nat) (hN : 0 < N) {w : Nat} (x : BitVec w) : Fin N := ⟨min x.toInt.toNat (N - 1), by omega⟩

/-- The entry gather read at `e`: the operand at the entry `idx[e]` names. -/
theorem gather_entries_apply {α : Type} {N M w : Nat} (hN : 0 < N)
    (wfg : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (entryGatherDims N M wfg) x idx (ix1 e) = x (ix1 (entryOf N hN (idx (ix2 e (0 : Fin 1))))) := by
  unfold Host.gather
  refine congrArg x (funext fun a => Fin.ext ?_)
  obtain rfl : a = 0 := Subsingleton.elim _ _
  have hst : (entryGatherDims N M wfg).start (ix1 e) idx 0 = min (idx (ix2 e (0 : Fin 1))).toInt.toNat (N - 1) := by
    unfold GatherDims.start
    rw [dif_pos (show (0 : Fin 1) ∈ (entryGatherDims N M wfg).startIndexMap from List.mem_singleton.mpr rfl)]
    have hsi : (entryGatherDims N M wfg).siIdx (ix1 e) ⟨List.idxOf (0 : Fin 1) (entryGatherDims N M wfg).startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl
  show (entryGatherDims N M wfg).start (ix1 e) idx 0 + (entryGatherDims N M wfg).batchCoord (ix1 e) 0
    + (entryGatherDims N M wfg).offCoord (ix1 e) 0 = min (idx (ix2 e (0 : Fin 1))).toInt.toNat (N - 1)
  have h2 : (entryGatherDims N M wfg).batchCoord (ix1 e) 0 = 0 := rfl
  have h3 : (entryGatherDims N M wfg).offCoord (ix1 e) 0 = 0 := rfl
  rw [hst, h2, h3]; rfl

end Cert.LibGather1
end
-- ==== Proof.KernelMidArr.lean ====
/- The host operations between the two regions, as whole arrays.

   Between the encoder region and the scorer region the program takes the two columns of the pair table, pads each
   with zero words to 503808 entries, wraps the negative words by the number of nodes, and through each padded
   column gathers whole rows of the embedding array and single entries of the degree vector; the two gathered degree
   vectors are placed side by side as the two columns of one array; and the first scorer matrix is cut into its five
   bands of rows. Here each of the scorer region's input buffers, after these operations from ANY buffer contents
   `W`, is named as one term of the contents `W` gives the embedding array and the arguments. -/
import proofs.«173014_j64493228917219_1_alg».proof.Proof.Gen.KernelIdeal.Frame
import proofs.«173014_j64493228917219_1_alg».proof.Proof.Spec
import proofs.«173014_j64493228917219_1_alg».proof.Proof.LibHostRead
import proofs.«173014_j64493228917219_1_alg».proof.Proof.LibNodeScatter
import proofs.«173014_j64493228917219_1_alg».proof.Proof.LibColumn
import proofs.«173014_j64493228917219_1_alg».proof.Proof.LibGather1
import Idealize.ShloMosaic.Lib.StableHlo.Run
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx

/-- Column 0 of the pair table as a vector, padded with zero words to 503808 entries. -/
def padCol0 (ep : IVec S500000x2 32) : IVec S503808 32 :=
  pad S503808 ![0] ![3808] ![0]
    (shapeCast S500000 (extractStridedSlice S500000x1 ![0, 0] ep slices_S500000x2_S500000x1_0_0) shapeCasts_S500000x1_S500000)
    (constantI S_ 32 0#32) pads_S500000_S503808_038080 h_S_
/-- Column 1 of the pair table as a vector, padded with zero words to 503808 entries. -/
def padCol1 (ep : IVec S500000x2 32) : IVec S503808 32 :=
  pad S503808 ![0] ![3808] ![0]
    (shapeCast S500000 (extractStridedSlice S500000x1 ![0, 1] ep slices_S500000x2_S500000x1_0_1) shapeCasts_S500000x1_S500000)
    (constantI S_ 32 0#32) pads_S500000_S503808_038080 h_S_
/-- The negative index words wrapped by the number of nodes. -/
def wrapIdx (v : IVec S503808 32) : IVec S503808 32 :=
  select (cmpi .slt v (broadcastInDim S503808 ![] bcast_S_S503808 (constantI S_ 32 0#32)))
    (addi v (broadcastInDim S503808 ![] bcast_S_S503808 (constantI S_ 32 100000#32))) v
/-- A vector of 503808 entries as a one-column array. -/
def asCol {α : Type} (v : S503808.Idx → α) : S503808x1.Idx → α :=
  broadcastInDim S503808x1 ![0] bcast_S503808_S503808x1_0 v

/-- The buffer contents after the five host stretches between the regions, from the contents `W`. -/
abbrev mid (W : Valuation τ sig (Elt Ideal)) : Valuation τ sig (Elt Ideal) :=
  StableHlo.after (hostOps1_4 (F := Ideal)) (StableHlo.after (hostOps1_3 (F := Ideal)) (StableHlo.after (hostOps1_2 (F := Ideal))
    (StableHlo.after (hostOps1_1 (F := Ideal)) (StableHlo.after (hostOps1 (F := Ideal)) W))))

variable (W : Valuation τ sig (Elt Ideal))

theorem mid_v13 : mid W (Proc.devRef .tc main_v13)
    = Host.gather gather_S100000x128_S503808x1_S503808x128_1_0_n_n_0_1_1128 (W (Proc.devRef .tc main_v0) : S100000x128.Idx → EReal)
        (asCol (wrapIdx (padCol0 (W (Proc.devRef .tc main_arg2))))) := by
  after_results_simp
  rfl
theorem mid_v20 : mid W (Proc.devRef .tc main_v20)
    = Host.gather gather_S100000x128_S503808x1_S503808x128_1_0_n_n_0_1_1128 (W (Proc.devRef .tc main_v0) : S100000x128.Idx → EReal)
        (asCol (wrapIdx (padCol1 (W (Proc.devRef .tc main_arg2))))) := by
  after_results_simp
  rfl
theorem mid_v37 : mid W (Proc.devRef .tc main_v37)
    = concatenate S503808x2 1
        [⟨S503808x1, asCol (Host.gather gather_S100000_S503808x1_S503808_n_0_n_n_0_1_1 (W (Proc.devRef .tc main_arg5) : S100000.Idx → EReal)
            (asCol (wrapIdx (padCol0 (W (Proc.devRef .tc main_arg2))))))⟩,
         ⟨S503808x1, asCol (Host.gather gather_S100000_S503808x1_S503808_n_0_n_n_0_1_1 (W (Proc.devRef .tc main_arg5) : S100000.Idx → EReal)
            (asCol (wrapIdx (padCol1 (W (Proc.devRef .tc main_arg2))))))⟩]
        concatenates_S503808x1_S503808x1_S503808x2_d1 := by
  after_results_simp
  rfl
theorem mid_v38 : mid W (Proc.devRef .tc main_v38)
    = extractStridedSlice S128x256 ![0, 0] (W (Proc.devRef .tc main_arg14) : S514x256.Idx → EReal) slices_S514x256_S128x256_0_0 := by
  after_results_simp
theorem mid_v39 : mid W (Proc.devRef .tc main_v39)
    = extractStridedSlice S128x256 ![128, 0] (W (Proc.devRef .tc main_arg14) : S514x256.Idx → EReal) slices_S514x256_S128x256_128_0 := by
  after_results_simp
theorem mid_v40 : mid W (Proc.devRef .tc main_v40)
    = extractStridedSlice S128x256 ![256, 0] (W (Proc.devRef .tc main_arg14) : S514x256.Idx → EReal) slices_S514x256_S128x256_256_0 := by
  after_results_simp
theorem mid_v41 : mid W (Proc.devRef .tc main_v41)
    = extractStridedSlice S128x256 ![384, 0] (W (Proc.devRef .tc main_arg14) : S514x256.Idx → EReal) slices_S514x256_S128x256_384_0 := by
  after_results_simp
theorem mid_v42 : mid W (Proc.devRef .tc main_v42)
    = extractStridedSlice S2x256 ![512, 0] (W (Proc.devRef .tc main_arg14) : S514x256.Idx → EReal) slices_S514x256_S2x256_512_0 := by
  after_results_simp
theorem mid_arg15 : mid W (Proc.devRef .tc main_arg15) = W (Proc.devRef .tc main_arg15) := by after_results_simp
theorem mid_arg16 : mid W (Proc.devRef .tc main_arg16) = W (Proc.devRef .tc main_arg16) := by after_results_simp
theorem mid_arg17 : mid W (Proc.devRef .tc main_arg17) = W (Proc.devRef .tc main_arg17) := by after_results_simp
theorem mid_arg18 : mid W (Proc.devRef .tc main_arg18) = W (Proc.devRef .tc main_arg18) := by after_results_simp
theorem mid_arg19 : mid W (Proc.devRef .tc main_arg19) = W (Proc.devRef .tc main_arg19) := by after_results_simp

end Cert.KernelIdeal.Hand
end
-- ==== Proof.KernelMid.lean ====
/- The host operations between the two regions, read at an entry.

   Between the encoder region and the scorer region the program takes the two columns of the pair table, pads each
   with zero words to 503808 entries, wraps the negative words by the number of nodes, and through each padded
   column gathers whole rows of the embedding array and single entries of the degree vector; the two gathered degree
   vectors are placed side by side as the two columns of one array; and the first scorer matrix is cut into its five
   bands of rows. Each of the scorer region's input arrays is read here at an index as a function of the encoder
   region's output array and of the program's arguments. -/
import proofs.«173014_j64493228917219_1_alg».proof.Proof.KernelMidArr
import proofs.«173014_j64493228917219_1_alg».proof.Proof.Spec
import proofs.«173014_j64493228917219_1_alg».proof.Proof.LibHostRead
import proofs.«173014_j64493228917219_1_alg».proof.Proof.LibNodeScatter
import proofs.«173014_j64493228917219_1_alg».proof.Proof.LibColumn
import proofs.«173014_j64493228917219_1_alg».proof.Proof.LibGather1
import Idealize.ShloMosaic.Lib.StableHlo.Run
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx

/-! ## The index operations at an entry -/

/-- Entry `q` of column `j` of the pair table padded with zero words to 503808 entries. -/
def padWord (ep : IVec S500000x2 32) (q : Fin 503808) (j : Fin 2) : BitVec 32 :=
  if h : q.val < 500000 then ep (ix2 (⟨q.val, h⟩ : Fin 500000) j) else 0#32

/-- The padded column 0 at entry `q`. -/
theorem padCol0_apply (ep : IVec S500000x2 32) (q : Fin 503808) : padCol0 ep (ix1 q) = padWord ep q 0 := by
  unfold padCol0 padWord
  by_cases h : q.val < 500000
  · rw [dif_pos h]
    refine (pad_apply_of_inside _ _ _ _ _ pads_S500000_S503808_038080 h_S_ (ix1 q) (ix1 (⟨q.val, h⟩ : Fin 500000)) (fun a => by
      obtain rfl : a = 0 := Subsingleton.elim _ _
      show q.val = 0 + q.val * (0 + 1)
      omega)).trans ?_
    rw [Cert.LibColumn.shapeCast_a1_a_apply]
    exact slice2_axis1_apply 0 ep _ _ (0 : Fin 1) (0 : Fin 2) rfl
  · rw [dif_neg h]
    exact pad_apply_of_not_inside _ _ _ _ _ pads_S500000_S503808_038080 h_S_ (ix1 q) (0 : Fin 1) (fun hin => by
      have e : (q.val - 0) / (0 + 1) < 500000 := hin.2.2
      omega)

/-- The padded column 1 at entry `q`. -/
theorem padCol1_apply (ep : IVec S500000x2 32) (q : Fin 503808) : padCol1 ep (ix1 q) = padWord ep q 1 := by
  unfold padCol1 padWord
  by_cases h : q.val < 500000
  · rw [dif_pos h]
    refine (pad_apply_of_inside _ _ _ _ _ pads_S500000_S503808_038080 h_S_ (ix1 q) (ix1 (⟨q.val, h⟩ : Fin 500000)) (fun a => by
      obtain rfl : a = 0 := Subsingleton.elim _ _
      show q.val = 0 + q.val * (0 + 1)
      omega)).trans ?_
    rw [Cert.LibColumn.shapeCast_a1_a_apply]
    exact slice2_axis1_apply 1 ep _ _ (0 : Fin 1) (1 : Fin 2) rfl
  · rw [dif_neg h]
    exact pad_apply_of_not_inside _ _ _ _ _ pads_S500000_S503808_038080 h_S_ (ix1 q) (0 : Fin 1) (fun hin => by
      have e : (q.val - 0) / (0 + 1) < 500000 := hin.2.2
      omega)

/-- The wrap of the negative words at entry `q`. -/
theorem wrapIdx_apply (v : IVec S503808 32) (q : Fin 503808) : wrapIdx v (ix1 q) = Cert.Spec.norm (v (ix1 q)) := by
  have h0 : broadcastInDim S503808 ![] bcast_S_S503808 (constantI S_ 32 0#32) (ix1 q) = 0#32 :=
    Cert.LibHostRead.bid_scalar_apply _ _ _
  have h1 : broadcastInDim S503808 ![] bcast_S_S503808 (constantI S_ 32 100000#32) (ix1 q) = 100000#32 :=
    Cert.LibHostRead.bid_scalar_apply _ _ _
  show Scalar.select (IntOp.cmpi .slt (v (ix1 q)) (broadcastInDim S503808 ![] bcast_S_S503808 (constantI S_ 32 0#32) (ix1 q)))
      (IntOp.addi (v (ix1 q)) (broadcastInDim S503808 ![] bcast_S_S503808 (constantI S_ 32 100000#32) (ix1 q))) (v (ix1 q)) = _
  rw [h0, h1]
  rfl

/-- A vector as a one-column array, at `(q, 0)`. -/
theorem asCol_apply {α : Type} (v : S503808.Idx → α) (q : Fin 503808) : asCol v (ix2 q (0 : Fin 1)) = v (ix1 q) :=
  Cert.LibHostRead.bid_a_a1_apply v _ q 0

/-- The gather of embedding rows at `(q, k)`. -/
theorem gatherRows_apply (Z : S100000x128.Idx → EReal) (idx : IVec S503808x1 32) (q : Fin 503808) (k : Fin 128) :
    Host.gather gather_S100000x128_S503808x1_S503808x128_1_0_n_n_0_1_1128 Z idx (ix2 q k)
      = Z (ix2 (Cert.LibNodes.nodeOf 100000 (by decide) (idx (ix2 q (0 : Fin 1)))) k) :=
  Cert.LibNodes.gather_nodes_apply (N := 100000) (D := 128) (M := 503808) (by decide)
    gather_S100000x128_S503808x1_S503808x128_1_0_n_n_0_1_1128_wf Z idx q k

/-- The gather of degree entries at `q`. -/
theorem gatherEntries_apply (ld : S100000.Idx → EReal) (idx : IVec S503808x1 32) (q : Fin 503808) :
    Host.gather gather_S100000_S503808x1_S503808_n_0_n_n_0_1_1 ld idx (ix1 q)
      = ld (ix1 (Cert.LibNodes.nodeOf 100000 (by decide) (idx (ix2 q (0 : Fin 1))))) :=
  Cert.LibGather1.gather_entries_apply (N := 100000) (M := 503808) (by decide)
    gather_S100000_S503808x1_S503808_n_0_n_n_0_1_1_wf ld idx q

/-- The node a padded, wrapped index column names at entry `q`. -/
theorem node0 (ep : IVec S500000x2 32) (q : Fin 503808) :
    Cert.LibNodes.nodeOf 100000 (by decide) (asCol (wrapIdx (padCol0 ep)) (ix2 q (0 : Fin 1))) = Cert.Spec.row (padWord ep q 0) := by
  rw [asCol_apply, wrapIdx_apply, padCol0_apply]; rfl
theorem node1 (ep : IVec S500000x2 32) (q : Fin 503808) :
    Cert.LibNodes.nodeOf 100000 (by decide) (asCol (wrapIdx (padCol1 ep)) (ix2 q (0 : Fin 1))) = Cert.Spec.row (padWord ep q 1) := by
  rw [asCol_apply, wrapIdx_apply, padCol1_apply]; rfl

/-! ## The scorer region's input arrays at its entry -/

variable (m : (ℓ : Loc nD τ sig) → Buf (Elt Ideal) ℓ) (ρ : Dev nD → PrngReg) (c : Dev nD)

/-- After the encoder region its output buffer holds the region's output array. -/
theorem W1_v0 : Gen.W1 m ρ c (Proc.devRef .tc main_v0) = (Gen.dat0 (Gen.V0 m ρ) c).arrAt 11 cfg0.N := Gen.W1_arr m ρ c 11
/-- After the encoder region the pair table, the degree vector and the scorer's parameters hold what they held at launch. -/
theorem W1_arg2 : Gen.W1 m ρ c (Proc.devRef .tc main_arg2) = m ((c.tc : Thread nD τ).loc main_arg2) := Gen.W1_of_ne m ρ c main_arg2 (by decide)
theorem W1_arg5 : Gen.W1 m ρ c (Proc.devRef .tc main_arg5) = m ((c.tc : Thread nD τ).loc main_arg5) := Gen.W1_of_ne m ρ c main_arg5 (by decide)
theorem W1_arg14 : Gen.W1 m ρ c (Proc.devRef .tc main_arg14) = m ((c.tc : Thread nD τ).loc main_arg14) := Gen.W1_of_ne m ρ c main_arg14 (by decide)
theorem W1_arg15 : Gen.W1 m ρ c (Proc.devRef .tc main_arg15) = m ((c.tc : Thread nD τ).loc main_arg15) := Gen.W1_of_ne m ρ c main_arg15 (by decide)
theorem W1_arg16 : Gen.W1 m ρ c (Proc.devRef .tc main_arg16) = m ((c.tc : Thread nD τ).loc main_arg16) := Gen.W1_of_ne m ρ c main_arg16 (by decide)
theorem W1_arg17 : Gen.W1 m ρ c (Proc.devRef .tc main_arg17) = m ((c.tc : Thread nD τ).loc main_arg17) := Gen.W1_of_ne m ρ c main_arg17 (by decide)
theorem W1_arg18 : Gen.W1 m ρ c (Proc.devRef .tc main_arg18) = m ((c.tc : Thread nD τ).loc main_arg18) := Gen.W1_of_ne m ρ c main_arg18 (by decide)
theorem W1_arg19 : Gen.W1 m ρ c (Proc.devRef .tc main_arg19) = m ((c.tc : Thread nD τ).loc main_arg19) := Gen.W1_of_ne m ρ c main_arg19 (by decide)

/-- Row `q` of the first gathered array is the embedding row of the node that pair `q`'s first index word names. -/
theorem V6_src (q : Fin 503808) (k : Fin 128) :
    (Gen.V6 m ρ c main_v13 : S503808x128.Idx → EReal) (ix2 q k)
      = ((Gen.dat0 (Gen.V0 m ρ) c).arrAt 11 cfg0.N : S100000x128.Idx → EReal)
          (ix2 (Cert.Spec.row (padWord (m ((c.tc : Thread nD τ).loc main_arg2)) q 0)) k) := by
  have h := mid_v13 (Gen.W1 m ρ c)
  rw [W1_v0, W1_arg2] at h
  show mid (Gen.W1 m ρ c) (Proc.devRef .tc main_v13) (ix2 q k) = _
  rw [h, gatherRows_apply, node0]

/-- Row `q` of the second gathered array is the embedding row of the node that pair `q`'s second index word names. -/
theorem V6_dst (q : Fin 503808) (k : Fin 128) :
    (Gen.V6 m ρ c main_v20 : S503808x128.Idx → EReal) (ix2 q k)
      = ((Gen.dat0 (Gen.V0 m ρ) c).arrAt 11 cfg0.N : S100000x128.Idx → EReal)
          (ix2 (Cert.Spec.row (padWord (m ((c.tc : Thread nD τ).loc main_arg2)) q 1)) k) := by
  have h := mid_v20 (Gen.W1 m ρ c)
  rw [W1_v0, W1_arg2] at h
  show mid (Gen.W1 m ρ c) (Proc.devRef .tc main_v20) (ix2 q k) = _
  rw [h, gatherRows_apply, node1]

theorem V6_deg0 (q : Fin 503808) :
    (Gen.V6 m ρ c main_v37 : S503808x2.Idx → EReal) (ix2 q (0 : Fin 2))
      = (m ((c.tc : Thread nD τ).loc main_arg5) : S100000.Idx → EReal)
          (ix1 (Cert.Spec.row (padWord (m ((c.tc : Thread nD τ).loc main_arg2)) q 0))) := by
  have h := mid_v37 (Gen.W1 m ρ c)
  rw [W1_arg5, W1_arg2] at h
  show mid (Gen.W1 m ρ c) (Proc.devRef .tc main_v37) (ix2 q (0 : Fin 2)) = _
  rw [h]
  refine (concatenate_pair_apply_left _ _ _ concatenates_S503808x1_S503808x1_S503808x2_d1 (ix2 q (0 : Fin 2)) rfl
    (ix2 q (0 : Fin 1)) (fun b => ?_)).trans ?_
  · match b with
    | ⟨0, _⟩ => rfl
    | ⟨1, _⟩ => rfl
  · rw [asCol_apply, gatherEntries_apply, node0]

theorem V6_deg1 (q : Fin 503808) :
    (Gen.V6 m ρ c main_v37 : S503808x2.Idx → EReal) (ix2 q (1 : Fin 2))
      = (m ((c.tc : Thread nD τ).loc main_arg5) : S100000.Idx → EReal)
          (ix1 (Cert.Spec.row (padWord (m ((c.tc : Thread nD τ).loc main_arg2)) q 1))) := by
  have h := mid_v37 (Gen.W1 m ρ c)
  rw [W1_arg5, W1_arg2] at h
  show mid (Gen.W1 m ρ c) (Proc.devRef .tc main_v37) (ix2 q (1 : Fin 2)) = _
  rw [h]
  refine (concatenate_pair_apply_right _ _ _ concatenates_S503808x1_S503808x1_S503808x2_d1 (ix2 q (1 : Fin 2)) rfl rfl
    (ix2 q (0 : Fin 1)) (fun b hb => ?_) rfl).trans ?_
  · match b with
    | ⟨0, _⟩ => rfl
    | ⟨1, _⟩ => exact absurd rfl hb
  · rw [asCol_apply, gatherEntries_apply, node1]

/-- Row `q` of the degree array holds the degree entries of the two nodes that pair `q`'s index words name. -/
theorem V6_deg (q : Fin 503808) (j : Fin 2) :
    (Gen.V6 m ρ c main_v37 : S503808x2.Idx → EReal) (ix2 q j)
      = (m ((c.tc : Thread nD τ).loc main_arg5) : S100000.Idx → EReal)
          (ix1 (Cert.Spec.row (padWord (m ((c.tc : Thread nD τ).loc main_arg2)) q j))) := by
  match j with
  | ⟨0, _⟩ => exact V6_deg0 m ρ c q
  | ⟨1, _⟩ => exact V6_deg1 m ρ c q

/-- The five bands of rows of the first scorer matrix. -/
theorem V6_band0 : (Gen.V6 m ρ c main_v38 : S128x256.Idx → EReal)
    = extractStridedSlice S128x256 ![0, 0] (m ((c.tc : Thread nD τ).loc main_arg14) : S514x256.Idx → EReal) slices_S514x256_S128x256_0_0 := by
  have h := mid_v38 (Gen.W1 m ρ c); rw [W1_arg14] at h; exact h
theorem V6_band1 : (Gen.V6 m ρ c main_v39 : S128x256.Idx → EReal)
    = extractStridedSlice S128x256 ![128, 0] (m ((c.tc : Thread nD τ).loc main_arg14) : S514x256.Idx → EReal) slices_S514x256_S128x256_128_0 := by
  have h := mid_v39 (Gen.W1 m ρ c); rw [W1_arg14] at h; exact h
theorem V6_band2 : (Gen.V6 m ρ c main_v40 : S128x256.Idx → EReal)
    = extractStridedSlice S128x256 ![256, 0] (m ((c.tc : Thread nD τ).loc main_arg14) : S514x256.Idx → EReal) slices_S514x256_S128x256_256_0 := by
  have h := mid_v40 (Gen.W1 m ρ c); rw [W1_arg14] at h; exact h
theorem V6_band3 : (Gen.V6 m ρ c main_v41 : S128x256.Idx → EReal)
    = extractStridedSlice S128x256 ![384, 0] (m ((c.tc : Thread nD τ).loc main_arg14) : S514x256.Idx → EReal) slices_S514x256_S128x256_384_0 := by
  have h := mid_v41 (Gen.W1 m ρ c); rw [W1_arg14] at h; exact h
theorem V6_band4 : (Gen.V6 m ρ c main_v42 : S2x256.Idx → EReal)
    = extractStridedSlice S2x256 ![512, 0] (m ((c.tc : Thread nD τ).loc main_arg14) : S514x256.Idx → EReal) slices_S514x256_S2x256_512_0 := by
  have h := mid_v42 (Gen.W1 m ρ c); rw [W1_arg14] at h; exact h

/-- The scorer's other parameters enter the region as launched. -/
theorem V6_arg15 : Gen.V6 m ρ c main_arg15 = m ((c.tc : Thread nD τ).loc main_arg15) := (mid_arg15 (Gen.W1 m ρ c)).trans (W1_arg15 m ρ c)
theorem V6_arg16 : Gen.V6 m ρ c main_arg16 = m ((c.tc : Thread nD τ).loc main_arg16) := (mid_arg16 (Gen.W1 m ρ c)).trans (W1_arg16 m ρ c)
theorem V6_arg17 : Gen.V6 m ρ c main_arg17 = m ((c.tc : Thread nD τ).loc main_arg17) := (mid_arg17 (Gen.W1 m ρ c)).trans (W1_arg17 m ρ c)
theorem V6_arg18 : Gen.V6 m ρ c main_arg18 = m ((c.tc : Thread nD τ).loc main_arg18) := (mid_arg18 (Gen.W1 m ρ c)).trans (W1_arg18 m ρ c)
theorem V6_arg19 : Gen.V6 m ρ c main_arg19 = m ((c.tc : Thread nD τ).loc main_arg19) := (mid_arg19 (Gen.W1 m ρ c)).trans (W1_arg19 m ρ c)

/-- The encoder region is entered from the launch memory. -/
theorem V0_arg0 : Gen.V0 m ρ c main_arg0 = m ((c.tc : Thread nD τ).loc main_arg0) := rfl
theorem V0_arg3 : Gen.V0 m ρ c main_arg3 = m ((c.tc : Thread nD τ).loc main_arg3) := rfl
theorem V0_arg4 : Gen.V0 m ρ c main_arg4 = m ((c.tc : Thread nD τ).loc main_arg4) := rfl
theorem V0_arg6 : Gen.V0 m ρ c main_arg6 = m ((c.tc : Thread nD τ).loc main_arg6) := rfl
theorem V0_arg7 : Gen.V0 m ρ c main_arg7 = m ((c.tc : Thread nD τ).loc main_arg7) := rfl
theorem V0_arg8 : Gen.V0 m ρ c main_arg8 = m ((c.tc : Thread nD τ).loc main_arg8) := rfl
theorem V0_arg9 : Gen.V0 m ρ c main_arg9 = m ((c.tc : Thread nD τ).loc main_arg9) := rfl
theorem V0_arg10 : Gen.V0 m ρ c main_arg10 = m ((c.tc : Thread nD τ).loc main_arg10) := rfl
theorem V0_arg11 : Gen.V0 m ρ c main_arg11 = m ((c.tc : Thread nD τ).loc main_arg11) := rfl
theorem V0_arg12 : Gen.V0 m ρ c main_arg12 = m ((c.tc : Thread nD τ).loc main_arg12) := rfl
theorem V0_arg13 : Gen.V0 m ρ c main_arg13 = m ((c.tc : Thread nD τ).loc main_arg13) := rfl

end Cert.KernelIdeal.Hand
end
-- ==== Proof.KernelTail.lean ====
/- The host operations after the scorer region, read at an entry.

   After the second region the program cuts the padded score vector back to its first 500000 entries and cleans
   each entry of the non-numbers: an entry that differs from itself becomes 0, then an entry equal to +infinity
   becomes 20, then an entry equal to -infinity becomes -20. Entry `p` of the result is therefore that cleaning
   of entry `p` of the region's output array. -/
import proofs.«173014_j64493228917219_1_alg».proof.Proof.Gen.KernelIdeal.Frame
import proofs.«173014_j64493228917219_1_alg».proof.Proof.Spec
import proofs.«173014_j64493228917219_1_alg».proof.Proof.LibHostRead
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx

/-- A scalar constant spread over the 500000 entries. -/
abbrev spread (w : BitVec 32) : FVec Ideal S500000 .f32 :=
  broadcastInDim S500000 ![] bcast_S_S500000 (constant (F := Ideal) S_ .f32 w)

/-- The first 500000 entries of the padded vector. -/
def tail0 (A : FVec Ideal S503808 .f32) : FVec Ideal S500000 .f32 :=
  extractStridedSlice S500000 ![0] A slices_S503808_S500000_0
/-- ... with the entries that differ from themselves replaced by 0. -/
def tail1 (A : FVec Ideal S503808 .f32) : FVec Ideal S500000 .f32 :=
  select (cmpf .une (tail0 A) (tail0 A)) (spread 0x00000000#32) (tail0 A)
/-- ... then the entries equal to +infinity replaced by 20. -/
def tail2 (A : FVec Ideal S503808 .f32) : FVec Ideal S500000 .f32 :=
  select (cmpf .oeq (tail1 A) (spread 0x7F800000#32)) (spread 0x41A00000#32) (tail1 A)
/-- ... then the entries equal to -infinity replaced by -20. -/
def tail3 (A : FVec Ideal S503808 .f32) : FVec Ideal S500000 .f32 :=
  select (cmpf .oeq (tail2 A) (spread 0xFF800000#32)) (spread 0xC1A00000#32) (tail2 A)

/-- The two host stretches after the second region, from any buffer contents `W`: the result buffer ends at the
    cleaning of the first 500000 entries of the region's output buffer. -/
theorem tail_arr (W : Valuation τ sig (Elt Ideal)) :
    StableHlo.after (hostOps2_1 (F := Ideal)) (StableHlo.after (hostOps2 (F := Ideal)) W) (Proc.devRef .tc main_v45)
      = tail3 (W (Proc.devRef .tc main_v43)) := by
  after_results_simp
  rfl

/-- The cleaning read at entry `p`. -/
theorem tail3_apply (A : FVec Ideal S503808 .f32) (p : Fin 500000) :
    tail3 A (ix1 p) = Cert.Spec.n2n (Cert.Spec.lit 0x00000000#32) (Cert.Spec.lit 0x41A00000#32) (Cert.Spec.lit 0xC1A00000#32)
      (A (ix1 (⟨p.val, by omega⟩ : Fin 503808))) := by
  have hs : tail0 A (ix1 p) = A (ix1 (⟨p.val, by omega⟩ : Fin 503808)) :=
    extractStridedSlice_apply _ _ _ _ _ (fun a => by
      obtain rfl : a = 0 := Subsingleton.elim _ _
      show p.val = 0 + p.val
      omega)
  unfold tail3 tail2 tail1 Cert.Spec.n2n
  simp only [select_apply, cmpf_apply, Cert.LibHostRead.bid_scalar_apply, constant_apply, Ideal.cmpf_def, hs]

/-- Entry `p` of the program's result buffer at the last boundary: the cleaning of entry `p` of the second
    region's output array. -/
theorem W9_out (m : (ℓ : Loc nD τ sig) → Buf (Elt Ideal) ℓ) (ρ : Dev nD → PrngReg) (c : Dev nD) (p : Fin 500000) :
    Gen.W9 m ρ c (Proc.devRef .tc main_v45) (ix1 p)
      = Cert.Spec.n2n (Cert.Spec.lit 0x00000000#32) (Cert.Spec.lit 0x41A00000#32) (Cert.Spec.lit 0xC1A00000#32)
          (((Gen.dat1 (Gen.V6 m ρ) c).arrAt 13 cfg1.N : S503808.Idx → EReal) (ix1 (⟨p.val, by omega⟩ : Fin 503808))) := by
  have hA : Gen.W7 m ρ c (Proc.devRef .tc main_v43) = (Gen.dat1 (Gen.V6 m ρ) c).arrAt 13 cfg1.N := Gen.W7_arr m ρ c 13
  have h := tail_arr (Gen.W7 m ρ c)
  rw [hA] at h
  show StableHlo.after hostOps2_1 (StableHlo.after hostOps2 (Gen.W7 m ρ c)) (Proc.devRef .tc main_v45) (ix1 p) = _
  rw [h]
  exact tail3_apply _ p

end Cert.KernelIdeal.Hand

end
-- ==== Proof.LibPlainDot.lean ====
/-
  The plain matrix product's dimension numbers read as rows times columns.

  The dimension numbers of an M × K by K × N product — the left operand contracted on its second axis, the right on
  its first, no batch axis — satisfy the four coordinate facts of `PlainDot`: the left operand is read at (row of the
  result, contracted coordinate), the right at (contracted coordinate, column of the result). A printed product with
  these dimension numbers is this record up to the proof of its well-formedness, so the facts transfer to it by
  unfolding.
-/
import proofs.«173014_j64493228917219_1_alg».proof.Proof.LibHostRead
import Idealize.ShloMosaic.Lib.ValueLayout

noncomputable section

namespace Cert.LibPlainDot

open Idealize.ShloMosaic Idealize.ShloMosaic.ValueIdx Cert.LibHostRead

/-- The plain M × K by K × N product is rows times columns. -/
theorem plainDot_plain (M K N : ℕ) : PlainDot (DotDims.plain M K N) where
  hr := rfl
  hs := rfl
  hl0 := fun _ _ => rfl
  hl1 := fun _ _ => rfl
  hr0 := fun _ _ => rfl
  hr1 := fun _ _ => rfl

/-- A vector placed as the one row of a matrix and repeated along the rows reads, at (p, c), the vector at c. -/
theorem rowBias_apply {α : Type} {a b : ℕ} (x : (⟨1, ![b]⟩ : Shape).Idx → α)
    (hs : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ x hs) hb (ix2 p c) = x (ix1 c) := by
  rw [broadcastTo_1b_ab_apply, shapeCast_a_1a_apply]

/-- The vector unit's matrix product into the zero accumulator, at (p, j), is the sum over the contracted axis. -/
theorem vmatmul_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    matmul d none lhs rhs (constant ⟨2, ![M, N]⟩ .f32 0x00000000#32) (ix2 p j) = ∑ k : Fin K, lhs (ix2 p k) * rhs (ix2 k j) :=
  matmul_plain_zero_apply d hd lhs rhs p j

/-- The host's matrix product at (p, j) is the sum over the contracted axis. -/
theorem hdot_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    Host.dotGeneral d none lhs rhs (ix2 p j) = ∑ k : Fin K, lhs (ix2 p k) * rhs (ix2 k j) :=
  dotGeneral_plain_apply d hd lhs rhs p j

end Cert.LibPlainDot

end
-- ==== Proof.EncValue.lean ====
/-
  The encoder block's stored value read at an entry.

  The block's body stores, for each of its 10000 rows, the embedding of that row: entry (r, e) of the stored value
  is the row function of the specification at row r of the feature block, because every operation of the body is
  either entrywise, or a vector repeated along the rows, or a matrix product into a zero accumulator, which is a sum
  over the contracted axis. Narrowing to the short float format is the identity on the extended reals, and the
  ordered and unordered "differs from itself" tests are one test there.
-/
import proofs.«173014_j64493228917219_1_alg».proof.Proof.Gen.KernelIdeal.Skeleton
import proofs.«173014_j64493228917219_1_alg».proof.Proof.Spec
import proofs.«173014_j64493228917219_1_alg».proof.Proof.LibPlainDot

noncomputable section

namespace Cert.KernelIdeal.EncValue

open Idealize.ShloMosaic Idealize.ShloMosaic.ValueIdx Cert.KernelIdeal Cert.KernelIdeal.Gen Cert.LibHostRead Cert.LibPlainDot

theorem pd1 : PlainDot dot_S10000x128_S128x256_S10000x256_1_0_0_1_n_n := plainDot_plain 10000 128 256
theorem pd2 : PlainDot dot_S10000x256_S256x128_S10000x128_1_0_0_1_n_n := plainDot_plain 10000 256 128

/-- The first dense layer with its bias and the mean subtracted, at (r, k). -/
theorem pre_apply (x0 : FVec Ideal S10000x128 .f32) (x1 x2 : FVec Ideal S128 .f32) (x3 : FVec Ideal S128x256 .f32)
    (x4 x7 : FVec Ideal S256 .f32) (r : Fin 10000) (k : Fin 256) :
    k0_pay2 (F := Ideal) x0 x1 x2 x3 x4 x7 (ix2 r k)
      = ((∑ j : Fin 128, Cert.Spec.xfRow (fun j => x0 (ix2 r j)) x1 x2 j * x3 (ix2 j k)) + x4 (ix1 k)) - x7 (ix1 k) := by
  unfold k0_pay2
  rw [subf_apply, addf_apply, rowBias_apply, rowBias_apply, vmatmul_apply _ pd1]
  refine congrArg (fun s => s + x4 (ix1 k) - x7 (ix1 k)) (Finset.sum_congr rfl fun j _ => ?_)
  rw [truncf_apply, truncf_apply]
  refine congrArg (· * x3 (ix2 j k)) ?_
  rw [minimumf_apply, maximumf_apply, broadcast_apply, broadcast_apply, divf_apply, subf_apply, rowBias_apply, rowBias_apply]
  rfl

/-- The reciprocal square root of the variance plus the small constant, repeated along the rows, at (r, k). -/
theorem rs_apply (x8 : FVec Ideal S256 .f32) (r : Fin 10000) (k : Fin 256) :
    broadcastTo S10000x256 (k0_pay3 (F := Ideal) x8) broadcasts_S1x256_S10000x256 (ix2 r k)
      = Ideal.rsqrt (x8 (ix1 k) + Cert.Spec.lit 0x3727C5AC#32) := by
  unfold k0_pay3
  rw [rowBias_apply]
  rfl

/-- Entry (r, e) of the block's stored value is the embedding of row r of the feature block. -/
theorem enc_payload (x0 : FVec Ideal S10000x128 .f32) (x1 x2 : FVec Ideal S128 .f32) (x3 : FVec Ideal S128x256 .f32)
    (x4 x5 x6 x7 x8 : FVec Ideal S256 .f32) (x9 : FVec Ideal S256x128 .f32) (x10 : FVec Ideal S128 .f32)
    (r : Fin 10000) (e : Fin 128) :
    k0_pay1 (F := Ideal) (k0_pay2 x0 x1 x2 x3 x4 x7) (k0_pay3 x8) x5 x6 x9 x10 (ix2 r e)
      = Cert.Spec.encRow (fun j => x0 (ix2 r j)) x1 x2 x3 x4 x5 x6 x7 x8 x9 x10 e := by
  unfold k0_pay1 Cert.Spec.encRow
  rw [maximumf_apply, addf_apply, broadcast_apply, rowBias_apply, vmatmul_apply _ pd2]
  refine congrArg₂ max (congrArg (· + x10 (ix1 e)) (Finset.sum_congr rfl fun k _ => ?_)) Ideal.ofBits_zero_f32
  rw [truncf_apply, truncf_apply]
  refine congrArg (· * x9 (ix2 k e)) ?_
  unfold Cert.Spec.h1Row
  rw [maximumf_apply, addf_apply, mulf_apply, mulf_apply, broadcast_apply, rowBias_apply, rowBias_apply, rs_apply, pre_apply]
  exact congrArg (max _) Ideal.ofBits_zero_f32

/-- The same at any index of the block. -/
theorem enc_payload_idx (x0 : FVec Ideal S10000x128 .f32) (x1 x2 : FVec Ideal S128 .f32) (x3 : FVec Ideal S128x256 .f32)
    (x4 x5 x6 x7 x8 : FVec Ideal S256 .f32) (x9 : FVec Ideal S256x128 .f32) (x10 : FVec Ideal S128 .f32) (j : S10000x128.Idx) :
    k0_pay1 (F := Ideal) (k0_pay2 x0 x1 x2 x3 x4 x7) (k0_pay3 x8) x5 x6 x9 x10 j
      = Cert.Spec.encRow (fun k => x0 (ix2 (⟨(j 0).val, idx2_lt0 j⟩ : Fin 10000) k)) x1 x2 x3 x4 x5 x6 x7 x8 x9 x10 ⟨(j 1).val, idx2_lt1 j⟩ :=
  (congrArg (k0_pay1 (F := Ideal) (k0_pay2 x0 x1 x2 x3 x4 x7) (k0_pay3 x8) x5 x6 x9 x10) (eq_ix2 j)).trans
    (enc_payload x0 x1 x2 x3 x4 x5 x6 x7 x8 x9 x10 ⟨(j 0).val, idx2_lt0 j⟩ ⟨(j 1).val, idx2_lt1 j⟩)

end Cert.KernelIdeal.EncValue

end
-- ==== Proof.EncArray.lean ====
/-
  The encoder's output array after its region, as one function of the arrays the region finds.

  The region walks ten blocks of 10000 node rows. At block t the feature window shows rows 10000·t … 10000·t + 9999
  of the feature matrix and the output window the same rows of the embedding matrix; every other window shows the whole
  of a small array at every block. A block's stored value is, row by row, the embedding of the feature row, so what
  block t writes back is block t of ONE function of the whole arrays: the embedding of each node's own feature row. The
  ten blocks tile the 100000 rows, hence the array ends as that function everywhere.
-/
import proofs.«173014_j64493228917219_1_alg».proof.Proof.Gen.KernelIdeal.Frame
import proofs.«173014_j64493228917219_1_alg».proof.Proof.EncValue

set_option maxRecDepth 16384

noncomputable section

namespace Cert.KernelIdeal.EncArray

open Idealize.ShloMosaic Idealize.ShloMosaic.TcCoe Idealize.ShloMosaic.ValueIdx Idealize.SL.Sem
open Idealize.ShloMosaic.Pipeline (Dat)
open Cert.KernelIdeal Cert.KernelIdeal.Gen Cert.Spec

/-- The embedding of every node, each from its own row of the feature matrix. -/
def encArr (a0 : V2 100000 128) (a1 a2 : V1 128) (a3 : V2 128 256) (a4 a5 a6 a7 a8 : V1 256) (a9 : V2 256 128) (a10 : V1 128) :
    V2 100000 128 :=
  fun i => encRow (fun j => a0 (ix2 (⟨(i 0).val, idx2_lt0 i⟩ : Fin 100000) j)) a1 a2 a3 a4 a5 a6 a7 a8 a9 a10 ⟨(i 1).val, idx2_lt1 i⟩

theorem encArr_ix2 (a0 : V2 100000 128) (a1 a2 : V1 128) (a3 : V2 128 256) (a4 a5 a6 a7 a8 : V1 256) (a9 : V2 256 128) (a10 : V1 128)
    (n : Fin 100000) (e : Fin 128) :
    encArr a0 a1 a2 a3 a4 a5 a6 a7 a8 a9 a10 (ix2 n e) = encRow (fun j => a0 (ix2 n j)) a1 a2 a3 a4 a5 a6 a7 a8 a9 a10 e := rfl

/-- The embedding function applied to equal data gives equal values. -/
theorem encRow_congr {xr xr' : Fin 128 → EReal} {a1 a1' a2 a2' : V1 128} {a3 a3' : V2 128 256} {a4 a4' a5 a5' a6 a6' a7 a7' a8 a8' : V1 256}
    {a9 a9' : V2 256 128} {a10 a10' : V1 128} {e e' : Fin 128}
    (h0 : xr = xr') (h1 : a1 = a1') (h2 : a2 = a2') (h3 : a3 = a3') (h4 : a4 = a4') (h5 : a5 = a5') (h6 : a6 = a6') (h7 : a7 = a7')
    (h8 : a8 = a8') (h9 : a9 = a9') (h10 : a10 = a10') (he : e = e') :
    encRow xr a1 a2 a3 a4 a5 a6 a7 a8 a9 a10 e = encRow xr' a1' a2' a3' a4' a5' a6' a7' a8' a9' a10' e' := by
  subst h0 h1 h2 h3 h4 h5 h6 h7 h8 h9 h10 he; rfl

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The windows' block positions over the ten blocks: the feature and output windows sit at block t of the rows, every other
    window at the origin. -/
theorem idx_facts : ∀ t : Fin cfg0.N,
    win0_0.index t (0 : Fin 2) = t.val ∧ win0_0.index t (1 : Fin 2) = 0
    ∧ win0_11.index t (0 : Fin 2) = t.val ∧ win0_11.index t (1 : Fin 2) = 0
    ∧ win0_1.index t (0 : Fin 1) = 0 ∧ win0_2.index t (0 : Fin 1) = 0
    ∧ win0_3.index t (0 : Fin 2) = 0 ∧ win0_3.index t (1 : Fin 2) = 0
    ∧ win0_4.index t (0 : Fin 1) = 0 ∧ win0_5.index t (0 : Fin 1) = 0 ∧ win0_6.index t (0 : Fin 1) = 0
    ∧ win0_7.index t (0 : Fin 1) = 0 ∧ win0_8.index t (0 : Fin 1) = 0
    ∧ win0_9.index t (0 : Fin 2) = 0 ∧ win0_9.index t (1 : Fin 2) = 0
    ∧ win0_10.index t (0 : Fin 1) = 0 :=
  (by decide +kernel : ∀ t : Fin grid0.N, _)

/-! ## Each small window shows its whole array at every block -/

theorem whole1 (c : Dev nD) (t : Fin cfg0.N) : (iblk0 V c 1 t : S128.Idx → EReal) = V c (Pipeline.arrRef spec0 1) := by
  funext y
  show V c (Pipeline.arrRef spec0 1) (((cfg0.win 1).blk t).view.emb y) = V c (Pipeline.arrRef spec0 1) y
  refine congrArg _ (funext fun a => Fin.ext ?_)
  obtain ⟨-, -, -, -, e, -⟩ := idx_facts t
  match a with
  | ⟨0, _⟩ => show win0_1.index t (0 : Fin 1) * 128 + 1 * (y 0).val = (y 0).val; omega

theorem whole2 (c : Dev nD) (t : Fin cfg0.N) : (iblk0 V c 2 t : S128.Idx → EReal) = V c (Pipeline.arrRef spec0 2) := by
  funext y
  show V c (Pipeline.arrRef spec0 2) (((cfg0.win 2).blk t).view.emb y) = V c (Pipeline.arrRef spec0 2) y
  refine congrArg _ (funext fun a => Fin.ext ?_)
  obtain ⟨-, -, -, -, -, e, -⟩ := idx_facts t
  match a with
  | ⟨0, _⟩ => show win0_2.index t (0 : Fin 1) * 128 + 1 * (y 0).val = (y 0).val; omega

theorem whole3 (c : Dev nD) (t : Fin cfg0.N) : (iblk0 V c 3 t : S128x256.Idx → EReal) = V c (Pipeline.arrRef spec0 3) := by
  funext y
  show V c (Pipeline.arrRef spec0 3) (((cfg0.win 3).blk t).view.emb y) = V c (Pipeline.arrRef spec0 3) y
  refine congrArg _ (funext fun a => Fin.ext ?_)
  obtain ⟨-, -, -, -, -, -, e0, e1, -⟩ := idx_facts t
  match a with
  | ⟨0, _⟩ => show win0_3.index t (0 : Fin 2) * 128 + 1 * (y 0).val = (y 0).val; omega
  | ⟨1, _⟩ => show win0_3.index t (1 : Fin 2) * 256 + 1 * (y 1).val = (y 1).val; omega

theorem whole4 (c : Dev nD) (t : Fin cfg0.N) : (iblk0 V c 4 t : S256.Idx → EReal) = V c (Pipeline.arrRef spec0 4) := by
  funext y
  show V c (Pipeline.arrRef spec0 4) (((cfg0.win 4).blk t).view.emb y) = V c (Pipeline.arrRef spec0 4) y
  refine congrArg _ (funext fun a => Fin.ext ?_)
  obtain ⟨-, -, -, -, -, -, -, -, e, -⟩ := idx_facts t
  match a with
  | ⟨0, _⟩ => show win0_4.index t (0 : Fin 1) * 256 + 1 * (y 0).val = (y 0).val; omega

theorem whole5 (c : Dev nD) (t : Fin cfg0.N) : (iblk0 V c 5 t : S256.Idx → EReal) = V c (Pipeline.arrRef spec0 5) := by
  funext y
  show V c (Pipeline.arrRef spec0 5) (((cfg0.win 5).blk t).view.emb y) = V c (Pipeline.arrRef spec0 5) y
  refine congrArg _ (funext fun a => Fin.ext ?_)
  obtain ⟨-, -, -, -, -, -, -, -, -, e, -⟩ := idx_facts t
  match a with
  | ⟨0, _⟩ => show win0_5.index t (0 : Fin 1) * 256 + 1 * (y 0).val = (y 0).val; omega

theorem whole6 (c : Dev nD) (t : Fin cfg0.N) : (iblk0 V c 6 t : S256.Idx → EReal) = V c (Pipeline.arrRef spec0 6) := by
  funext y
  show V c (Pipeline.arrRef spec0 6) (((cfg0.win 6).blk t).view.emb y) = V c (Pipeline.arrRef spec0 6) y
  refine congrArg _ (funext fun a => Fin.ext ?_)
  obtain ⟨-, -, -, -, -, -, -, -, -, -, e, -⟩ := idx_facts t
  match a with
  | ⟨0, _⟩ => show win0_6.index t (0 : Fin 1) * 256 + 1 * (y 0).val = (y 0).val; omega

theorem whole7 (c : Dev nD) (t : Fin cfg0.N) : (iblk0 V c 7 t : S256.Idx → EReal) = V c (Pipeline.arrRef spec0 7) := by
  funext y
  show V c (Pipeline.arrRef spec0 7) (((cfg0.win 7).blk t).view.emb y) = V c (Pipeline.arrRef spec0 7) y
  refine congrArg _ (funext fun a => Fin.ext ?_)
  obtain ⟨-, -, -, -, -, -, -, -, -, -, -, e, -⟩ := idx_facts t
  match a with
  | ⟨0, _⟩ => show win0_7.index t (0 : Fin 1) * 256 + 1 * (y 0).val = (y 0).val; omega

theorem whole8 (c : Dev nD) (t : Fin cfg0.N) : (iblk0 V c 8 t : S256.Idx → EReal) = V c (Pipeline.arrRef spec0 8) := by
  funext y
  show V c (Pipeline.arrRef spec0 8) (((cfg0.win 8).blk t).view.emb y) = V c (Pipeline.arrRef spec0 8) y
  refine congrArg _ (funext fun a => Fin.ext ?_)
  obtain ⟨-, -, -, -, -, -, -, -, -, -, -, -, e, -⟩ := idx_facts t
  match a with
  | ⟨0, _⟩ => show win0_8.index t (0 : Fin 1) * 256 + 1 * (y 0).val = (y 0).val; omega

theorem whole9 (c : Dev nD) (t : Fin cfg0.N) : (iblk0 V c 9 t : S256x128.Idx → EReal) = V c (Pipeline.arrRef spec0 9) := by
  funext y
  show V c (Pipeline.arrRef spec0 9) (((cfg0.win 9).blk t).view.emb y) = V c (Pipeline.arrRef spec0 9) y
  refine congrArg _ (funext fun a => Fin.ext ?_)
  obtain ⟨-, -, -, -, -, -, -, -, -, -, -, -, -, e0, e1, -⟩ := idx_facts t
  match a with
  | ⟨0, _⟩ => show win0_9.index t (0 : Fin 2) * 256 + 1 * (y 0).val = (y 0).val; omega
  | ⟨1, _⟩ => show win0_9.index t (1 : Fin 2) * 128 + 1 * (y 1).val = (y 1).val; omega

theorem whole10 (c : Dev nD) (t : Fin cfg0.N) : (iblk0 V c 10 t : S128.Idx → EReal) = V c (Pipeline.arrRef spec0 10) := by
  funext y
  show V c (Pipeline.arrRef spec0 10) (((cfg0.win 10).blk t).view.emb y) = V c (Pipeline.arrRef spec0 10) y
  refine congrArg _ (funext fun a => Fin.ext ?_)
  obtain ⟨-, -, -, -, -, -, -, -, -, -, -, -, -, -, -, e⟩ := idx_facts t
  match a with
  | ⟨0, _⟩ => show win0_10.index t (0 : Fin 1) * 128 + 1 * (y 0).val = (y 0).val; omega

/-! ## The feature window shows the rows the output window writes -/

/-- Row `j 0` of the feature block at block t is the row of the feature matrix that entry j of the output block lands on. -/
theorem row0 (c : Dev nD) (t : Fin cfg0.N) (j : S10000x128.Idx) (k : Fin 128) :
    (iblk0 V c 0 t : S10000x128.Idx → EReal) (ix2 (⟨(j 0).val, idx2_lt0 j⟩ : Fin 10000) k)
      = (V c (Pipeline.arrRef spec0 0) : S100000x128.Idx → EReal)
          (ix2 (⟨((((cfg0.win 11).blk t).view.emb j : S100000x128.Idx) 0).val, idx2_lt0 _⟩ : Fin 100000) k) := by
  show V c (Pipeline.arrRef spec0 0) (((cfg0.win 0).blk t).view.emb (ix2 (⟨(j 0).val, idx2_lt0 j⟩ : Fin 10000) k)) = _
  refine congrArg _ (funext fun a => Fin.ext ?_)
  obtain ⟨e0, e1, e2, e3, -⟩ := idx_facts t
  match a with
  | ⟨0, _⟩ =>
    show win0_0.index t (0 : Fin 2) * 10000 + 1 * (j 0).val = win0_11.index t (0 : Fin 2) * 10000 + 1 * (j 0).val
    omega
  | ⟨1, _⟩ => show win0_0.index t (1 : Fin 2) * 128 + 1 * k.val = k.val; omega

/-- The column of an entry of the output block is the column it lands on. -/
theorem col0 (t : Fin cfg0.N) (j : S10000x128.Idx) :
    (j 1).val = ((((cfg0.win 11).blk t).view.emb j : S100000x128.Idx) 1).val := by
  obtain ⟨-, -, -, e3, -⟩ := idx_facts t
  show (j 1).val = win0_11.index t (1 : Fin 2) * 128 + 1 * (j 1).val
  omega

/-! ## What a block writes back, the cover, the array -/

/-- What block t writes back is block t of the embedding of every node. -/
theorem flushed_eq (c : Dev nD) (t : Fin cfg0.N) :
    (dat0 V c).flushed 11 t = ((cfg0.win 11).blk t).view.read (Elt Ideal)
      (encArr (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))
        (V c (Pipeline.arrRef spec0 6)) (V c (Pipeline.arrRef spec0 7)) (V c (Pipeline.arrRef spec0 8))
        (V c (Pipeline.arrRef spec0 9)) (V c (Pipeline.arrRef spec0 10))) := by
  show (cfg0.win 11).cut (grid0.coords t) ((dat0 V c).after 11 t) = _
  rw [after0_11]
  unfold out0_11
  rw [View.canon_unit_zero hz2]
  simp only [View.ld_unit_zero (S := S10000x128) hz2, View.ld_unit_zero (S := S128) hz1, View.ld_unit_zero (S := S128x256) hz2,
    View.ld_unit_zero (S := S256) hz1, View.ld_unit_zero (S := S256x128) hz2]
  funext j
  refine (EncValue.enc_payload_idx (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (iblk0 V c 10 t) j).trans ?_
  exact encRow_congr (funext fun k => row0 V c t j k) (whole1 V c t) (whole2 V c t) (whole3 V c t) (whole4 V c t) (whole5 V c t)
    (whole6 V c t) (whole7 V c t) (whole8 V c t) (whole9 V c t) (whole10 V c t) (Fin.ext (col0 t j))

/-- An index of the array is in block t iff each coordinate is in the block's range on its axis. -/
theorem mem_blk (t : Fin cfg0.N) (i : S100000x128.Idx) :
    i ∈ ((cfg0.win 11).blk t).view.set ↔ ∀ a : Fin 2, win0_11.index t a * S10000x128.size a ≤ (i a).val
      ∧ (i a).val < win0_11.index t a * S10000x128.size a + S10000x128.size a := by
  show i ∈ ((View.whole main_v0).slice (win0_11.rect t)).set ↔ _
  rw [View.set_slice_whole, Rect.mem_set_unit]
  exact Iff.rfl

/-- Every index of the array is in the block of its row's ten-thousand. -/
theorem cover (i : S100000x128.Idx) :
    ∃ t : Fin cfg0.N, (cfg0.win 11).flush t = true ∧ i ∈ ((cfg0.win 11).blk t).view.set := by
  have hi0 : (i 0).val < 100000 := (i 0).isLt
  have hi1 : (i 1).val < 128 := (i 1).isLt
  have hN : cfg0.N = 10 := N_0
  have ht : (i 0).val / 10000 < cfg0.N := by rw [hN]; omega
  obtain ⟨-, -, e2, e3, -⟩ := idx_facts ⟨(i 0).val / 10000, ht⟩
  refine ⟨⟨(i 0).val / 10000, ht⟩, flush0_11 _, ?_⟩
  rw [mem_blk]
  intro a
  match a with
  | ⟨0, _⟩ =>
    show win0_11.index ⟨(i 0).val / 10000, ht⟩ (0 : Fin 2) * 10000 ≤ (i 0).val
      ∧ (i 0).val < win0_11.index ⟨(i 0).val / 10000, ht⟩ (0 : Fin 2) * 10000 + 10000
    have e2' : win0_11.index ⟨(i 0).val / 10000, ht⟩ (0 : Fin 2) = (i 0).val / 10000 := e2
    omega
  | ⟨1, _⟩ =>
    show win0_11.index ⟨(i 0).val / 10000, ht⟩ (1 : Fin 2) * 128 ≤ (i 1).val
      ∧ (i 1).val < win0_11.index ⟨(i 0).val / 10000, ht⟩ (1 : Fin 2) * 128 + 128
    omega

/-- THE ARRAY after the region: the embedding of every node from the arrays the region finds. -/
theorem final (c : Dev nD) :
    (dat0 V c).arrAt 11 cfg0.N
      = encArr (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))
        (V c (Pipeline.arrRef spec0 6)) (V c (Pipeline.arrRef spec0 7)) (V c (Pipeline.arrRef spec0 8))
        (V c (Pipeline.arrRef spec0 9)) (V c (Pipeline.arrRef spec0 10)) :=
  (dat0 V c).arrAt_eq_of_cover 11 _ (fun t _ => flushed_eq V c t) cover

end Cert.KernelIdeal.EncArray

end
-- ==== Proof.ScoreValue.lean ====
/-
  The scorer block's stored value read at an entry.

  The block's body stores, for each of its 4096 pairs, the pair's score before the last cleaning: entry r of the
  stored value is the score function of the specification at row r of the two gathered embedding blocks and of the
  degree block, with the five bands of the first scorer matrix as the block finds them. Every operation of the body
  is entrywise, a vector repeated along the rows, or a matrix product into a zero accumulator (a sum over the
  contracted axis); the last product has one column, which is then read as a vector.
-/
import proofs.«173014_j64493228917219_1_alg».proof.Proof.Gen.KernelIdeal.Skeleton
import proofs.«173014_j64493228917219_1_alg».proof.Proof.Spec
import proofs.«173014_j64493228917219_1_alg».proof.Proof.LibPlainDot
import proofs.«173014_j64493228917219_1_alg».proof.Proof.LibColumn

noncomputable section

namespace Cert.KernelIdeal.ScoreValue

open Idealize.ShloMosaic Idealize.ShloMosaic.ValueIdx Cert.KernelIdeal Cert.KernelIdeal.Gen Cert.LibHostRead Cert.LibPlainDot

theorem pdA : PlainDot dot_S4096x128_S128x256_S4096x256_1_0_0_1_n_n := plainDot_plain 4096 128 256
theorem pdE : PlainDot dot_S4096x2_S2x256_S4096x256_1_0_0_1_n_n := plainDot_plain 4096 2 256
theorem pd2 : PlainDot dot_S4096x256_S256x128_S4096x128_1_0_0_1_n_n := plainDot_plain 4096 256 128
theorem pd3 : PlainDot dot_S4096x128_S128x1_S4096x1_1_0_0_1_n_n := plainDot_plain 4096 128 1

/-- The five products of the first scorer layer, added in the body's order, at (r, j). -/
theorem s1pre_apply (v0 v2 : FVec Ideal S4096x128 .f32) (v4 : FVec Ideal S4096x2 .f32) (v10 v15 v20 v25 : FVec Ideal S128x256 .f32)
    (v30 : FVec Ideal S2x256 .f32) (r : Fin 4096) (j : Fin 256) :
    k1_pay2 (F := Ideal) v0 v2 v4 v10 v15 v20 v25 v30 (ix2 r j)
      = ((((∑ k : Fin 128, v0 (ix2 r k) * v10 (ix2 k j)) + ∑ k : Fin 128, v2 (ix2 r k) * v15 (ix2 k j))
          + ∑ k : Fin 128, (v0 (ix2 r k) * v2 (ix2 r k)) * v20 (ix2 k j))
          + ∑ k : Fin 128, max (v0 (ix2 r k) - v2 (ix2 r k)) (-(v0 (ix2 r k) - v2 (ix2 r k))) * v25 (ix2 k j))
          + ∑ k : Fin 2, v4 (ix2 r k) * v30 (ix2 k j) := by
  unfold k1_pay2
  simp only [shapeCast_self]
  rw [addf_apply, addf_apply, addf_apply, addf_apply, vmatmul_apply _ pdA, vmatmul_apply _ pdA, vmatmul_apply _ pdA,
    vmatmul_apply _ pdA, vmatmul_apply _ pdE]
  rfl

/-- Entry r of the block's stored value is the score of the pair in row r. -/
theorem score_payload (v0 v2 : FVec Ideal S4096x128 .f32) (v4 : FVec Ideal S4096x2 .f32) (v10 v15 v20 v25 : FVec Ideal S128x256 .f32)
    (v30 : FVec Ideal S2x256 .f32) (v38 : FVec Ideal S256 .f32) (v45 : FVec Ideal S256x128 .f32) (v48 : FVec Ideal S128 .f32)
    (v55 : FVec Ideal S128x1 .f32) (v58 : FVec Ideal S1 .f32) (r : Fin 4096) :
    k1_pay1 (F := Ideal) (k1_pay2 v0 v2 v4 v10 v15 v20 v25 v30) v38 v45 v48 v55 v58 (ix1 r)
      = Cert.Spec.logitRow (fun k => v0 (ix2 r k)) (fun k => v2 (ix2 r k)) (fun k => v4 (ix2 r k)) v10 v15 v20 v25 v30 v38 v45 v48
          v55 v58 := by
  unfold k1_pay1 Cert.Spec.logitRow
  rw [Cert.LibColumn.shapeCast_a1_a_apply, addf_apply, vmatmul_apply _ pd3, rowBias_apply]
  refine congrArg (· + v58 (ix1 (0 : Fin 1))) (Finset.sum_congr rfl fun k _ => ?_)
  rw [truncf_apply, truncf_apply]
  refine congrArg (· * v55 (ix2 k (0 : Fin 1))) ?_
  unfold Cert.Spec.s2Row
  rw [maximumf_apply, addf_apply, broadcast_apply, rowBias_apply, vmatmul_apply _ pd2]
  refine congrArg₂ max (congrArg (· + v48 (ix1 k)) (Finset.sum_congr rfl fun k' _ => ?_)) Ideal.ofBits_zero_f32
  rw [truncf_apply, truncf_apply]
  refine congrArg (· * v45 (ix2 k' k)) ?_
  unfold Cert.Spec.s1Row
  rw [maximumf_apply, addf_apply, broadcast_apply, rowBias_apply, s1pre_apply]
  exact congrArg (max _) Ideal.ofBits_zero_f32

/-- The same at any index of the block. -/
theorem score_payload_idx (v0 v2 : FVec Ideal S4096x128 .f32) (v4 : FVec Ideal S4096x2 .f32) (v10 v15 v20 v25 : FVec Ideal S128x256 .f32)
    (v30 : FVec Ideal S2x256 .f32) (v38 : FVec Ideal S256 .f32) (v45 : FVec Ideal S256x128 .f32) (v48 : FVec Ideal S128 .f32)
    (v55 : FVec Ideal S128x1 .f32) (v58 : FVec Ideal S1 .f32) (j : S4096.Idx) :
    k1_pay1 (F := Ideal) (k1_pay2 v0 v2 v4 v10 v15 v20 v25 v30) v38 v45 v48 v55 v58 j
      = Cert.Spec.logitRow (fun k => v0 (ix2 (⟨(j 0).val, (j 0).isLt⟩ : Fin 4096) k)) (fun k => v2 (ix2 (⟨(j 0).val, (j 0).isLt⟩ : Fin 4096) k))
          (fun k => v4 (ix2 (⟨(j 0).val, (j 0).isLt⟩ : Fin 4096) k)) v10 v15 v20 v25 v30 v38 v45 v48 v55 v58 :=
  (congrArg (k1_pay1 (F := Ideal) (k1_pay2 v0 v2 v4 v10 v15 v20 v25 v30) v38 v45 v48 v55 v58) (eq_ix1 j)).trans
    (score_payload v0 v2 v4 v10 v15 v20 v25 v30 v38 v45 v48 v55 v58 ⟨(j 0).val, (j 0).isLt⟩)

end Cert.KernelIdeal.ScoreValue

end
-- ==== Proof.ScoreArray.lean ====
/-
  The scorer's output array after its region, as one function of the arrays the region finds.

  The region walks 123 blocks of 4096 pairs. At block t the two gathered-embedding windows and the degree window show
  rows 4096·t … 4096·t + 4095 of their arrays and the output window the same entries of the score vector; every other
  window shows the whole of a small array at every block. A block's stored value is, pair by pair, the score of the
  pair's rows, so what block t writes back is block t of ONE function of the whole arrays, and the 123 blocks tile the
  503808 entries.
-/
import proofs.«173014_j64493228917219_1_alg».proof.Proof.Gen.KernelIdeal.Frame
import proofs.«173014_j64493228917219_1_alg».proof.Proof.ScoreValue

set_option maxRecDepth 16384

noncomputable section

namespace Cert.KernelIdeal.ScoreArray

open Idealize.ShloMosaic Idealize.ShloMosaic.TcCoe Idealize.ShloMosaic.ValueIdx Idealize.SL.Sem
open Idealize.ShloMosaic.Pipeline (Dat)
open Cert.KernelIdeal Cert.KernelIdeal.Gen Cert.Spec

/-- The score of every (padded) pair, each from its own rows of the gathered arrays. -/
def scoreArr (a0 a1 : V2 503808 128) (a2 : V2 503808 2) (a3 a4 a5 a6 : V2 128 256) (a7 : V2 2 256) (a8 : V1 256) (a9 : V2 256 128)
    (a10 : V1 128) (a11 : V2 128 1) (a12 : V1 1) : V1 503808 :=
  fun i => logitRow (fun k => a0 (ix2 (⟨(i 0).val, (i 0).isLt⟩ : Fin 503808) k)) (fun k => a1 (ix2 (⟨(i 0).val, (i 0).isLt⟩ : Fin 503808) k))
    (fun k => a2 (ix2 (⟨(i 0).val, (i 0).isLt⟩ : Fin 503808) k)) a3 a4 a5 a6 a7 a8 a9 a10 a11 a12

theorem scoreArr_ix1 (a0 a1 : V2 503808 128) (a2 : V2 503808 2) (a3 a4 a5 a6 : V2 128 256) (a7 : V2 2 256) (a8 : V1 256) (a9 : V2 256 128)
    (a10 : V1 128) (a11 : V2 128 1) (a12 : V1 1) (q : Fin 503808) :
    scoreArr a0 a1 a2 a3 a4 a5 a6 a7 a8 a9 a10 a11 a12 (ix1 q)
      = logitRow (fun k => a0 (ix2 q k)) (fun k => a1 (ix2 q k)) (fun k => a2 (ix2 q k)) a3 a4 a5 a6 a7 a8 a9 a10 a11 a12 := rfl

/-- The score function applied to equal data gives equal values. -/
theorem logitRow_congr {s s' d d' : Fin 128 → EReal} {dg dg' : Fin 2 → EReal} {a3 a3' a4 a4' a5 a5' a6 a6' : V2 128 256} {a7 a7' : V2 2 256}
    {a8 a8' : V1 256} {a9 a9' : V2 256 128} {a10 a10' : V1 128} {a11 a11' : V2 128 1} {a12 a12' : V1 1}
    (h0 : s = s') (h1 : d = d') (h2 : dg = dg') (h3 : a3 = a3') (h4 : a4 = a4') (h5 : a5 = a5') (h6 : a6 = a6') (h7 : a7 = a7')
    (h8 : a8 = a8') (h9 : a9 = a9') (h10 : a10 = a10') (h11 : a11 = a11') (h12 : a12 = a12') :
    logitRow s d dg a3 a4 a5 a6 a7 a8 a9 a10 a11 a12 = logitRow s' d' dg' a3' a4' a5' a6' a7' a8' a9' a10' a11' a12' := by
  subst h0 h1 h2 h3 h4 h5 h6 h7 h8 h9 h10 h11 h12; rfl

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The windows' block positions over the 123 blocks: the three row windows and the output window sit at block t, every other
    window at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_13.index t (0 : Fin 1) = t.val
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 1) = 0
    ∧ win1_9.index t (0 : Fin 2) = 0 ∧ win1_9.index t (1 : Fin 2) = 0
    ∧ win1_10.index t (0 : Fin 1) = 0
    ∧ win1_11.index t (0 : Fin 2) = 0 ∧ win1_11.index t (1 : Fin 2) = 0
    ∧ win1_12.index t (0 : Fin 1) = 0 :=
  (by decide +kernel : ∀ t : Fin grid1.N, _)

/-! ## Each small window shows its whole array at every block -/

theorem whole3 (c : Dev nD) (t : Fin cfg1.N) : (iblk1 V c 3 t : S128x256.Idx → EReal) = V c (Pipeline.arrRef spec1 3) := by
  funext y
  show V c (Pipeline.arrRef spec1 3) (((cfg1.win 3).blk t).view.emb y) = V c (Pipeline.arrRef spec1 3) y
  refine congrArg _ (funext fun a => Fin.ext ?_)
  obtain ⟨-, -, -, -, -, -, -, e0, e1, -⟩ := idx_facts t
  match a with
  | ⟨0, _⟩ => show win1_3.index t (0 : Fin 2) * 128 + 1 * (y 0).val = (y 0).val; omega
  | ⟨1, _⟩ => show win1_3.index t (1 : Fin 2) * 256 + 1 * (y 1).val = (y 1).val; omega

theorem whole4 (c : Dev nD) (t : Fin cfg1.N) : (iblk1 V c 4 t : S128x256.Idx → EReal) = V c (Pipeline.arrRef spec1 4) := by
  funext y
  show V c (Pipeline.arrRef spec1 4) (((cfg1.win 4).blk t).view.emb y) = V c (Pipeline.arrRef spec1 4) y
  refine congrArg _ (funext fun a => Fin.ext ?_)
  obtain ⟨-, -, -, -, -, -, -, -, -, e0, e1, -⟩ := idx_facts t
  match a with
  | ⟨0, _⟩ => show win1_4.index t (0 : Fin 2) * 128 + 1 * (y 0).val = (y 0).val; omega
  | ⟨1, _⟩ => show win1_4.index t (1 : Fin 2) * 256 + 1 * (y 1).val = (y 1).val; omega

theorem whole5 (c : Dev nD) (t : Fin cfg1.N) : (iblk1 V c 5 t : S128x256.Idx → EReal) = V c (Pipeline.arrRef spec1 5) := by
  funext y
  show V c (Pipeline.arrRef spec1 5) (((cfg1.win 5).blk t).view.emb y) = V c (Pipeline.arrRef spec1 5) y
  refine congrArg _ (funext fun a => Fin.ext ?_)
  obtain ⟨-, -, -, -, -, -, -, -, -, -, -, e0, e1, -⟩ := idx_facts t
  match a with
  | ⟨0, _⟩ => show win1_5.index t (0 : Fin 2) * 128 + 1 * (y 0).val = (y 0).val; omega
  | ⟨1, _⟩ => show win1_5.index t (1 : Fin 2) * 256 + 1 * (y 1).val = (y 1).val; omega

theorem whole6 (c : Dev nD) (t : Fin cfg1.N) : (iblk1 V c 6 t : S128x256.Idx → EReal) = V c (Pipeline.arrRef spec1 6) := by
  funext y
  show V c (Pipeline.arrRef spec1 6) (((cfg1.win 6).blk t).view.emb y) = V c (Pipeline.arrRef spec1 6) y
  refine congrArg _ (funext fun a => Fin.ext ?_)
  obtain ⟨-, -, -, -, -, -, -, -, -, -, -, -, -, e0, e1, -⟩ := idx_facts t
  match a with
  | ⟨0, _⟩ => show win1_6.index t (0 : Fin 2) * 128 + 1 * (y 0).val = (y 0).val; omega
  | ⟨1, _⟩ => show win1_6.index t (1 : Fin 2) * 256 + 1 * (y 1).val = (y 1).val; omega

theorem whole7 (c : Dev nD) (t : Fin cfg1.N) : (iblk1 V c 7 t : S2x256.Idx → EReal) = V c (Pipeline.arrRef spec1 7) := by
  funext y
  show V c (Pipeline.arrRef spec1 7) (((cfg1.win 7).blk t).view.emb y) = V c (Pipeline.arrRef spec1 7) y
  refine congrArg _ (funext fun a => Fin.ext ?_)
  obtain ⟨-, -, -, -, -, -, -, -, -, -, -, -, -, -, -, e0, e1, -⟩ := idx_facts t
  match a with
  | ⟨0, _⟩ => show win1_7.index t (0 : Fin 2) * 2 + 1 * (y 0).val = (y 0).val; omega
  | ⟨1, _⟩ => show win1_7.index t (1 : Fin 2) * 256 + 1 * (y 1).val = (y 1).val; omega

theorem whole8 (c : Dev nD) (t : Fin cfg1.N) : (iblk1 V c 8 t : S256.Idx → EReal) = V c (Pipeline.arrRef spec1 8) := by
  funext y
  show V c (Pipeline.arrRef spec1 8) (((cfg1.win 8).blk t).view.emb y) = V c (Pipeline.arrRef spec1 8) y
  refine congrArg _ (funext fun a => Fin.ext ?_)
  obtain ⟨-, -, -, -, -, -, -, -, -, -, -, -, -, -, -, -, -, e, -⟩ := idx_facts t
  match a with
  | ⟨0, _⟩ => show win1_8.index t (0 : Fin 1) * 256 + 1 * (y 0).val = (y 0).val; omega

theorem whole9 (c : Dev nD) (t : Fin cfg1.N) : (iblk1 V c 9 t : S256x128.Idx → EReal) = V c (Pipeline.arrRef spec1 9) := by
  funext y
  show V c (Pipeline.arrRef spec1 9) (((cfg1.win 9).blk t).view.emb y) = V c (Pipeline.arrRef spec1 9) y
  refine congrArg _ (funext fun a => Fin.ext ?_)
  obtain ⟨-, -, -, -, -, -, -, -, -, -, -, -, -, -, -, -, -, -, e0, e1, -⟩ := idx_facts t
  match a with
  | ⟨0, _⟩ => show win1_9.index t (0 : Fin 2) * 256 + 1 * (y 0).val = (y 0).val; omega
  | ⟨1, _⟩ => show win1_9.index t (1 : Fin 2) * 128 + 1 * (y 1).val = (y 1).val; omega

theorem whole10 (c : Dev nD) (t : Fin cfg1.N) : (iblk1 V c 10 t : S128.Idx → EReal) = V c (Pipeline.arrRef spec1 10) := by
  funext y
  show V c (Pipeline.arrRef spec1 10) (((cfg1.win 10).blk t).view.emb y) = V c (Pipeline.arrRef spec1 10) y
  refine congrArg _ (funext fun a => Fin.ext ?_)
  obtain ⟨-, -, -, -, -, -, -, -, -, -, -, -, -, -, -, -, -, -, -, -, e, -⟩ := idx_facts t
  match a with
  | ⟨0, _⟩ => show win1_10.index t (0 : Fin 1) * 128 + 1 * (y 0).val = (y 0).val; omega

theorem whole11 (c : Dev nD) (t : Fin cfg1.N) : (iblk1 V c 11 t : S128x1.Idx → EReal) = V c (Pipeline.arrRef spec1 11) := by
  funext y
  show V c (Pipeline.arrRef spec1 11) (((cfg1.win 11).blk t).view.emb y) = V c (Pipeline.arrRef spec1 11) y
  refine congrArg _ (funext fun a => Fin.ext ?_)
  obtain ⟨-, -, -, -, -, -, -, -, -, -, -, -, -, -, -, -, -, -, -, -, -, e0, e1, -⟩ := idx_facts t
  match a with
  | ⟨0, _⟩ => show win1_11.index t (0 : Fin 2) * 128 + 1 * (y 0).val = (y 0).val; omega
  | ⟨1, _⟩ => show win1_11.index t (1 : Fin 2) * 1 + 1 * (y 1).val = (y 1).val; omega

theorem whole12 (c : Dev nD) (t : Fin cfg1.N) : (iblk1 V c 12 t : S1.Idx → EReal) = V c (Pipeline.arrRef spec1 12) := by
  funext y
  show V c (Pipeline.arrRef spec1 12) (((cfg1.win 12).blk t).view.emb y) = V c (Pipeline.arrRef spec1 12) y
  refine congrArg _ (funext fun a => Fin.ext ?_)
  obtain ⟨-, -, -, -, -, -, -, -, -, -, -, -, -, -, -, -, -, -, -, -, -, -, -, e⟩ := idx_facts t
  match a with
  | ⟨0, _⟩ => show win1_12.index t (0 : Fin 1) * 1 + 1 * (y 0).val = (y 0).val; omega

/-! ## The three row windows show the rows the output window writes -/

/-- Row `j` of the first gathered block at block t is row `i` of the first gathered array, when `i` is where entry `j` of the
    output block lands. -/
theorem row0 (c : Dev nD) (t : Fin cfg1.N) (j : S4096.Idx) (i : S503808.Idx)
    (hij : (i 0).val = win1_13.index t (0 : Fin 1) * 4096 + 1 * (j 0).val) (k : Fin 128) :
    (iblk1 V c 0 t : S4096x128.Idx → EReal) (ix2 (⟨(j 0).val, (j 0).isLt⟩ : Fin 4096) k)
      = (V c (Pipeline.arrRef spec1 0) : S503808x128.Idx → EReal) (ix2 (⟨(i 0).val, (i 0).isLt⟩ : Fin 503808) k) := by
  show V c (Pipeline.arrRef spec1 0) (((cfg1.win 0).blk t).view.emb (ix2 (⟨(j 0).val, (j 0).isLt⟩ : Fin 4096) k)) = _
  refine congrArg _ (funext fun a => Fin.ext ?_)
  obtain ⟨e0, e1, -, -, -, -, e6, -⟩ := idx_facts t
  match a with
  | ⟨0, _⟩ => show win1_0.index t (0 : Fin 2) * 4096 + 1 * (j 0).val = (i 0).val; omega
  | ⟨1, _⟩ => show win1_0.index t (1 : Fin 2) * 128 + 1 * k.val = k.val; omega

theorem row1 (c : Dev nD) (t : Fin cfg1.N) (j : S4096.Idx) (i : S503808.Idx)
    (hij : (i 0).val = win1_13.index t (0 : Fin 1) * 4096 + 1 * (j 0).val) (k : Fin 128) :
    (iblk1 V c 1 t : S4096x128.Idx → EReal) (ix2 (⟨(j 0).val, (j 0).isLt⟩ : Fin 4096) k)
      = (V c (Pipeline.arrRef spec1 1) : S503808x128.Idx → EReal) (ix2 (⟨(i 0).val, (i 0).isLt⟩ : Fin 503808) k) := by
  show V c (Pipeline.arrRef spec1 1) (((cfg1.win 1).blk t).view.emb (ix2 (⟨(j 0).val, (j 0).isLt⟩ : Fin 4096) k)) = _
  refine congrArg _ (funext fun a => Fin.ext ?_)
  obtain ⟨-, -, e2, e3, -, -, e6, -⟩ := idx_facts t
  match a with
  | ⟨0, _⟩ => show win1_1.index t (0 : Fin 2) * 4096 + 1 * (j 0).val = (i 0).val; omega
  | ⟨1, _⟩ => show win1_1.index t (1 : Fin 2) * 128 + 1 * k.val = k.val; omega

theorem row2 (c : Dev nD) (t : Fin cfg1.N) (j : S4096.Idx) (i : S503808.Idx)
    (hij : (i 0).val = win1_13.index t (0 : Fin 1) * 4096 + 1 * (j 0).val) (k : Fin 2) :
    (iblk1 V c 2 t : S4096x2.Idx → EReal) (ix2 (⟨(j 0).val, (j 0).isLt⟩ : Fin 4096) k)
      = (V c (Pipeline.arrRef spec1 2) : S503808x2.Idx → EReal) (ix2 (⟨(i 0).val, (i 0).isLt⟩ : Fin 503808) k) := by
  show V c (Pipeline.arrRef spec1 2) (((cfg1.win 2).blk t).view.emb (ix2 (⟨(j 0).val, (j 0).isLt⟩ : Fin 4096) k)) = _
  refine congrArg _ (funext fun a => Fin.ext ?_)
  obtain ⟨-, -, -, -, e4, e5, e6, -⟩ := idx_facts t
  match a with
  | ⟨0, _⟩ => show win1_2.index t (0 : Fin 2) * 4096 + 1 * (j 0).val = (i 0).val; omega
  | ⟨1, _⟩ => show win1_2.index t (1 : Fin 2) * 2 + 1 * k.val = k.val; omega

/-! ## What a block writes back, the cover, the array -/

/-- The score of row `j` of the blocks at block t is the score of entry `i` of the arrays, when `i` is where entry `j` of the
    output block lands. -/
theorem block_eq (c : Dev nD) (t : Fin cfg1.N) (j : S4096.Idx) (i : S503808.Idx)
    (hij : (i 0).val = win1_13.index t (0 : Fin 1) * 4096 + 1 * (j 0).val) :
    logitRow (fun k => (iblk1 V c 0 t : S4096x128.Idx → EReal) (ix2 (⟨(j 0).val, (j 0).isLt⟩ : Fin 4096) k))
        (fun k => (iblk1 V c 1 t : S4096x128.Idx → EReal) (ix2 (⟨(j 0).val, (j 0).isLt⟩ : Fin 4096) k))
        (fun k => (iblk1 V c 2 t : S4096x2.Idx → EReal) (ix2 (⟨(j 0).val, (j 0).isLt⟩ : Fin 4096) k))
        (iblk1 V c 3 t : S128x256.Idx → EReal) (iblk1 V c 4 t : S128x256.Idx → EReal) (iblk1 V c 5 t : S128x256.Idx → EReal)
        (iblk1 V c 6 t : S128x256.Idx → EReal) (iblk1 V c 7 t : S2x256.Idx → EReal) (iblk1 V c 8 t : S256.Idx → EReal)
        (iblk1 V c 9 t : S256x128.Idx → EReal) (iblk1 V c 10 t : S128.Idx → EReal) (iblk1 V c 11 t : S128x1.Idx → EReal)
        (iblk1 V c 12 t : S1.Idx → EReal)
      = scoreArr (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (V c (Pipeline.arrRef spec1 6)) (V c (Pipeline.arrRef spec1 7)) (V c (Pipeline.arrRef spec1 8))
        (V c (Pipeline.arrRef spec1 9)) (V c (Pipeline.arrRef spec1 10)) (V c (Pipeline.arrRef spec1 11))
        (V c (Pipeline.arrRef spec1 12)) i := by
  unfold scoreArr
  exact logitRow_congr (funext fun k => row0 V c t j i hij k) (funext fun k => row1 V c t j i hij k)
    (funext fun k => row2 V c t j i hij k) (whole3 V c t) (whole4 V c t) (whole5 V c t) (whole6 V c t) (whole7 V c t) (whole8 V c t)
    (whole9 V c t) (whole10 V c t) (whole11 V c t) (whole12 V c t)

/-- What block t writes back is block t of the score of every pair. -/
theorem flushed_eq (c : Dev nD) (t : Fin cfg1.N) :
    (dat1 V c).flushed 13 t = ((cfg1.win 13).blk t).view.read (Elt Ideal)
      (scoreArr (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (V c (Pipeline.arrRef spec1 6)) (V c (Pipeline.arrRef spec1 7)) (V c (Pipeline.arrRef spec1 8))
        (V c (Pipeline.arrRef spec1 9)) (V c (Pipeline.arrRef spec1 10)) (V c (Pipeline.arrRef spec1 11))
        (V c (Pipeline.arrRef spec1 12))) := by
  show (cfg1.win 13).cut (grid1.coords t) ((dat1 V c).after 13 t) = _
  rw [after1_13]
  unfold out1_13
  rw [View.canon_unit_zero hz1]
  simp only [View.ld_unit_zero (S := S4096x128) hz2, View.ld_unit_zero (S := S4096x2) hz2, View.ld_unit_zero (S := S128x256) hz2,
    View.ld_unit_zero (S := S2x256) hz2, View.ld_unit_zero (S := S256) hz1, View.ld_unit_zero (S := S256x128) hz2,
    View.ld_unit_zero (S := S128) hz1, View.ld_unit_zero (S := S128x1) hz2, View.ld_unit_zero (S := S1) hz1]
  funext j
  refine (ScoreValue.score_payload_idx (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) (iblk1 V c 11 t) (iblk1 V c 12 t) j).trans ?_
  exact block_eq V c t j (((cfg1.win 13).blk t).view.emb j) rfl

/-- An index of the array is in block t iff its coordinate is in the block's range. -/
theorem mem_blk (t : Fin cfg1.N) (i : S503808.Idx) :
    i ∈ ((cfg1.win 13).blk t).view.set ↔ ∀ a : Fin 1, win1_13.index t a * S4096.size a ≤ (i a).val
      ∧ (i a).val < win1_13.index t a * S4096.size a + S4096.size a := by
  show i ∈ ((View.whole main_v43).slice (win1_13.rect t)).set ↔ _
  rw [View.set_slice_whole, Rect.mem_set_unit]
  exact Iff.rfl

/-- Every index of the array is in the block of its 4096. -/
theorem cover (i : S503808.Idx) :
    ∃ t : Fin cfg1.N, (cfg1.win 13).flush t = true ∧ i ∈ ((cfg1.win 13).blk t).view.set := by
  have hi0 : (i 0).val < 503808 := (i 0).isLt
  have hN : cfg1.N = 123 := N_1
  have ht : (i 0).val / 4096 < cfg1.N := by rw [hN]; omega
  obtain ⟨-, -, -, -, -, -, e6, -⟩ := idx_facts ⟨(i 0).val / 4096, ht⟩
  refine ⟨⟨(i 0).val / 4096, ht⟩, flush1_13 _, ?_⟩
  rw [mem_blk]
  intro a
  match a with
  | ⟨0, _⟩ =>
    show win1_13.index ⟨(i 0).val / 4096, ht⟩ (0 : Fin 1) * 4096 ≤ (i 0).val
      ∧ (i 0).val < win1_13.index ⟨(i 0).val / 4096, ht⟩ (0 : Fin 1) * 4096 + 4096
    have e6' : win1_13.index ⟨(i 0).val / 4096, ht⟩ (0 : Fin 1) = (i 0).val / 4096 := e6
    omega

/-- THE ARRAY after the region: the score of every pair from the arrays the region finds. -/
theorem final (c : Dev nD) :
    (dat1 V c).arrAt 13 cfg1.N
      = scoreArr (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (V c (Pipeline.arrRef spec1 6)) (V c (Pipeline.arrRef spec1 7)) (V c (Pipeline.arrRef spec1 8))
        (V c (Pipeline.arrRef spec1 9)) (V c (Pipeline.arrRef spec1 10)) (V c (Pipeline.arrRef spec1 11))
        (V c (Pipeline.arrRef spec1 12)) :=
  (dat1 V c).arrAt_eq_of_cover 13 _ (fun t _ => flushed_eq V c t) cover

end Cert.KernelIdeal.ScoreArray

end
-- ==== Proof.SpecRead.lean ====
/-
  The specification's result at a pair: the cleaned score of the pair's two embedding rows and degree entries.
-/
import proofs.«173014_j64493228917219_1_alg».proof.Proof.Spec

noncomputable section

namespace Cert.Spec

open Idealize.ShloMosaic Idealize.ShloMosaic.ValueIdx

/-- Entry `p` of the whole result, with the pair's index spelt as `p` itself. -/
theorem out_ix1 (x : V2 100000 128) (ep : (⟨2, ![500000, 2]⟩ : Shape).Idx → BitVec 32) (mean std : V1 128) (ld : V1 100000)
    (W1 : V2 128 256) (b1 g be mu var : V1 256) (W2 : V2 256 128) (b2 : V1 128)
    (SW1 : V2 514 256) (Sb1 : V1 256) (SW2 : V2 256 128) (Sb2 : V1 128) (SW3 : V2 128 1) (Sb3 : V1 1)
    (h0 : (⟨2, ![514, 256]⟩ : Shape).Slices ![0, 0] ⟨2, ![128, 256]⟩) (h1 : (⟨2, ![514, 256]⟩ : Shape).Slices ![128, 0] ⟨2, ![128, 256]⟩)
    (h2 : (⟨2, ![514, 256]⟩ : Shape).Slices ![256, 0] ⟨2, ![128, 256]⟩) (h3 : (⟨2, ![514, 256]⟩ : Shape).Slices ![384, 0] ⟨2, ![128, 256]⟩)
    (h4 : (⟨2, ![514, 256]⟩ : Shape).Slices ![512, 0] ⟨2, ![2, 256]⟩) (p : Fin 500000) :
    out x ep mean std ld W1 b1 g be mu var W2 b2 SW1 Sb1 SW2 Sb2 SW3 Sb3 h0 h1 h2 h3 h4 (ix1 p)
      = n2n (lit 0x00000000#32) (lit 0x41A00000#32) (lit 0xC1A00000#32)
          (logitRow (zRow x mean std W1 b1 g be mu var W2 b2 (ep (ix2 p (0 : Fin 2))))
            (zRow x mean std W1 b1 g be mu var W2 b2 (ep (ix2 p (1 : Fin 2))))
            (fun k => ld (ix1 (row (ep (ix2 p k)))))
            (band SW1 0 h0) (band SW1 128 h1) (band SW1 256 h2) (band SW1 384 h3) (band2 SW1 h4) Sb1 SW2 Sb2 SW3 Sb3) := rfl

end Cert.Spec

end
-- ==== Proof.KernelBridge.lean ====
/-
  The blocked program's result array is the specification's.

  The final buffer is the last cleaning applied, entry by entry, to the first 500000 entries of the scorer region's
  output array. That array is the score of every padded pair from the arrays the scorer region finds; those are, row by
  row, the embedding rows and degree entries of the nodes the pair's two index words name (a padding word beyond the
  500000 pairs is never read here), the five bands of the first scorer matrix, and the launched parameters. The
  embedding array is the encoder region's output: the embedding of every node from its own feature row and the launched
  parameters. Composed, entry p is the specification's entry p.
-/
import proofs.«173014_j64493228917219_1_alg».proof.Proof.KernelMid
import proofs.«173014_j64493228917219_1_alg».proof.Proof.KernelTail
import proofs.«173014_j64493228917219_1_alg».proof.Proof.EncArray
import proofs.«173014_j64493228917219_1_alg».proof.Proof.ScoreArray
import proofs.«173014_j64493228917219_1_alg».proof.Proof.SpecRead

noncomputable section

namespace Cert.KernelIdeal.Hand

open Cert.KernelIdeal Cert.KernelIdeal.Gen
open Idealize.ShloMosaic Idealize.ShloMosaic.TcCoe Idealize.ShloMosaic.ValueIdx

/-- Below the 500000 pairs the padded index word is the pair table's own word. -/
theorem padWord_lt (ep : IVec S500000x2 32) (p : Fin 500000) (h : p.val < 503808) (j : Fin 2) :
    padWord ep (⟨p.val, h⟩ : Fin 503808) j = ep (ix2 p j) := dif_pos p.isLt

variable (m : (ℓ : Loc nD τ sig) → Buf (Elt Ideal) ℓ) (ρ : Dev nD → PrngReg) (c : Dev nD)

/-- A gathered row of the embedding array is the specification's embedding row of the named node. -/
theorem zrow_eq (e : BitVec 32) (k : Fin 128) :
    ((Gen.dat0 (Gen.V0 m ρ) c).arrAt 11 cfg0.N : S100000x128.Idx → EReal) (ix2 (Cert.Spec.row e) k)
      = Cert.Spec.zRow (m ((c.tc : Thread nD τ).loc main_arg0)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) e k := by
  rw [EncArray.final (Gen.V0 m ρ) c, EncArray.encArr_ix2]
  rfl

/-- THE RESULT: the final buffer holds the specification's result array. -/
theorem W9_eq_spec :
    (Gen.W9 m ρ c (Proc.devRef .tc main_v45) : S500000.Idx → EReal)
      = Cert.Spec.out (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
          (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
          slices_S514x256_S128x256_0_0 slices_S514x256_S128x256_128_0 slices_S514x256_S128x256_256_0 slices_S514x256_S128x256_384_0
          slices_S514x256_S2x256_512_0 := by
  funext i
  obtain ⟨p, rfl⟩ : ∃ p : Fin 500000, i = ix1 p := ⟨i 0, eq_ix1 i⟩
  rw [W9_out, Cert.Spec.out_ix1]
  refine congrArg (Cert.Spec.n2n _ _ _) ?_
  rw [ScoreArray.final (Gen.V6 m ρ) c, ScoreArray.scoreArr_ix1]
  refine ScoreArray.logitRow_congr (funext fun k => ?_) (funext fun k => ?_) (funext fun k => ?_) (V6_band0 m ρ c) (V6_band1 m ρ c)
    (V6_band2 m ρ c) (V6_band3 m ρ c) (V6_band4 m ρ c) (V6_arg15 m ρ c) (V6_arg16 m ρ c) (V6_arg17 m ρ c) (V6_arg18 m ρ c)
    (V6_arg19 m ρ c)
  · refine (V6_src m ρ c _ k).trans ?_
    rw [padWord_lt]
    exact zrow_eq m ρ c _ k
  · refine (V6_dst m ρ c _ k).trans ?_
    rw [padWord_lt]
    exact zrow_eq m ρ c _ k
  · refine (V6_deg m ρ c _ k).trans ?_
    rw [padWord_lt]

end Cert.KernelIdeal.Hand

end
-- ==== Proof.RefRun.lean ====
/-
  The reference program's @main as ONE straight line of host operations, and its run.

  The printed @main calls module-local functions (nan_to_num, which itself calls _where; clip; relu).
  A call executes the callee's body on the operands, each value of the body in a buffer of its own
  (the call's record), so the program is the flat list below: @main's own operations in order, each
  call replaced by the callee's operations over that call's record, a nested call likewise. The list
  is in two stretches, the printed windows main_part0 and main_part1; `ops` is their concatenation
  written out. `main_eq` says @main IS that line; `run_main` is the library's run of a straight line:
  every weakly fair execution terminates with each buffer at the fold of the operations' results
  over the launch contents.
-/
import proofs.«173014_j64493228917219_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first window's 84 operations, the calls unfolded: the three NaN/inf replacement scalars and
    nan_to_num's sixteen operations, the normalisation (x - mean) / std, clip's six, the first dense layer,
    batch normalisation, relu's three, the second dense layer, relu's three (the node embeddings), the two
    index columns of the pair table with jnp's negative-index wrap, and the gather of the first column's rows. -/
abbrev ops0 : List (HloOp τ sig (Elt F)) :=
  [ nullary main_cst (constant S_ .f32 0x00000000#32),
    nullary main_cst_0 (constant S_ .f32 0x00000000#32),
    nullary main_cst_1 (constant S_ .f32 0x00000000#32),
    TRef.binary (TRef.of main_arg0 : TRef sig ⟨S100000x128, .f32⟩) (TRef.of main_arg0 : TRef sig ⟨S100000x128, .f32⟩) main_call0.v0 (cmpf .une),
    TRef.unary (TRef.of main_cst : TRef sig ⟨S_, .f32⟩) main_call0.v1 id,
    TRef.unary main_call0.v1 main_call0.call0.v0 (broadcastInDim S100000x128 ![] bcast_S_S100000x128),
    TRef.ternary main_call0.v0 main_call0.call0.v0 (TRef.of main_arg0 : TRef sig ⟨S100000x128, .f32⟩) main_call0.call0.v1 select,
    TRef.nullary main_call0.cst (constant S_ .f32 0x7F800000#32),
    TRef.unary main_call0.cst main_call0.v3 (broadcastInDim S100000x128 ![] bcast_S_S100000x128),
    TRef.binary main_call0.call0.v1 main_call0.v3 main_call0.v4 (cmpf .oeq),
    TRef.unary (TRef.of main_cst_1 : TRef sig ⟨S_, .f32⟩) main_call0.v5 id,
    TRef.unary main_call0.v5 main_call0.call1.v0 (broadcastInDim S100000x128 ![] bcast_S_S100000x128),
    TRef.ternary main_call0.v4 main_call0.call1.v0 main_call0.call0.v1 main_call0.call1.v1 select,
    TRef.nullary main_call0.cst_0 (constant S_ .f32 0xFF800000#32),
    TRef.unary main_call0.cst_0 main_call0.v7 (broadcastInDim S100000x128 ![] bcast_S_S100000x128),
    TRef.binary main_call0.call1.v1 main_call0.v7 main_call0.v8 (cmpf .oeq),
    TRef.unary (TRef.of main_cst_0 : TRef sig ⟨S_, .f32⟩) main_call0.v9 id,
    TRef.unary main_call0.v9 main_call0.call2.v0 (broadcastInDim S100000x128 ![] bcast_S_S100000x128),
    TRef.ternary main_call0.v8 main_call0.call2.v0 main_call0.call1.v1 main_call0.call2.v1 select,
    unary main_arg3 main_v1 (broadcastInDim S1x128 ![1] bcast_S128_S1x128_1 : (⟨S128, .f32⟩ : BufTy).Contents (Elt F) → (⟨S1x128, .f32⟩ : BufTy).Contents (Elt F)),
    unary main_v1 main_v2 (broadcastInDim S100000x128 ![0, 1] bcast_S1x128_S100000x128_0_1 : (⟨S1x128, .f32⟩ : BufTy).Contents (Elt F) → (⟨S100000x128, .f32⟩ : BufTy).Contents (Elt F)),
    binary main_v0 main_v2 main_v3 (subf : (⟨S100000x128, .f32⟩ : BufTy).Contents (Elt F) → (⟨S100000x128, .f32⟩ : BufTy).Contents (Elt F) → (⟨S100000x128, .f32⟩ : BufTy).Contents (Elt F)),
    unary main_arg4 main_v4 (broadcastInDim S1x128 ![1] bcast_S128_S1x128_1 : (⟨S128, .f32⟩ : BufTy).Contents (Elt F) → (⟨S1x128, .f32⟩ : BufTy).Contents (Elt F)),
    unary main_v4 main_v5 (broadcastInDim S100000x128 ![0, 1] bcast_S1x128_S100000x128_0_1 : (⟨S1x128, .f32⟩ : BufTy).Contents (Elt F) → (⟨S100000x128, .f32⟩ : BufTy).Contents (Elt F)),
    binary main_v3 main_v5 main_v6 (Host.divf : (⟨S100000x128, .f32⟩ : BufTy).Contents (Elt F) → (⟨S100000x128, .f32⟩ : BufTy).Contents (Elt F) → (⟨S100000x128, .f32⟩ : BufTy).Contents (Elt F)),
    nullary main_cst_2 (constant S_ .f32 0xC1200000#32),
    nullary main_cst_3 (constant S_ .f32 0x41200000#32),
    TRef.unary (TRef.of main_cst_2 : TRef sig ⟨S_, .f32⟩) main_call1.v0 id,
    TRef.unary main_call1.v0 main_call1.v1 (broadcastInDim S100000x128 ![] bcast_S_S100000x128),
    TRef.binary main_call1.v1 (TRef.of main_v6 : TRef sig ⟨S100000x128, .f32⟩) main_call1.v2 maximumf,
    TRef.unary (TRef.of main_cst_3 : TRef sig ⟨S_, .f32⟩) main_call1.v3 id,
    TRef.unary main_call1.v3 main_call1.v4 (broadcastInDim S100000x128 ![] bcast_S_S100000x128),
    TRef.binary main_call1.v4 main_call1.v2 main_call1.v5 minimumf,
    binary main_v7 main_arg6 main_v8 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    unary main_arg7 main_v9 (broadcastInDim S1x256 ![1] bcast_S256_S1x256_1 : (⟨S256, .f32⟩ : BufTy).Contents (Elt F) → (⟨S1x256, .f32⟩ : BufTy).Contents (Elt F)),
    unary main_v9 main_v10 (broadcastInDim S100000x256 ![0, 1] bcast_S1x256_S100000x256_0_1 : (⟨S1x256, .f32⟩ : BufTy).Contents (Elt F) → (⟨S100000x256, .f32⟩ : BufTy).Contents (Elt F)),
    binary main_v8 main_v10 main_v11 (addf : (⟨S100000x256, .f32⟩ : BufTy).Contents (Elt F) → (⟨S100000x256, .f32⟩ : BufTy).Contents (Elt F) → (⟨S100000x256, .f32⟩ : BufTy).Contents (Elt F)),
    unary main_arg10 main_v12 (broadcastInDim S1x256 ![1] bcast_S256_S1x256_1 : (⟨S256, .f32⟩ : BufTy).Contents (Elt F) → (⟨S1x256, .f32⟩ : BufTy).Contents (Elt F)),
    unary main_v12 main_v13 (broadcastInDim S100000x256 ![0, 1] bcast_S1x256_S100000x256_0_1 : (⟨S1x256, .f32⟩ : BufTy).Contents (Elt F) → (⟨S100000x256, .f32⟩ : BufTy).Contents (Elt F)),
    binary main_v11 main_v13 main_v14 (subf : (⟨S100000x256, .f32⟩ : BufTy).Contents (Elt F) → (⟨S100000x256, .f32⟩ : BufTy).Contents (Elt F) → (⟨S100000x256, .f32⟩ : BufTy).Contents (Elt F)),
    nullary main_cst_4 (constant S_ .f32 0x3727C5AC#32),
    unary main_cst_4 main_v15 (broadcastInDim S256 ![] bcast_S_S256 : (⟨S_, .f32⟩ : BufTy).Contents (Elt F) → (⟨S256, .f32⟩ : BufTy).Contents (Elt F)),
    binary main_arg11 main_v15 main_v16 (addf : (⟨S256, .f32⟩ : BufTy).Contents (Elt F) → (⟨S256, .f32⟩ : BufTy).Contents (Elt F) → (⟨S256, .f32⟩ : BufTy).Contents (Elt F)),
    unary main_v16 main_v17 (Host.rsqrt : (⟨S256, .f32⟩ : BufTy).Contents (Elt F) → (⟨S256, .f32⟩ : BufTy).Contents (Elt F)),
    unary main_v17 main_v18 (broadcastInDim S1x256 ![1] bcast_S256_S1x256_1 : (⟨S256, .f32⟩ : BufTy).Contents (Elt F) → (⟨S1x256, .f32⟩ : BufTy).Contents (Elt F)),
    unary main_v18 main_v19 (broadcastInDim S100000x256 ![0, 1] bcast_S1x256_S100000x256_0_1 : (⟨S1x256, .f32⟩ : BufTy).Contents (Elt F) → (⟨S100000x256, .f32⟩ : BufTy).Contents (Elt F)),
    binary main_v14 main_v19 main_v20 (mulf : (⟨S100000x256, .f32⟩ : BufTy).Contents (Elt F) → (⟨S100000x256, .f32⟩ : BufTy).Contents (Elt F) → (⟨S100000x256, .f32⟩ : BufTy).Contents (Elt F)),
    unary main_arg8 main_v21 (broadcastInDim S1x256 ![1] bcast_S256_S1x256_1 : (⟨S256, .f32⟩ : BufTy).Contents (Elt F) → (⟨S1x256, .f32⟩ : BufTy).Contents (Elt F)),
    unary main_v21 main_v22 (broadcastInDim S100000x256 ![0, 1] bcast_S1x256_S100000x256_0_1 : (⟨S1x256, .f32⟩ : BufTy).Contents (Elt F) → (⟨S100000x256, .f32⟩ : BufTy).Contents (Elt F)),
    binary main_v20 main_v22 main_v23 (mulf : (⟨S100000x256, .f32⟩ : BufTy).Contents (Elt F) → (⟨S100000x256, .f32⟩ : BufTy).Contents (Elt F) → (⟨S100000x256, .f32⟩ : BufTy).Contents (Elt F)),
    unary main_arg9 main_v24 (broadcastInDim S1x256 ![1] bcast_S256_S1x256_1 : (⟨S256, .f32⟩ : BufTy).Contents (Elt F) → (⟨S1x256, .f32⟩ : BufTy).Contents (Elt F)),
    unary main_v24 main_v25 (broadcastInDim S100000x256 ![0, 1] bcast_S1x256_S100000x256_0_1 : (⟨S1x256, .f32⟩ : BufTy).Contents (Elt F) → (⟨S100000x256, .f32⟩ : BufTy).Contents (Elt F)),
    binary main_v23 main_v25 main_v26 (addf : (⟨S100000x256, .f32⟩ : BufTy).Contents (Elt F) → (⟨S100000x256, .f32⟩ : BufTy).Contents (Elt F) → (⟨S100000x256, .f32⟩ : BufTy).Contents (Elt F)),
    TRef.nullary main_call2.cst (constant S_ .f32 0x00000000#32),
    TRef.unary main_call2.cst main_call2.v0 (broadcastInDim S100000x256 ![] bcast_S_S100000x256),
    TRef.binary (TRef.of main_v26 : TRef sig ⟨S100000x256, .f32⟩) main_call2.v0 main_call2.v1 maximumf,
    binary main_v27 main_arg12 main_v28 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg13 main_v29 (broadcastInDim S1x128 ![1] bcast_S128_S1x128_1 : (⟨S128, .f32⟩ : BufTy).Contents (Elt F) → (⟨S1x128, .f32⟩ : BufTy).Contents (Elt F)),
    unary main_v29 main_v30 (broadcastInDim S100000x128 ![0, 1] bcast_S1x128_S100000x128_0_1 : (⟨S1x128, .f32⟩ : BufTy).Contents (Elt F) → (⟨S100000x128, .f32⟩ : BufTy).Contents (Elt F)),
    binary main_v28 main_v30 main_v31 (addf : (⟨S100000x128, .f32⟩ : BufTy).Contents (Elt F) → (⟨S100000x128, .f32⟩ : BufTy).Contents (Elt F) → (⟨S100000x128, .f32⟩ : BufTy).Contents (Elt F)),
    TRef.nullary main_call3.cst (constant S_ .f32 0x00000000#32),
    TRef.unary main_call3.cst main_call3.v0 (broadcastInDim S100000x128 ![] bcast_S_S100000x128),
    TRef.binary (TRef.of main_v31 : TRef sig ⟨S100000x128, .f32⟩) main_call3.v0 main_call3.v1 maximumf,
    unary main_arg2 main_v33 ((extractStridedSlice S500000x1 ![0, 0] · slices_S500000x2_S500000x1_0_0) : (⟨S500000x2, .i32⟩ : BufTy).Contents (Elt F) → (⟨S500000x1, .i32⟩ : BufTy).Contents (Elt F)),
    reshape main_v33 main_v34 rfl shapeCasts_S500000x1_S500000,
    unary main_arg2 main_v35 ((extractStridedSlice S500000x1 ![0, 1] · slices_S500000x2_S500000x1_0_1) : (⟨S500000x2, .i32⟩ : BufTy).Contents (Elt F) → (⟨S500000x1, .i32⟩ : BufTy).Contents (Elt F)),
    reshape main_v35 main_v36 rfl shapeCasts_S500000x1_S500000,
    nullary main_c (constantI S_ 32 0#32),
    unary main_c main_v37 (broadcastInDim S500000 ![] bcast_S_S500000 : (⟨S_, .i32⟩ : BufTy).Contents (Elt F) → (⟨S500000, .i32⟩ : BufTy).Contents (Elt F)),
    binary main_v34 main_v37 main_v38 (cmpi .slt : (⟨S500000, .i32⟩ : BufTy).Contents (Elt F) → (⟨S500000, .i32⟩ : BufTy).Contents (Elt F) → (⟨S500000, .i1⟩ : BufTy).Contents (Elt F)),
    nullary main_c_5 (constantI S_ 32 100000#32),
    unary main_c_5 main_v39 (broadcastInDim S500000 ![] bcast_S_S500000 : (⟨S_, .i32⟩ : BufTy).Contents (Elt F) → (⟨S500000, .i32⟩ : BufTy).Contents (Elt F)),
    binary main_v34 main_v39 main_v40 (addi : (⟨S500000, .i32⟩ : BufTy).Contents (Elt F) → (⟨S500000, .i32⟩ : BufTy).Contents (Elt F) → (⟨S500000, .i32⟩ : BufTy).Contents (Elt F)),
    ternary main_v38 main_v40 main_v34 main_v41 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v41 main_v42 (broadcastInDim S500000x1 ![0] bcast_S500000_S500000x1_0 : (⟨S500000, .i32⟩ : BufTy).Contents (Elt F) → (⟨S500000x1, .i32⟩ : BufTy).Contents (Elt F)),
    binary main_v32 main_v42 main_v43 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    nullary main_c_6 (constantI S_ 32 0#32),
    unary main_c_6 main_v44 (broadcastInDim S500000 ![] bcast_S_S500000 : (⟨S_, .i32⟩ : BufTy).Contents (Elt F) → (⟨S500000, .i32⟩ : BufTy).Contents (Elt F)),
    binary main_v36 main_v44 main_v45 (cmpi .slt : (⟨S500000, .i32⟩ : BufTy).Contents (Elt F) → (⟨S500000, .i32⟩ : BufTy).Contents (Elt F) → (⟨S500000, .i1⟩ : BufTy).Contents (Elt F)),
    nullary main_c_7 (constantI S_ 32 100000#32),
    unary main_c_7 main_v46 (broadcastInDim S500000 ![] bcast_S_S500000 : (⟨S_, .i32⟩ : BufTy).Contents (Elt F) → (⟨S500000, .i32⟩ : BufTy).Contents (Elt F)),
    binary main_v36 main_v46 main_v47 (addi : (⟨S500000, .i32⟩ : BufTy).Contents (Elt F) → (⟨S500000, .i32⟩ : BufTy).Contents (Elt F) → (⟨S500000, .i32⟩ : BufTy).Contents (Elt F)),
    ternary main_v45 main_v47 main_v36 main_v48 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v48 main_v49 (broadcastInDim S500000x1 ![0] bcast_S500000_S500000x1_0 : (⟨S500000, .i32⟩ : BufTy).Contents (Elt F) → (⟨S500000x1, .i32⟩ : BufTy).Contents (Elt F)) ]

/-- The second window's 64 operations, the calls unfolded: the gather of the second column's rows, the two
    gathers of the log-degrees, the pair row [src | dst | src*dst | |src-dst| | deg], the three dense layers of the
    scorer with relu's three operations after the first two, the reshape to a vector, and nan_to_num's sixteen. -/
abbrev ops1 : List (HloOp τ sig (Elt F)) :=
  [ binary main_v32 main_v49 main_v50 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    nullary main_c_8 (constantI S_ 32 0#32),
    unary main_c_8 main_v51 (broadcastInDim S500000 ![] bcast_S_S500000 : (⟨S_, .i32⟩ : BufTy).Contents (Elt F) → (⟨S500000, .i32⟩ : BufTy).Contents (Elt F)),
    binary main_v34 main_v51 main_v52 (cmpi .slt : (⟨S500000, .i32⟩ : BufTy).Contents (Elt F) → (⟨S500000, .i32⟩ : BufTy).Contents (Elt F) → (⟨S500000, .i1⟩ : BufTy).Contents (Elt F)),
    nullary main_c_9 (constantI S_ 32 100000#32),
    unary main_c_9 main_v53 (broadcastInDim S500000 ![] bcast_S_S500000 : (⟨S_, .i32⟩ : BufTy).Contents (Elt F) → (⟨S500000, .i32⟩ : BufTy).Contents (Elt F)),
    binary main_v34 main_v53 main_v54 (addi : (⟨S500000, .i32⟩ : BufTy).Contents (Elt F) → (⟨S500000, .i32⟩ : BufTy).Contents (Elt F) → (⟨S500000, .i32⟩ : BufTy).Contents (Elt F)),
    ternary main_v52 main_v54 main_v34 main_v55 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v55 main_v56 (broadcastInDim S500000x1 ![0] bcast_S500000_S500000x1_0 : (⟨S500000, .i32⟩ : BufTy).Contents (Elt F) → (⟨S500000x1, .i32⟩ : BufTy).Contents (Elt F)),
    binary main_arg5 main_v56 main_v57 ((fun x i => Host.gather gather_S100000_S500000x1_S500000_n_0_n_n_0_1_1 x i) : (⟨S100000, .f32⟩ : BufTy).Contents (Elt F) → (⟨S500000x1, .i32⟩ : BufTy).Contents (Elt F) → (⟨S500000, .f32⟩ : BufTy).Contents (Elt F)),
    nullary main_c_10 (constantI S_ 32 0#32),
    unary main_c_10 main_v58 (broadcastInDim S500000 ![] bcast_S_S500000 : (⟨S_, .i32⟩ : BufTy).Contents (Elt F) → (⟨S500000, .i32⟩ : BufTy).Contents (Elt F)),
    binary main_v36 main_v58 main_v59 (cmpi .slt : (⟨S500000, .i32⟩ : BufTy).Contents (Elt F) → (⟨S500000, .i32⟩ : BufTy).Contents (Elt F) → (⟨S500000, .i1⟩ : BufTy).Contents (Elt F)),
    nullary main_c_11 (constantI S_ 32 100000#32),
    unary main_c_11 main_v60 (broadcastInDim S500000 ![] bcast_S_S500000 : (⟨S_, .i32⟩ : BufTy).Contents (Elt F) → (⟨S500000, .i32⟩ : BufTy).Contents (Elt F)),
    binary main_v36 main_v60 main_v61 (addi : (⟨S500000, .i32⟩ : BufTy).Contents (Elt F) → (⟨S500000, .i32⟩ : BufTy).Contents (Elt F) → (⟨S500000, .i32⟩ : BufTy).Contents (Elt F)),
    ternary main_v59 main_v61 main_v36 main_v62 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v62 main_v63 (broadcastInDim S500000x1 ![0] bcast_S500000_S500000x1_0 : (⟨S500000, .i32⟩ : BufTy).Contents (Elt F) → (⟨S500000x1, .i32⟩ : BufTy).Contents (Elt F)),
    binary main_arg5 main_v63 main_v64 ((fun x i => Host.gather gather_S100000_S500000x1_S500000_n_0_n_n_0_1_1 x i) : (⟨S100000, .f32⟩ : BufTy).Contents (Elt F) → (⟨S500000x1, .i32⟩ : BufTy).Contents (Elt F) → (⟨S500000, .f32⟩ : BufTy).Contents (Elt F)),
    unary main_v57 main_v65 (broadcastInDim S500000x1 ![0] bcast_S500000_S500000x1_0 : (⟨S500000, .f32⟩ : BufTy).Contents (Elt F) → (⟨S500000x1, .f32⟩ : BufTy).Contents (Elt F)),
    unary main_v64 main_v66 (broadcastInDim S500000x1 ![0] bcast_S500000_S500000x1_0 : (⟨S500000, .f32⟩ : BufTy).Contents (Elt F) → (⟨S500000x1, .f32⟩ : BufTy).Contents (Elt F)),
    binary main_v65 main_v66 main_v67 ((fun a b => concatenate S500000x2 1 [⟨S500000x1, a⟩, ⟨S500000x1, b⟩] concatenates_S500000x1_S500000x1_S500000x2_d1) : (⟨S500000x1, .f32⟩ : BufTy).Contents (Elt F) → (⟨S500000x1, .f32⟩ : BufTy).Contents (Elt F) → (⟨S500000x2, .f32⟩ : BufTy).Contents (Elt F)),
    binary main_v43 main_v50 main_v68 (mulf : (⟨S500000x128, .f32⟩ : BufTy).Contents (Elt F) → (⟨S500000x128, .f32⟩ : BufTy).Contents (Elt F) → (⟨S500000x128, .f32⟩ : BufTy).Contents (Elt F)),
    binary main_v43 main_v50 main_v69 (subf : (⟨S500000x128, .f32⟩ : BufTy).Contents (Elt F) → (⟨S500000x128, .f32⟩ : BufTy).Contents (Elt F) → (⟨S500000x128, .f32⟩ : BufTy).Contents (Elt F)),
    unary main_v69 main_v70 (Host.absf : (⟨S500000x128, .f32⟩ : BufTy).Contents (Elt F) → (⟨S500000x128, .f32⟩ : BufTy).Contents (Elt F)),
    nary ![main_v43, main_v50, main_v68, main_v70, main_v67] main_v71 (fun u => concatenate S500000x514 1 [⟨S500000x128, u 0⟩, ⟨S500000x128, u 1⟩, ⟨S500000x128, u 2⟩, ⟨S500000x128, u 3⟩, ⟨S500000x2, u 4⟩] concatenates_S500000x128_S500000x128_S500000x128_S500000x128_S500000x2_S500000x514_d1),
    binary main_v71 main_arg14 main_v72 ((fun l r => Host.dotGeneral dot_S500000x514_S514x256_S500000x256_1_0_0_1_n_n none l r) : (⟨S500000x514, .f32⟩ : BufTy).Contents (Elt F) → (⟨S514x256, .f32⟩ : BufTy).Contents (Elt F) → (⟨S500000x256, .f32⟩ : BufTy).Contents (Elt F)),
    unary main_arg15 main_v73 (broadcastInDim S1x256 ![1] bcast_S256_S1x256_1 : (⟨S256, .f32⟩ : BufTy).Contents (Elt F) → (⟨S1x256, .f32⟩ : BufTy).Contents (Elt F)),
    unary main_v73 main_v74 (broadcastInDim S500000x256 ![0, 1] bcast_S1x256_S500000x256_0_1 : (⟨S1x256, .f32⟩ : BufTy).Contents (Elt F) → (⟨S500000x256, .f32⟩ : BufTy).Contents (Elt F)),
    binary main_v72 main_v74 main_v75 (addf : (⟨S500000x256, .f32⟩ : BufTy).Contents (Elt F) → (⟨S500000x256, .f32⟩ : BufTy).Contents (Elt F) → (⟨S500000x256, .f32⟩ : BufTy).Contents (Elt F)),
    TRef.nullary main_call4.cst (constant S_ .f32 0x00000000#32),
    TRef.unary main_call4.cst main_call4.v0 (broadcastInDim S500000x256 ![] bcast_S_S500000x256),
    TRef.binary (TRef.of main_v75 : TRef sig ⟨S500000x256, .f32⟩) main_call4.v0 main_call4.v1 maximumf,
    binary main_v76 main_arg16 main_v77 ((fun l r => Host.dotGeneral dot_S500000x256_S256x128_S500000x128_1_0_0_1_n_n none l r) : (⟨S500000x256, .f32⟩ : BufTy).Contents (Elt F) → (⟨S256x128, .f32⟩ : BufTy).Contents (Elt F) → (⟨S500000x128, .f32⟩ : BufTy).Contents (Elt F)),
    unary main_arg17 main_v78 (broadcastInDim S1x128 ![1] bcast_S128_S1x128_1 : (⟨S128, .f32⟩ : BufTy).Contents (Elt F) → (⟨S1x128, .f32⟩ : BufTy).Contents (Elt F)),
    unary main_v78 main_v79 (broadcastInDim S500000x128 ![0, 1] bcast_S1x128_S500000x128_0_1 : (⟨S1x128, .f32⟩ : BufTy).Contents (Elt F) → (⟨S500000x128, .f32⟩ : BufTy).Contents (Elt F)),
    binary main_v77 main_v79 main_v80 (addf : (⟨S500000x128, .f32⟩ : BufTy).Contents (Elt F) → (⟨S500000x128, .f32⟩ : BufTy).Contents (Elt F) → (⟨S500000x128, .f32⟩ : BufTy).Contents (Elt F)),
    TRef.nullary main_call5.cst (constant S_ .f32 0x00000000#32),
    TRef.unary main_call5.cst main_call5.v0 (broadcastInDim S500000x128 ![] bcast_S_S500000x128),
    TRef.binary (TRef.of main_v80 : TRef sig ⟨S500000x128, .f32⟩) main_call5.v0 main_call5.v1 maximumf,
    binary main_v81 main_arg18 main_v82 ((fun l r => Host.dotGeneral dot_S500000x128_S128x1_S500000x1_1_0_0_1_n_n none l r) : (⟨S500000x128, .f32⟩ : BufTy).Contents (Elt F) → (⟨S128x1, .f32⟩ : BufTy).Contents (Elt F) → (⟨S500000x1, .f32⟩ : BufTy).Contents (Elt F)),
    unary main_arg19 main_v83 (broadcastInDim S1x1 ![1] bcast_S1_S1x1_1 : (⟨S1, .f32⟩ : BufTy).Contents (Elt F) → (⟨S1x1, .f32⟩ : BufTy).Contents (Elt F)),
    unary main_v83 main_v84 (broadcastInDim S500000x1 ![0, 1] bcast_S1x1_S500000x1_0_1 : (⟨S1x1, .f32⟩ : BufTy).Contents (Elt F) → (⟨S500000x1, .f32⟩ : BufTy).Contents (Elt F)),
    binary main_v82 main_v84 main_v85 (addf : (⟨S500000x1, .f32⟩ : BufTy).Contents (Elt F) → (⟨S500000x1, .f32⟩ : BufTy).Contents (Elt F) → (⟨S500000x1, .f32⟩ : BufTy).Contents (Elt F)),
    reshape main_v85 main_v86 rfl shapeCasts_S500000x1_S500000,
    nullary main_cst_12 (constant S_ .f32 0x00000000#32),
    nullary main_cst_13 (constant S_ .f32 0xC1A00000#32),
    nullary main_cst_14 (constant S_ .f32 0x41A00000#32),
    TRef.binary (TRef.of main_v86 : TRef sig ⟨S500000, .f32⟩) (TRef.of main_v86 : TRef sig ⟨S500000, .f32⟩) main_call6.v0 (cmpf .une),
    TRef.unary (TRef.of main_cst_12 : TRef sig ⟨S_, .f32⟩) main_call6.v1 id,
    TRef.unary main_call6.v1 main_call6.call0.v0 (broadcastInDim S500000 ![] bcast_S_S500000),
    TRef.ternary main_call6.v0 main_call6.call0.v0 (TRef.of main_v86 : TRef sig ⟨S500000, .f32⟩) main_call6.call0.v1 select,
    TRef.nullary main_call6.cst (constant S_ .f32 0x7F800000#32),
    TRef.unary main_call6.cst main_call6.v3 (broadcastInDim S500000 ![] bcast_S_S500000),
    TRef.binary main_call6.call0.v1 main_call6.v3 main_call6.v4 (cmpf .oeq),
    TRef.unary (TRef.of main_cst_14 : TRef sig ⟨S_, .f32⟩) main_call6.v5 id,
    TRef.unary main_call6.v5 main_call6.call1.v0 (broadcastInDim S500000 ![] bcast_S_S500000),
    TRef.ternary main_call6.v4 main_call6.call1.v0 main_call6.call0.v1 main_call6.call1.v1 select,
    TRef.nullary main_call6.cst_0 (constant S_ .f32 0xFF800000#32),
    TRef.unary main_call6.cst_0 main_call6.v7 (broadcastInDim S500000 ![] bcast_S_S500000),
    TRef.binary main_call6.call1.v1 main_call6.v7 main_call6.v8 (cmpf .oeq),
    TRef.unary (TRef.of main_cst_13 : TRef sig ⟨S_, .f32⟩) main_call6.v9 id,
    TRef.unary main_call6.v9 main_call6.call2.v0 (broadcastInDim S500000 ![] bcast_S_S500000),
    TRef.ternary main_call6.v8 main_call6.call2.v0 main_call6.call1.v1 main_call6.call2.v1 select ]

/-- @main's 148 operations, in order: the two windows one after the other. -/
abbrev ops : List (HloOp τ sig (Elt F)) :=
  [ nullary main_cst (constant S_ .f32 0x00000000#32),
    nullary main_cst_0 (constant S_ .f32 0x00000000#32),
    nullary main_cst_1 (constant S_ .f32 0x00000000#32),
    TRef.binary (TRef.of main_arg0 : TRef sig ⟨S100000x128, .f32⟩) (TRef.of main_arg0 : TRef sig ⟨S100000x128, .f32⟩) main_call0.v0 (cmpf .une),
    TRef.unary (TRef.of main_cst : TRef sig ⟨S_, .f32⟩) main_call0.v1 id,
    TRef.unary main_call0.v1 main_call0.call0.v0 (broadcastInDim S100000x128 ![] bcast_S_S100000x128),
    TRef.ternary main_call0.v0 main_call0.call0.v0 (TRef.of main_arg0 : TRef sig ⟨S100000x128, .f32⟩) main_call0.call0.v1 select,
    TRef.nullary main_call0.cst (constant S_ .f32 0x7F800000#32),
    TRef.unary main_call0.cst main_call0.v3 (broadcastInDim S100000x128 ![] bcast_S_S100000x128),
    TRef.binary main_call0.call0.v1 main_call0.v3 main_call0.v4 (cmpf .oeq),
    TRef.unary (TRef.of main_cst_1 : TRef sig ⟨S_, .f32⟩) main_call0.v5 id,
    TRef.unary main_call0.v5 main_call0.call1.v0 (broadcastInDim S100000x128 ![] bcast_S_S100000x128),
    TRef.ternary main_call0.v4 main_call0.call1.v0 main_call0.call0.v1 main_call0.call1.v1 select,
    TRef.nullary main_call0.cst_0 (constant S_ .f32 0xFF800000#32),
    TRef.unary main_call0.cst_0 main_call0.v7 (broadcastInDim S100000x128 ![] bcast_S_S100000x128),
    TRef.binary main_call0.call1.v1 main_call0.v7 main_call0.v8 (cmpf .oeq),
    TRef.unary (TRef.of main_cst_0 : TRef sig ⟨S_, .f32⟩) main_call0.v9 id,
    TRef.unary main_call0.v9 main_call0.call2.v0 (broadcastInDim S100000x128 ![] bcast_S_S100000x128),
    TRef.ternary main_call0.v8 main_call0.call2.v0 main_call0.call1.v1 main_call0.call2.v1 select,
    unary main_arg3 main_v1 (broadcastInDim S1x128 ![1] bcast_S128_S1x128_1 : (⟨S128, .f32⟩ : BufTy).Contents (Elt F) → (⟨S1x128, .f32⟩ : BufTy).Contents (Elt F)),
    unary main_v1 main_v2 (broadcastInDim S100000x128 ![0, 1] bcast_S1x128_S100000x128_0_1 : (⟨S1x128, .f32⟩ : BufTy).Contents (Elt F) → (⟨S100000x128, .f32⟩ : BufTy).Contents (Elt F)),
    binary main_v0 main_v2 main_v3 (subf : (⟨S100000x128, .f32⟩ : BufTy).Contents (Elt F) → (⟨S100000x128, .f32⟩ : BufTy).Contents (Elt F) → (⟨S100000x128, .f32⟩ : BufTy).Contents (Elt F)),
    unary main_arg4 main_v4 (broadcastInDim S1x128 ![1] bcast_S128_S1x128_1 : (⟨S128, .f32⟩ : BufTy).Contents (Elt F) → (⟨S1x128, .f32⟩ : BufTy).Contents (Elt F)),
    unary main_v4 main_v5 (broadcastInDim S100000x128 ![0, 1] bcast_S1x128_S100000x128_0_1 : (⟨S1x128, .f32⟩ : BufTy).Contents (Elt F) → (⟨S100000x128, .f32⟩ : BufTy).Contents (Elt F)),
    binary main_v3 main_v5 main_v6 (Host.divf : (⟨S100000x128, .f32⟩ : BufTy).Contents (Elt F) → (⟨S100000x128, .f32⟩ : BufTy).Contents (Elt F) → (⟨S100000x128, .f32⟩ : BufTy).Contents (Elt F)),
    nullary main_cst_2 (constant S_ .f32 0xC1200000#32),
    nullary main_cst_3 (constant S_ .f32 0x41200000#32),
    TRef.unary (TRef.of main_cst_2 : TRef sig ⟨S_, .f32⟩) main_call1.v0 id,
    TRef.unary main_call1.v0 main_call1.v1 (broadcastInDim S100000x128 ![] bcast_S_S100000x128),
    TRef.binary main_call1.v1 (TRef.of main_v6 : TRef sig ⟨S100000x128, .f32⟩) main_call1.v2 maximumf,
    TRef.unary (TRef.of main_cst_3 : TRef sig ⟨S_, .f32⟩) main_call1.v3 id,
    TRef.unary main_call1.v3 main_call1.v4 (broadcastInDim S100000x128 ![] bcast_S_S100000x128),
    TRef.binary main_call1.v4 main_call1.v2 main_call1.v5 minimumf,
    binary main_v7 main_arg6 main_v8 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    unary main_arg7 main_v9 (broadcastInDim S1x256 ![1] bcast_S256_S1x256_1 : (⟨S256, .f32⟩ : BufTy).Contents (Elt F) → (⟨S1x256, .f32⟩ : BufTy).Contents (Elt F)),
    unary main_v9 main_v10 (broadcastInDim S100000x256 ![0, 1] bcast_S1x256_S100000x256_0_1 : (⟨S1x256, .f32⟩ : BufTy).Contents (Elt F) → (⟨S100000x256, .f32⟩ : BufTy).Contents (Elt F)),
    binary main_v8 main_v10 main_v11 (addf : (⟨S100000x256, .f32⟩ : BufTy).Contents (Elt F) → (⟨S100000x256, .f32⟩ : BufTy).Contents (Elt F) → (⟨S100000x256, .f32⟩ : BufTy).Contents (Elt F)),
    unary main_arg10 main_v12 (broadcastInDim S1x256 ![1] bcast_S256_S1x256_1 : (⟨S256, .f32⟩ : BufTy).Contents (Elt F) → (⟨S1x256, .f32⟩ : BufTy).Contents (Elt F)),
    unary main_v12 main_v13 (broadcastInDim S100000x256 ![0, 1] bcast_S1x256_S100000x256_0_1 : (⟨S1x256, .f32⟩ : BufTy).Contents (Elt F) → (⟨S100000x256, .f32⟩ : BufTy).Contents (Elt F)),
    binary main_v11 main_v13 main_v14 (subf : (⟨S100000x256, .f32⟩ : BufTy).Contents (Elt F) → (⟨S100000x256, .f32⟩ : BufTy).Contents (Elt F) → (⟨S100000x256, .f32⟩ : BufTy).Contents (Elt F)),
    nullary main_cst_4 (constant S_ .f32 0x3727C5AC#32),
    unary main_cst_4 main_v15 (broadcastInDim S256 ![] bcast_S_S256 : (⟨S_, .f32⟩ : BufTy).Contents (Elt F) → (⟨S256, .f32⟩ : BufTy).Contents (Elt F)),
    binary main_arg11 main_v15 main_v16 (addf : (⟨S256, .f32⟩ : BufTy).Contents (Elt F) → (⟨S256, .f32⟩ : BufTy).Contents (Elt F) → (⟨S256, .f32⟩ : BufTy).Contents (Elt F)),
    unary main_v16 main_v17 (Host.rsqrt : (⟨S256, .f32⟩ : BufTy).Contents (Elt F) → (⟨S256, .f32⟩ : BufTy).Contents (Elt F)),
    unary main_v17 main_v18 (broadcastInDim S1x256 ![1] bcast_S256_S1x256_1 : (⟨S256, .f32⟩ : BufTy).Contents (Elt F) → (⟨S1x256, .f32⟩ : BufTy).Contents (Elt F)),
    unary main_v18 main_v19 (broadcastInDim S100000x256 ![0, 1] bcast_S1x256_S100000x256_0_1 : (⟨S1x256, .f32⟩ : BufTy).Contents (Elt F) → (⟨S100000x256, .f32⟩ : BufTy).Contents (Elt F)),
    binary main_v14 main_v19 main_v20 (mulf : (⟨S100000x256, .f32⟩ : BufTy).Contents (Elt F) → (⟨S100000x256, .f32⟩ : BufTy).Contents (Elt F) → (⟨S100000x256, .f32⟩ : BufTy).Contents (Elt F)),
    unary main_arg8 main_v21 (broadcastInDim S1x256 ![1] bcast_S256_S1x256_1 : (⟨S256, .f32⟩ : BufTy).Contents (Elt F) → (⟨S1x256, .f32⟩ : BufTy).Contents (Elt F)),
    unary main_v21 main_v22 (broadcastInDim S100000x256 ![0, 1] bcast_S1x256_S100000x256_0_1 : (⟨S1x256, .f32⟩ : BufTy).Contents (Elt F) → (⟨S100000x256, .f32⟩ : BufTy).Contents (Elt F)),
    binary main_v20 main_v22 main_v23 (mulf : (⟨S100000x256, .f32⟩ : BufTy).Contents (Elt F) → (⟨S100000x256, .f32⟩ : BufTy).Contents (Elt F) → (⟨S100000x256, .f32⟩ : BufTy).Contents (Elt F)),
    unary main_arg9 main_v24 (broadcastInDim S1x256 ![1] bcast_S256_S1x256_1 : (⟨S256, .f32⟩ : BufTy).Contents (Elt F) → (⟨S1x256, .f32⟩ : BufTy).Contents (Elt F)),
    unary main_v24 main_v25 (broadcastInDim S100000x256 ![0, 1] bcast_S1x256_S100000x256_0_1 : (⟨S1x256, .f32⟩ : BufTy).Contents (Elt F) → (⟨S100000x256, .f32⟩ : BufTy).Contents (Elt F)),
    binary main_v23 main_v25 main_v26 (addf : (⟨S100000x256, .f32⟩ : BufTy).Contents (Elt F) → (⟨S100000x256, .f32⟩ : BufTy).Contents (Elt F) → (⟨S100000x256, .f32⟩ : BufTy).Contents (Elt F)),
    TRef.nullary main_call2.cst (constant S_ .f32 0x00000000#32),
    TRef.unary main_call2.cst main_call2.v0 (broadcastInDim S100000x256 ![] bcast_S_S100000x256),
    TRef.binary (TRef.of main_v26 : TRef sig ⟨S100000x256, .f32⟩) main_call2.v0 main_call2.v1 maximumf,
    binary main_v27 main_arg12 main_v28 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg13 main_v29 (broadcastInDim S1x128 ![1] bcast_S128_S1x128_1 : (⟨S128, .f32⟩ : BufTy).Contents (Elt F) → (⟨S1x128, .f32⟩ : BufTy).Contents (Elt F)),
    unary main_v29 main_v30 (broadcastInDim S100000x128 ![0, 1] bcast_S1x128_S100000x128_0_1 : (⟨S1x128, .f32⟩ : BufTy).Contents (Elt F) → (⟨S100000x128, .f32⟩ : BufTy).Contents (Elt F)),
    binary main_v28 main_v30 main_v31 (addf : (⟨S100000x128, .f32⟩ : BufTy).Contents (Elt F) → (⟨S100000x128, .f32⟩ : BufTy).Contents (Elt F) → (⟨S100000x128, .f32⟩ : BufTy).Contents (Elt F)),
    TRef.nullary main_call3.cst (constant S_ .f32 0x00000000#32),
    TRef.unary main_call3.cst main_call3.v0 (broadcastInDim S100000x128 ![] bcast_S_S100000x128),
    TRef.binary (TRef.of main_v31 : TRef sig ⟨S100000x128, .f32⟩) main_call3.v0 main_call3.v1 maximumf,
    unary main_arg2 main_v33 ((extractStridedSlice S500000x1 ![0, 0] · slices_S500000x2_S500000x1_0_0) : (⟨S500000x2, .i32⟩ : BufTy).Contents (Elt F) → (⟨S500000x1, .i32⟩ : BufTy).Contents (Elt F)),
    reshape main_v33 main_v34 rfl shapeCasts_S500000x1_S500000,
    unary main_arg2 main_v35 ((extractStridedSlice S500000x1 ![0, 1] · slices_S500000x2_S500000x1_0_1) : (⟨S500000x2, .i32⟩ : BufTy).Contents (Elt F) → (⟨S500000x1, .i32⟩ : BufTy).Contents (Elt F)),
    reshape main_v35 main_v36 rfl shapeCasts_S500000x1_S500000,
    nullary main_c (constantI S_ 32 0#32),
    unary main_c main_v37 (broadcastInDim S500000 ![] bcast_S_S500000 : (⟨S_, .i32⟩ : BufTy).Contents (Elt F) → (⟨S500000, .i32⟩ : BufTy).Contents (Elt F)),
    binary main_v34 main_v37 main_v38 (cmpi .slt : (⟨S500000, .i32⟩ : BufTy).Contents (Elt F) → (⟨S500000, .i32⟩ : BufTy).Contents (Elt F) → (⟨S500000, .i1⟩ : BufTy).Contents (Elt F)),
    nullary main_c_5 (constantI S_ 32 100000#32),
    unary main_c_5 main_v39 (broadcastInDim S500000 ![] bcast_S_S500000 : (⟨S_, .i32⟩ : BufTy).Contents (Elt F) → (⟨S500000, .i32⟩ : BufTy).Contents (Elt F)),
    binary main_v34 main_v39 main_v40 (addi : (⟨S500000, .i32⟩ : BufTy).Contents (Elt F) → (⟨S500000, .i32⟩ : BufTy).Contents (Elt F) → (⟨S500000, .i32⟩ : BufTy).Contents (Elt F)),
    ternary main_v38 main_v40 main_v34 main_v41 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v41 main_v42 (broadcastInDim S500000x1 ![0] bcast_S500000_S500000x1_0 : (⟨S500000, .i32⟩ : BufTy).Contents (Elt F) → (⟨S500000x1, .i32⟩ : BufTy).Contents (Elt F)),
    binary main_v32 main_v42 main_v43 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    nullary main_c_6 (constantI S_ 32 0#32),
    unary main_c_6 main_v44 (broadcastInDim S500000 ![] bcast_S_S500000 : (⟨S_, .i32⟩ : BufTy).Contents (Elt F) → (⟨S500000, .i32⟩ : BufTy).Contents (Elt F)),
    binary main_v36 main_v44 main_v45 (cmpi .slt : (⟨S500000, .i32⟩ : BufTy).Contents (Elt F) → (⟨S500000, .i32⟩ : BufTy).Contents (Elt F) → (⟨S500000, .i1⟩ : BufTy).Contents (Elt F)),
    nullary main_c_7 (constantI S_ 32 100000#32),
    unary main_c_7 main_v46 (broadcastInDim S500000 ![] bcast_S_S500000 : (⟨S_, .i32⟩ : BufTy).Contents (Elt F) → (⟨S500000, .i32⟩ : BufTy).Contents (Elt F)),
    binary main_v36 main_v46 main_v47 (addi : (⟨S500000, .i32⟩ : BufTy).Contents (Elt F) → (⟨S500000, .i32⟩ : BufTy).Contents (Elt F) → (⟨S500000, .i32⟩ : BufTy).Contents (Elt F)),
    ternary main_v45 main_v47 main_v36 main_v48 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v48 main_v49 (broadcastInDim S500000x1 ![0] bcast_S500000_S500000x1_0 : (⟨S500000, .i32⟩ : BufTy).Contents (Elt F) → (⟨S500000x1, .i32⟩ : BufTy).Contents (Elt F)),
    binary main_v32 main_v49 main_v50 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    nullary main_c_8 (constantI S_ 32 0#32),
    unary main_c_8 main_v51 (broadcastInDim S500000 ![] bcast_S_S500000 : (⟨S_, .i32⟩ : BufTy).Contents (Elt F) → (⟨S500000, .i32⟩ : BufTy).Contents (Elt F)),
    binary main_v34 main_v51 main_v52 (cmpi .slt : (⟨S500000, .i32⟩ : BufTy).Contents (Elt F) → (⟨S500000, .i32⟩ : BufTy).Contents (Elt F) → (⟨S500000, .i1⟩ : BufTy).Contents (Elt F)),
    nullary main_c_9 (constantI S_ 32 100000#32),
    unary main_c_9 main_v53 (broadcastInDim S500000 ![] bcast_S_S500000 : (⟨S_, .i32⟩ : BufTy).Contents (Elt F) → (⟨S500000, .i32⟩ : BufTy).Contents (Elt F)),
    binary main_v34 main_v53 main_v54 (addi : (⟨S500000, .i32⟩ : BufTy).Contents (Elt F) → (⟨S500000, .i32⟩ : BufTy).Contents (Elt F) → (⟨S500000, .i32⟩ : BufTy).Contents (Elt F)),
    ternary main_v52 main_v54 main_v34 main_v55 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v55 main_v56 (broadcastInDim S500000x1 ![0] bcast_S500000_S500000x1_0 : (⟨S500000, .i32⟩ : BufTy).Contents (Elt F) → (⟨S500000x1, .i32⟩ : BufTy).Contents (Elt F)),
    binary main_arg5 main_v56 main_v57 ((fun x i => Host.gather gather_S100000_S500000x1_S500000_n_0_n_n_0_1_1 x i) : (⟨S100000, .f32⟩ : BufTy).Contents (Elt F) → (⟨S500000x1, .i32⟩ : BufTy).Contents (Elt F) → (⟨S500000, .f32⟩ : BufTy).Contents (Elt F)),
    nullary main_c_10 (constantI S_ 32 0#32),
    unary main_c_10 main_v58 (broadcastInDim S500000 ![] bcast_S_S500000 : (⟨S_, .i32⟩ : BufTy).Contents (Elt F) → (⟨S500000, .i32⟩ : BufTy).Contents (Elt F)),
    binary main_v36 main_v58 main_v59 (cmpi .slt : (⟨S500000, .i32⟩ : BufTy).Contents (Elt F) → (⟨S500000, .i32⟩ : BufTy).Contents (Elt F) → (⟨S500000, .i1⟩ : BufTy).Contents (Elt F)),
    nullary main_c_11 (constantI S_ 32 100000#32),
    unary main_c_11 main_v60 (broadcastInDim S500000 ![] bcast_S_S500000 : (⟨S_, .i32⟩ : BufTy).Contents (Elt F) → (⟨S500000, .i32⟩ : BufTy).Contents (Elt F)),
    binary main_v36 main_v60 main_v61 (addi : (⟨S500000, .i32⟩ : BufTy).Contents (Elt F) → (⟨S500000, .i32⟩ : BufTy).Contents (Elt F) → (⟨S500000, .i32⟩ : BufTy).Contents (Elt F)),
    ternary main_v59 main_v61 main_v36 main_v62 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v62 main_v63 (broadcastInDim S500000x1 ![0] bcast_S500000_S500000x1_0 : (⟨S500000, .i32⟩ : BufTy).Contents (Elt F) → (⟨S500000x1, .i32⟩ : BufTy).Contents (Elt F)),
    binary main_arg5 main_v63 main_v64 ((fun x i => Host.gather gather_S100000_S500000x1_S500000_n_0_n_n_0_1_1 x i) : (⟨S100000, .f32⟩ : BufTy).Contents (Elt F) → (⟨S500000x1, .i32⟩ : BufTy).Contents (Elt F) → (⟨S500000, .f32⟩ : BufTy).Contents (Elt F)),
    unary main_v57 main_v65 (broadcastInDim S500000x1 ![0] bcast_S500000_S500000x1_0 : (⟨S500000, .f32⟩ : BufTy).Contents (Elt F) → (⟨S500000x1, .f32⟩ : BufTy).Contents (Elt F)),
    unary main_v64 main_v66 (broadcastInDim S500000x1 ![0] bcast_S500000_S500000x1_0 : (⟨S500000, .f32⟩ : BufTy).Contents (Elt F) → (⟨S500000x1, .f32⟩ : BufTy).Contents (Elt F)),
    binary main_v65 main_v66 main_v67 ((fun a b => concatenate S500000x2 1 [⟨S500000x1, a⟩, ⟨S500000x1, b⟩] concatenates_S500000x1_S500000x1_S500000x2_d1) : (⟨S500000x1, .f32⟩ : BufTy).Contents (Elt F) → (⟨S500000x1, .f32⟩ : BufTy).Contents (Elt F) → (⟨S500000x2, .f32⟩ : BufTy).Contents (Elt F)),
    binary main_v43 main_v50 main_v68 (mulf : (⟨S500000x128, .f32⟩ : BufTy).Contents (Elt F) → (⟨S500000x128, .f32⟩ : BufTy).Contents (Elt F) → (⟨S500000x128, .f32⟩ : BufTy).Contents (Elt F)),
    binary main_v43 main_v50 main_v69 (subf : (⟨S500000x128, .f32⟩ : BufTy).Contents (Elt F) → (⟨S500000x128, .f32⟩ : BufTy).Contents (Elt F) → (⟨S500000x128, .f32⟩ : BufTy).Contents (Elt F)),
    unary main_v69 main_v70 (Host.absf : (⟨S500000x128, .f32⟩ : BufTy).Contents (Elt F) → (⟨S500000x128, .f32⟩ : BufTy).Contents (Elt F)),
    nary ![main_v43, main_v50, main_v68, main_v70, main_v67] main_v71 (fun u => concatenate S500000x514 1 [⟨S500000x128, u 0⟩, ⟨S500000x128, u 1⟩, ⟨S500000x128, u 2⟩, ⟨S500000x128, u 3⟩, ⟨S500000x2, u 4⟩] concatenates_S500000x128_S500000x128_S500000x128_S500000x128_S500000x2_S500000x514_d1),
    binary main_v71 main_arg14 main_v72 ((fun l r => Host.dotGeneral dot_S500000x514_S514x256_S500000x256_1_0_0_1_n_n none l r) : (⟨S500000x514, .f32⟩ : BufTy).Contents (Elt F) → (⟨S514x256, .f32⟩ : BufTy).Contents (Elt F) → (⟨S500000x256, .f32⟩ : BufTy).Contents (Elt F)),
    unary main_arg15 main_v73 (broadcastInDim S1x256 ![1] bcast_S256_S1x256_1 : (⟨S256, .f32⟩ : BufTy).Contents (Elt F) → (⟨S1x256, .f32⟩ : BufTy).Contents (Elt F)),
    unary main_v73 main_v74 (broadcastInDim S500000x256 ![0, 1] bcast_S1x256_S500000x256_0_1 : (⟨S1x256, .f32⟩ : BufTy).Contents (Elt F) → (⟨S500000x256, .f32⟩ : BufTy).Contents (Elt F)),
    binary main_v72 main_v74 main_v75 (addf : (⟨S500000x256, .f32⟩ : BufTy).Contents (Elt F) → (⟨S500000x256, .f32⟩ : BufTy).Contents (Elt F) → (⟨S500000x256, .f32⟩ : BufTy).Contents (Elt F)),
    TRef.nullary main_call4.cst (constant S_ .f32 0x00000000#32),
    TRef.unary main_call4.cst main_call4.v0 (broadcastInDim S500000x256 ![] bcast_S_S500000x256),
    TRef.binary (TRef.of main_v75 : TRef sig ⟨S500000x256, .f32⟩) main_call4.v0 main_call4.v1 maximumf,
    binary main_v76 main_arg16 main_v77 ((fun l r => Host.dotGeneral dot_S500000x256_S256x128_S500000x128_1_0_0_1_n_n none l r) : (⟨S500000x256, .f32⟩ : BufTy).Contents (Elt F) → (⟨S256x128, .f32⟩ : BufTy).Contents (Elt F) → (⟨S500000x128, .f32⟩ : BufTy).Contents (Elt F)),
    unary main_arg17 main_v78 (broadcastInDim S1x128 ![1] bcast_S128_S1x128_1 : (⟨S128, .f32⟩ : BufTy).Contents (Elt F) → (⟨S1x128, .f32⟩ : BufTy).Contents (Elt F)),
    unary main_v78 main_v79 (broadcastInDim S500000x128 ![0, 1] bcast_S1x128_S500000x128_0_1 : (⟨S1x128, .f32⟩ : BufTy).Contents (Elt F) → (⟨S500000x128, .f32⟩ : BufTy).Contents (Elt F)),
    binary main_v77 main_v79 main_v80 (addf : (⟨S500000x128, .f32⟩ : BufTy).Contents (Elt F) → (⟨S500000x128, .f32⟩ : BufTy).Contents (Elt F) → (⟨S500000x128, .f32⟩ : BufTy).Contents (Elt F)),
    TRef.nullary main_call5.cst (constant S_ .f32 0x00000000#32),
    TRef.unary main_call5.cst main_call5.v0 (broadcastInDim S500000x128 ![] bcast_S_S500000x128),
    TRef.binary (TRef.of main_v80 : TRef sig ⟨S500000x128, .f32⟩) main_call5.v0 main_call5.v1 maximumf,
    binary main_v81 main_arg18 main_v82 ((fun l r => Host.dotGeneral dot_S500000x128_S128x1_S500000x1_1_0_0_1_n_n none l r) : (⟨S500000x128, .f32⟩ : BufTy).Contents (Elt F) → (⟨S128x1, .f32⟩ : BufTy).Contents (Elt F) → (⟨S500000x1, .f32⟩ : BufTy).Contents (Elt F)),
    unary main_arg19 main_v83 (broadcastInDim S1x1 ![1] bcast_S1_S1x1_1 : (⟨S1, .f32⟩ : BufTy).Contents (Elt F) → (⟨S1x1, .f32⟩ : BufTy).Contents (Elt F)),
    unary main_v83 main_v84 (broadcastInDim S500000x1 ![0, 1] bcast_S1x1_S500000x1_0_1 : (⟨S1x1, .f32⟩ : BufTy).Contents (Elt F) → (⟨S500000x1, .f32⟩ : BufTy).Contents (Elt F)),
    binary main_v82 main_v84 main_v85 (addf : (⟨S500000x1, .f32⟩ : BufTy).Contents (Elt F) → (⟨S500000x1, .f32⟩ : BufTy).Contents (Elt F) → (⟨S500000x1, .f32⟩ : BufTy).Contents (Elt F)),
    reshape main_v85 main_v86 rfl shapeCasts_S500000x1_S500000,
    nullary main_cst_12 (constant S_ .f32 0x00000000#32),
    nullary main_cst_13 (constant S_ .f32 0xC1A00000#32),
    nullary main_cst_14 (constant S_ .f32 0x41A00000#32),
    TRef.binary (TRef.of main_v86 : TRef sig ⟨S500000, .f32⟩) (TRef.of main_v86 : TRef sig ⟨S500000, .f32⟩) main_call6.v0 (cmpf .une),
    TRef.unary (TRef.of main_cst_12 : TRef sig ⟨S_, .f32⟩) main_call6.v1 id,
    TRef.unary main_call6.v1 main_call6.call0.v0 (broadcastInDim S500000 ![] bcast_S_S500000),
    TRef.ternary main_call6.v0 main_call6.call0.v0 (TRef.of main_v86 : TRef sig ⟨S500000, .f32⟩) main_call6.call0.v1 select,
    TRef.nullary main_call6.cst (constant S_ .f32 0x7F800000#32),
    TRef.unary main_call6.cst main_call6.v3 (broadcastInDim S500000 ![] bcast_S_S500000),
    TRef.binary main_call6.call0.v1 main_call6.v3 main_call6.v4 (cmpf .oeq),
    TRef.unary (TRef.of main_cst_14 : TRef sig ⟨S_, .f32⟩) main_call6.v5 id,
    TRef.unary main_call6.v5 main_call6.call1.v0 (broadcastInDim S500000 ![] bcast_S_S500000),
    TRef.ternary main_call6.v4 main_call6.call1.v0 main_call6.call0.v1 main_call6.call1.v1 select,
    TRef.nullary main_call6.cst_0 (constant S_ .f32 0xFF800000#32),
    TRef.unary main_call6.cst_0 main_call6.v7 (broadcastInDim S500000 ![] bcast_S_S500000),
    TRef.binary main_call6.call1.v1 main_call6.v7 main_call6.v8 (cmpf .oeq),
    TRef.unary (TRef.of main_cst_13 : TRef sig ⟨S_, .f32⟩) main_call6.v9 id,
    TRef.unary main_call6.v9 main_call6.call2.v0 (broadcastInDim S500000 ![] bcast_S_S500000),
    TRef.ternary main_call6.v8 main_call6.call2.v0 main_call6.call1.v1 main_call6.call2.v1 select ]

theorem ops_eq : (ops : List (HloOp τ sig (Elt F))) = ops0 ++ ops1 := rfl

/-- The same line cut by what it computes. First stretch, 63 operations: the node embeddings (through the second
    rectifier's result). -/
abbrev opsEnc : List (HloOp τ sig (Elt F)) :=
  [ nullary main_cst (constant S_ .f32 0x00000000#32),
    nullary main_cst_0 (constant S_ .f32 0x00000000#32),
    nullary main_cst_1 (constant S_ .f32 0x00000000#32),
    TRef.binary (TRef.of main_arg0 : TRef sig ⟨S100000x128, .f32⟩) (TRef.of main_arg0 : TRef sig ⟨S100000x128, .f32⟩) main_call0.v0 (cmpf .une),
    TRef.unary (TRef.of main_cst : TRef sig ⟨S_, .f32⟩) main_call0.v1 id,
    TRef.unary main_call0.v1 main_call0.call0.v0 (broadcastInDim S100000x128 ![] bcast_S_S100000x128),
    TRef.ternary main_call0.v0 main_call0.call0.v0 (TRef.of main_arg0 : TRef sig ⟨S100000x128, .f32⟩) main_call0.call0.v1 select,
    TRef.nullary main_call0.cst (constant S_ .f32 0x7F800000#32),
    TRef.unary main_call0.cst main_call0.v3 (broadcastInDim S100000x128 ![] bcast_S_S100000x128),
    TRef.binary main_call0.call0.v1 main_call0.v3 main_call0.v4 (cmpf .oeq),
    TRef.unary (TRef.of main_cst_1 : TRef sig ⟨S_, .f32⟩) main_call0.v5 id,
    TRef.unary main_call0.v5 main_call0.call1.v0 (broadcastInDim S100000x128 ![] bcast_S_S100000x128),
    TRef.ternary main_call0.v4 main_call0.call1.v0 main_call0.call0.v1 main_call0.call1.v1 select,
    TRef.nullary main_call0.cst_0 (constant S_ .f32 0xFF800000#32),
    TRef.unary main_call0.cst_0 main_call0.v7 (broadcastInDim S100000x128 ![] bcast_S_S100000x128),
    TRef.binary main_call0.call1.v1 main_call0.v7 main_call0.v8 (cmpf .oeq),
    TRef.unary (TRef.of main_cst_0 : TRef sig ⟨S_, .f32⟩) main_call0.v9 id,
    TRef.unary main_call0.v9 main_call0.call2.v0 (broadcastInDim S100000x128 ![] bcast_S_S100000x128),
    TRef.ternary main_call0.v8 main_call0.call2.v0 main_call0.call1.v1 main_call0.call2.v1 select,
    unary main_arg3 main_v1 (broadcastInDim S1x128 ![1] bcast_S128_S1x128_1 : (⟨S128, .f32⟩ : BufTy).Contents (Elt F) → (⟨S1x128, .f32⟩ : BufTy).Contents (Elt F)),
    unary main_v1 main_v2 (broadcastInDim S100000x128 ![0, 1] bcast_S1x128_S100000x128_0_1 : (⟨S1x128, .f32⟩ : BufTy).Contents (Elt F) → (⟨S100000x128, .f32⟩ : BufTy).Contents (Elt F)),
    binary main_v0 main_v2 main_v3 (subf : (⟨S100000x128, .f32⟩ : BufTy).Contents (Elt F) → (⟨S100000x128, .f32⟩ : BufTy).Contents (Elt F) → (⟨S100000x128, .f32⟩ : BufTy).Contents (Elt F)),
    unary main_arg4 main_v4 (broadcastInDim S1x128 ![1] bcast_S128_S1x128_1 : (⟨S128, .f32⟩ : BufTy).Contents (Elt F) → (⟨S1x128, .f32⟩ : BufTy).Contents (Elt F)),
    unary main_v4 main_v5 (broadcastInDim S100000x128 ![0, 1] bcast_S1x128_S100000x128_0_1 : (⟨S1x128, .f32⟩ : BufTy).Contents (Elt F) → (⟨S100000x128, .f32⟩ : BufTy).Contents (Elt F)),
    binary main_v3 main_v5 main_v6 (Host.divf : (⟨S100000x128, .f32⟩ : BufTy).Contents (Elt F) → (⟨S100000x128, .f32⟩ : BufTy).Contents (Elt F) → (⟨S100000x128, .f32⟩ : BufTy).Contents (Elt F)),
    nullary main_cst_2 (constant S_ .f32 0xC1200000#32),
    nullary main_cst_3 (constant S_ .f32 0x41200000#32),
    TRef.unary (TRef.of main_cst_2 : TRef sig ⟨S_, .f32⟩) main_call1.v0 id,
    TRef.unary main_call1.v0 main_call1.v1 (broadcastInDim S100000x128 ![] bcast_S_S100000x128),
    TRef.binary main_call1.v1 (TRef.of main_v6 : TRef sig ⟨S100000x128, .f32⟩) main_call1.v2 maximumf,
    TRef.unary (TRef.of main_cst_3 : TRef sig ⟨S_, .f32⟩) main_call1.v3 id,
    TRef.unary main_call1.v3 main_call1.v4 (broadcastInDim S100000x128 ![] bcast_S_S100000x128),
    TRef.binary main_call1.v4 main_call1.v2 main_call1.v5 minimumf,
    binary main_v7 main_arg6 main_v8 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    unary main_arg7 main_v9 (broadcastInDim S1x256 ![1] bcast_S256_S1x256_1 : (⟨S256, .f32⟩ : BufTy).Contents (Elt F) → (⟨S1x256, .f32⟩ : BufTy).Contents (Elt F)),
    unary main_v9 main_v10 (broadcastInDim S100000x256 ![0, 1] bcast_S1x256_S100000x256_0_1 : (⟨S1x256, .f32⟩ : BufTy).Contents (Elt F) → (⟨S100000x256, .f32⟩ : BufTy).Contents (Elt F)),
    binary main_v8 main_v10 main_v11 (addf : (⟨S100000x256, .f32⟩ : BufTy).Contents (Elt F) → (⟨S100000x256, .f32⟩ : BufTy).Contents (Elt F) → (⟨S100000x256, .f32⟩ : BufTy).Contents (Elt F)),
    unary main_arg10 main_v12 (broadcastInDim S1x256 ![1] bcast_S256_S1x256_1 : (⟨S256, .f32⟩ : BufTy).Contents (Elt F) → (⟨S1x256, .f32⟩ : BufTy).Contents (Elt F)),
    unary main_v12 main_v13 (broadcastInDim S100000x256 ![0, 1] bcast_S1x256_S100000x256_0_1 : (⟨S1x256, .f32⟩ : BufTy).Contents (Elt F) → (⟨S100000x256, .f32⟩ : BufTy).Contents (Elt F)),
    binary main_v11 main_v13 main_v14 (subf : (⟨S100000x256, .f32⟩ : BufTy).Contents (Elt F) → (⟨S100000x256, .f32⟩ : BufTy).Contents (Elt F) → (⟨S100000x256, .f32⟩ : BufTy).Contents (Elt F)),
    nullary main_cst_4 (constant S_ .f32 0x3727C5AC#32),
    unary main_cst_4 main_v15 (broadcastInDim S256 ![] bcast_S_S256 : (⟨S_, .f32⟩ : BufTy).Contents (Elt F) → (⟨S256, .f32⟩ : BufTy).Contents (Elt F)),
    binary main_arg11 main_v15 main_v16 (addf : (⟨S256, .f32⟩ : BufTy).Contents (Elt F) → (⟨S256, .f32⟩ : BufTy).Contents (Elt F) → (⟨S256, .f32⟩ : BufTy).Contents (Elt F)),
    unary main_v16 main_v17 (Host.rsqrt : (⟨S256, .f32⟩ : BufTy).Contents (Elt F) → (⟨S256, .f32⟩ : BufTy).Contents (Elt F)),
    unary main_v17 main_v18 (broadcastInDim S1x256 ![1] bcast_S256_S1x256_1 : (⟨S256, .f32⟩ : BufTy).Contents (Elt F) → (⟨S1x256, .f32⟩ : BufTy).Contents (Elt F)),
    unary main_v18 main_v19 (broadcastInDim S100000x256 ![0, 1] bcast_S1x256_S100000x256_0_1 : (⟨S1x256, .f32⟩ : BufTy).Contents (Elt F) → (⟨S100000x256, .f32⟩ : BufTy).Contents (Elt F)),
    binary main_v14 main_v19 main_v20 (mulf : (⟨S100000x256, .f32⟩ : BufTy).Contents (Elt F) → (⟨S100000x256, .f32⟩ : BufTy).Contents (Elt F) → (⟨S100000x256, .f32⟩ : BufTy).Contents (Elt F)),
    unary main_arg8 main_v21 (broadcastInDim S1x256 ![1] bcast_S256_S1x256_1 : (⟨S256, .f32⟩ : BufTy).Contents (Elt F) → (⟨S1x256, .f32⟩ : BufTy).Contents (Elt F)),
    unary main_v21 main_v22 (broadcastInDim S100000x256 ![0, 1] bcast_S1x256_S100000x256_0_1 : (⟨S1x256, .f32⟩ : BufTy).Contents (Elt F) → (⟨S100000x256, .f32⟩ : BufTy).Contents (Elt F)),
    binary main_v20 main_v22 main_v23 (mulf : (⟨S100000x256, .f32⟩ : BufTy).Contents (Elt F) → (⟨S100000x256, .f32⟩ : BufTy).Contents (Elt F) → (⟨S100000x256, .f32⟩ : BufTy).Contents (Elt F)),
    unary main_arg9 main_v24 (broadcastInDim S1x256 ![1] bcast_S256_S1x256_1 : (⟨S256, .f32⟩ : BufTy).Contents (Elt F) → (⟨S1x256, .f32⟩ : BufTy).Contents (Elt F)),
    unary main_v24 main_v25 (broadcastInDim S100000x256 ![0, 1] bcast_S1x256_S100000x256_0_1 : (⟨S1x256, .f32⟩ : BufTy).Contents (Elt F) → (⟨S100000x256, .f32⟩ : BufTy).Contents (Elt F)),
    binary main_v23 main_v25 main_v26 (addf : (⟨S100000x256, .f32⟩ : BufTy).Contents (Elt F) → (⟨S100000x256, .f32⟩ : BufTy).Contents (Elt F) → (⟨S100000x256, .f32⟩ : BufTy).Contents (Elt F)),
    TRef.nullary main_call2.cst (constant S_ .f32 0x00000000#32),
    TRef.unary main_call2.cst main_call2.v0 (broadcastInDim S100000x256 ![] bcast_S_S100000x256),
    TRef.binary (TRef.of main_v26 : TRef sig ⟨S100000x256, .f32⟩) main_call2.v0 main_call2.v1 maximumf,
    binary main_v27 main_arg12 main_v28 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg13 main_v29 (broadcastInDim S1x128 ![1] bcast_S128_S1x128_1 : (⟨S128, .f32⟩ : BufTy).Contents (Elt F) → (⟨S1x128, .f32⟩ : BufTy).Contents (Elt F)),
    unary main_v29 main_v30 (broadcastInDim S100000x128 ![0, 1] bcast_S1x128_S100000x128_0_1 : (⟨S1x128, .f32⟩ : BufTy).Contents (Elt F) → (⟨S100000x128, .f32⟩ : BufTy).Contents (Elt F)),
    binary main_v28 main_v30 main_v31 (addf : (⟨S100000x128, .f32⟩ : BufTy).Contents (Elt F) → (⟨S100000x128, .f32⟩ : BufTy).Contents (Elt F) → (⟨S100000x128, .f32⟩ : BufTy).Contents (Elt F)),
    TRef.nullary main_call3.cst (constant S_ .f32 0x00000000#32),
    TRef.unary main_call3.cst main_call3.v0 (broadcastInDim S100000x128 ![] bcast_S_S100000x128),
    TRef.binary (TRef.of main_v31 : TRef sig ⟨S100000x128, .f32⟩) main_call3.v0 main_call3.v1 maximumf ]

/-- Second stretch, 43 operations: the two wrapped index columns (each computed twice, once per gather), the two
    gathers of embedding rows, the two gathers of log-degrees and the degree pair. -/
abbrev opsGat : List (HloOp τ sig (Elt F)) :=
  [ unary main_arg2 main_v33 ((extractStridedSlice S500000x1 ![0, 0] · slices_S500000x2_S500000x1_0_0) : (⟨S500000x2, .i32⟩ : BufTy).Contents (Elt F) → (⟨S500000x1, .i32⟩ : BufTy).Contents (Elt F)),
    reshape main_v33 main_v34 rfl shapeCasts_S500000x1_S500000,
    unary main_arg2 main_v35 ((extractStridedSlice S500000x1 ![0, 1] · slices_S500000x2_S500000x1_0_1) : (⟨S500000x2, .i32⟩ : BufTy).Contents (Elt F) → (⟨S500000x1, .i32⟩ : BufTy).Contents (Elt F)),
    reshape main_v35 main_v36 rfl shapeCasts_S500000x1_S500000,
    nullary main_c (constantI S_ 32 0#32),
    unary main_c main_v37 (broadcastInDim S500000 ![] bcast_S_S500000 : (⟨S_, .i32⟩ : BufTy).Contents (Elt F) → (⟨S500000, .i32⟩ : BufTy).Contents (Elt F)),
    binary main_v34 main_v37 main_v38 (cmpi .slt : (⟨S500000, .i32⟩ : BufTy).Contents (Elt F) → (⟨S500000, .i32⟩ : BufTy).Contents (Elt F) → (⟨S500000, .i1⟩ : BufTy).Contents (Elt F)),
    nullary main_c_5 (constantI S_ 32 100000#32),
    unary main_c_5 main_v39 (broadcastInDim S500000 ![] bcast_S_S500000 : (⟨S_, .i32⟩ : BufTy).Contents (Elt F) → (⟨S500000, .i32⟩ : BufTy).Contents (Elt F)),
    binary main_v34 main_v39 main_v40 (addi : (⟨S500000, .i32⟩ : BufTy).Contents (Elt F) → (⟨S500000, .i32⟩ : BufTy).Contents (Elt F) → (⟨S500000, .i32⟩ : BufTy).Contents (Elt F)),
    ternary main_v38 main_v40 main_v34 main_v41 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v41 main_v42 (broadcastInDim S500000x1 ![0] bcast_S500000_S500000x1_0 : (⟨S500000, .i32⟩ : BufTy).Contents (Elt F) → (⟨S500000x1, .i32⟩ : BufTy).Contents (Elt F)),
    binary main_v32 main_v42 main_v43 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    nullary main_c_6 (constantI S_ 32 0#32),
    unary main_c_6 main_v44 (broadcastInDim S500000 ![] bcast_S_S500000 : (⟨S_, .i32⟩ : BufTy).Contents (Elt F) → (⟨S500000, .i32⟩ : BufTy).Contents (Elt F)),
    binary main_v36 main_v44 main_v45 (cmpi .slt : (⟨S500000, .i32⟩ : BufTy).Contents (Elt F) → (⟨S500000, .i32⟩ : BufTy).Contents (Elt F) → (⟨S500000, .i1⟩ : BufTy).Contents (Elt F)),
    nullary main_c_7 (constantI S_ 32 100000#32),
    unary main_c_7 main_v46 (broadcastInDim S500000 ![] bcast_S_S500000 : (⟨S_, .i32⟩ : BufTy).Contents (Elt F) → (⟨S500000, .i32⟩ : BufTy).Contents (Elt F)),
    binary main_v36 main_v46 main_v47 (addi : (⟨S500000, .i32⟩ : BufTy).Contents (Elt F) → (⟨S500000, .i32⟩ : BufTy).Contents (Elt F) → (⟨S500000, .i32⟩ : BufTy).Contents (Elt F)),
    ternary main_v45 main_v47 main_v36 main_v48 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v48 main_v49 (broadcastInDim S500000x1 ![0] bcast_S500000_S500000x1_0 : (⟨S500000, .i32⟩ : BufTy).Contents (Elt F) → (⟨S500000x1, .i32⟩ : BufTy).Contents (Elt F)),
    binary main_v32 main_v49 main_v50 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    nullary main_c_8 (constantI S_ 32 0#32),
    unary main_c_8 main_v51 (broadcastInDim S500000 ![] bcast_S_S500000 : (⟨S_, .i32⟩ : BufTy).Contents (Elt F) → (⟨S500000, .i32⟩ : BufTy).Contents (Elt F)),
    binary main_v34 main_v51 main_v52 (cmpi .slt : (⟨S500000, .i32⟩ : BufTy).Contents (Elt F) → (⟨S500000, .i32⟩ : BufTy).Contents (Elt F) → (⟨S500000, .i1⟩ : BufTy).Contents (Elt F)),
    nullary main_c_9 (constantI S_ 32 100000#32),
    unary main_c_9 main_v53 (broadcastInDim S500000 ![] bcast_S_S500000 : (⟨S_, .i32⟩ : BufTy).Contents (Elt F) → (⟨S500000, .i32⟩ : BufTy).Contents (Elt F)),
    binary main_v34 main_v53 main_v54 (addi : (⟨S500000, .i32⟩ : BufTy).Contents (Elt F) → (⟨S500000, .i32⟩ : BufTy).Contents (Elt F) → (⟨S500000, .i32⟩ : BufTy).Contents (Elt F)),
    ternary main_v52 main_v54 main_v34 main_v55 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v55 main_v56 (broadcastInDim S500000x1 ![0] bcast_S500000_S500000x1_0 : (⟨S500000, .i32⟩ : BufTy).Contents (Elt F) → (⟨S500000x1, .i32⟩ : BufTy).Contents (Elt F)),
    binary main_arg5 main_v56 main_v57 ((fun x i => Host.gather gather_S100000_S500000x1_S500000_n_0_n_n_0_1_1 x i) : (⟨S100000, .f32⟩ : BufTy).Contents (Elt F) → (⟨S500000x1, .i32⟩ : BufTy).Contents (Elt F) → (⟨S500000, .f32⟩ : BufTy).Contents (Elt F)),
    nullary main_c_10 (constantI S_ 32 0#32),
    unary main_c_10 main_v58 (broadcastInDim S500000 ![] bcast_S_S500000 : (⟨S_, .i32⟩ : BufTy).Contents (Elt F) → (⟨S500000, .i32⟩ : BufTy).Contents (Elt F)),
    binary main_v36 main_v58 main_v59 (cmpi .slt : (⟨S500000, .i32⟩ : BufTy).Contents (Elt F) → (⟨S500000, .i32⟩ : BufTy).Contents (Elt F) → (⟨S500000, .i1⟩ : BufTy).Contents (Elt F)),
    nullary main_c_11 (constantI S_ 32 100000#32),
    unary main_c_11 main_v60 (broadcastInDim S500000 ![] bcast_S_S500000 : (⟨S_, .i32⟩ : BufTy).Contents (Elt F) → (⟨S500000, .i32⟩ : BufTy).Contents (Elt F)),
    binary main_v36 main_v60 main_v61 (addi : (⟨S500000, .i32⟩ : BufTy).Contents (Elt F) → (⟨S500000, .i32⟩ : BufTy).Contents (Elt F) → (⟨S500000, .i32⟩ : BufTy).Contents (Elt F)),
    ternary main_v59 main_v61 main_v36 main_v62 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v62 main_v63 (broadcastInDim S500000x1 ![0] bcast_S500000_S500000x1_0 : (⟨S500000, .i32⟩ : BufTy).Contents (Elt F) → (⟨S500000x1, .i32⟩ : BufTy).Contents (Elt F)),
    binary main_arg5 main_v63 main_v64 ((fun x i => Host.gather gather_S100000_S500000x1_S500000_n_0_n_n_0_1_1 x i) : (⟨S100000, .f32⟩ : BufTy).Contents (Elt F) → (⟨S500000x1, .i32⟩ : BufTy).Contents (Elt F) → (⟨S500000, .f32⟩ : BufTy).Contents (Elt F)),
    unary main_v57 main_v65 (broadcastInDim S500000x1 ![0] bcast_S500000_S500000x1_0 : (⟨S500000, .f32⟩ : BufTy).Contents (Elt F) → (⟨S500000x1, .f32⟩ : BufTy).Contents (Elt F)),
    unary main_v64 main_v66 (broadcastInDim S500000x1 ![0] bcast_S500000_S500000x1_0 : (⟨S500000, .f32⟩ : BufTy).Contents (Elt F) → (⟨S500000x1, .f32⟩ : BufTy).Contents (Elt F)),
    binary main_v65 main_v66 main_v67 ((fun a b => concatenate S500000x2 1 [⟨S500000x1, a⟩, ⟨S500000x1, b⟩] concatenates_S500000x1_S500000x1_S500000x2_d1) : (⟨S500000x1, .f32⟩ : BufTy).Contents (Elt F) → (⟨S500000x1, .f32⟩ : BufTy).Contents (Elt F) → (⟨S500000x2, .f32⟩ : BufTy).Contents (Elt F)) ]

/-- Third stretch, 42 operations: the pair row, the scorer's three layers, the reshape and the last cleaning. -/
abbrev opsSco : List (HloOp τ sig (Elt F)) :=
  [ binary main_v43 main_v50 main_v68 (mulf : (⟨S500000x128, .f32⟩ : BufTy).Contents (Elt F) → (⟨S500000x128, .f32⟩ : BufTy).Contents (Elt F) → (⟨S500000x128, .f32⟩ : BufTy).Contents (Elt F)),
    binary main_v43 main_v50 main_v69 (subf : (⟨S500000x128, .f32⟩ : BufTy).Contents (Elt F) → (⟨S500000x128, .f32⟩ : BufTy).Contents (Elt F) → (⟨S500000x128, .f32⟩ : BufTy).Contents (Elt F)),
    unary main_v69 main_v70 (Host.absf : (⟨S500000x128, .f32⟩ : BufTy).Contents (Elt F) → (⟨S500000x128, .f32⟩ : BufTy).Contents (Elt F)),
    nary ![main_v43, main_v50, main_v68, main_v70, main_v67] main_v71 (fun u => concatenate S500000x514 1 [⟨S500000x128, u 0⟩, ⟨S500000x128, u 1⟩, ⟨S500000x128, u 2⟩, ⟨S500000x128, u 3⟩, ⟨S500000x2, u 4⟩] concatenates_S500000x128_S500000x128_S500000x128_S500000x128_S500000x2_S500000x514_d1),
    binary main_v71 main_arg14 main_v72 ((fun l r => Host.dotGeneral dot_S500000x514_S514x256_S500000x256_1_0_0_1_n_n none l r) : (⟨S500000x514, .f32⟩ : BufTy).Contents (Elt F) → (⟨S514x256, .f32⟩ : BufTy).Contents (Elt F) → (⟨S500000x256, .f32⟩ : BufTy).Contents (Elt F)),
    unary main_arg15 main_v73 (broadcastInDim S1x256 ![1] bcast_S256_S1x256_1 : (⟨S256, .f32⟩ : BufTy).Contents (Elt F) → (⟨S1x256, .f32⟩ : BufTy).Contents (Elt F)),
    unary main_v73 main_v74 (broadcastInDim S500000x256 ![0, 1] bcast_S1x256_S500000x256_0_1 : (⟨S1x256, .f32⟩ : BufTy).Contents (Elt F) → (⟨S500000x256, .f32⟩ : BufTy).Contents (Elt F)),
    binary main_v72 main_v74 main_v75 (addf : (⟨S500000x256, .f32⟩ : BufTy).Contents (Elt F) → (⟨S500000x256, .f32⟩ : BufTy).Contents (Elt F) → (⟨S500000x256, .f32⟩ : BufTy).Contents (Elt F)),
    TRef.nullary main_call4.cst (constant S_ .f32 0x00000000#32),
    TRef.unary main_call4.cst main_call4.v0 (broadcastInDim S500000x256 ![] bcast_S_S500000x256),
    TRef.binary (TRef.of main_v75 : TRef sig ⟨S500000x256, .f32⟩) main_call4.v0 main_call4.v1 maximumf,
    binary main_v76 main_arg16 main_v77 ((fun l r => Host.dotGeneral dot_S500000x256_S256x128_S500000x128_1_0_0_1_n_n none l r) : (⟨S500000x256, .f32⟩ : BufTy).Contents (Elt F) → (⟨S256x128, .f32⟩ : BufTy).Contents (Elt F) → (⟨S500000x128, .f32⟩ : BufTy).Contents (Elt F)),
    unary main_arg17 main_v78 (broadcastInDim S1x128 ![1] bcast_S128_S1x128_1 : (⟨S128, .f32⟩ : BufTy).Contents (Elt F) → (⟨S1x128, .f32⟩ : BufTy).Contents (Elt F)),
    unary main_v78 main_v79 (broadcastInDim S500000x128 ![0, 1] bcast_S1x128_S500000x128_0_1 : (⟨S1x128, .f32⟩ : BufTy).Contents (Elt F) → (⟨S500000x128, .f32⟩ : BufTy).Contents (Elt F)),
    binary main_v77 main_v79 main_v80 (addf : (⟨S500000x128, .f32⟩ : BufTy).Contents (Elt F) → (⟨S500000x128, .f32⟩ : BufTy).Contents (Elt F) → (⟨S500000x128, .f32⟩ : BufTy).Contents (Elt F)),
    TRef.nullary main_call5.cst (constant S_ .f32 0x00000000#32),
    TRef.unary main_call5.cst main_call5.v0 (broadcastInDim S500000x128 ![] bcast_S_S500000x128),
    TRef.binary (TRef.of main_v80 : TRef sig ⟨S500000x128, .f32⟩) main_call5.v0 main_call5.v1 maximumf,
    binary main_v81 main_arg18 main_v82 ((fun l r => Host.dotGeneral dot_S500000x128_S128x1_S500000x1_1_0_0_1_n_n none l r) : (⟨S500000x128, .f32⟩ : BufTy).Contents (Elt F) → (⟨S128x1, .f32⟩ : BufTy).Contents (Elt F) → (⟨S500000x1, .f32⟩ : BufTy).Contents (Elt F)),
    unary main_arg19 main_v83 (broadcastInDim S1x1 ![1] bcast_S1_S1x1_1 : (⟨S1, .f32⟩ : BufTy).Contents (Elt F) → (⟨S1x1, .f32⟩ : BufTy).Contents (Elt F)),
    unary main_v83 main_v84 (broadcastInDim S500000x1 ![0, 1] bcast_S1x1_S500000x1_0_1 : (⟨S1x1, .f32⟩ : BufTy).Contents (Elt F) → (⟨S500000x1, .f32⟩ : BufTy).Contents (Elt F)),
    binary main_v82 main_v84 main_v85 (addf : (⟨S500000x1, .f32⟩ : BufTy).Contents (Elt F) → (⟨S500000x1, .f32⟩ : BufTy).Contents (Elt F) → (⟨S500000x1, .f32⟩ : BufTy).Contents (Elt F)),
    reshape main_v85 main_v86 rfl shapeCasts_S500000x1_S500000,
    nullary main_cst_12 (constant S_ .f32 0x00000000#32),
    nullary main_cst_13 (constant S_ .f32 0xC1A00000#32),
    nullary main_cst_14 (constant S_ .f32 0x41A00000#32),
    TRef.binary (TRef.of main_v86 : TRef sig ⟨S500000, .f32⟩) (TRef.of main_v86 : TRef sig ⟨S500000, .f32⟩) main_call6.v0 (cmpf .une),
    TRef.unary (TRef.of main_cst_12 : TRef sig ⟨S_, .f32⟩) main_call6.v1 id,
    TRef.unary main_call6.v1 main_call6.call0.v0 (broadcastInDim S500000 ![] bcast_S_S500000),
    TRef.ternary main_call6.v0 main_call6.call0.v0 (TRef.of main_v86 : TRef sig ⟨S500000, .f32⟩) main_call6.call0.v1 select,
    TRef.nullary main_call6.cst (constant S_ .f32 0x7F800000#32),
    TRef.unary main_call6.cst main_call6.v3 (broadcastInDim S500000 ![] bcast_S_S500000),
    TRef.binary main_call6.call0.v1 main_call6.v3 main_call6.v4 (cmpf .oeq),
    TRef.unary (TRef.of main_cst_14 : TRef sig ⟨S_, .f32⟩) main_call6.v5 id,
    TRef.unary main_call6.v5 main_call6.call1.v0 (broadcastInDim S500000 ![] bcast_S_S500000),
    TRef.ternary main_call6.v4 main_call6.call1.v0 main_call6.call0.v1 main_call6.call1.v1 select,
    TRef.nullary main_call6.cst_0 (constant S_ .f32 0xFF800000#32),
    TRef.unary main_call6.cst_0 main_call6.v7 (broadcastInDim S500000 ![] bcast_S_S500000),
    TRef.binary main_call6.call1.v1 main_call6.v7 main_call6.v8 (cmpf .oeq),
    TRef.unary (TRef.of main_cst_13 : TRef sig ⟨S_, .f32⟩) main_call6.v9 id,
    TRef.unary main_call6.v9 main_call6.call2.v0 (broadcastInDim S500000 ![] bcast_S_S500000),
    TRef.ternary main_call6.v8 main_call6.call2.v0 main_call6.call1.v1 main_call6.call2.v1 select ]

theorem ops_stages : (ops : List (HloOp τ sig (Elt F))) = opsEnc ++ (opsGat ++ opsSco) := rfl

set_option maxRecDepth 65536 in
set_option maxHeartbeats 4000000 in
/-- The first window is its line: the functions' definitions unfolded at their calls, both sides are one chain of
    `hlo` steps once sequencing is reassociated. -/
theorem part0_eq (c : Dev nD) : main_part0 (F := F) c = seq ops0 := by
  simp only [main_part0, fn_where.body, fn_where_0.body, fn_nan_to_num.body, fn_clip.body, fn_relu.body, fn_relu_1.body, fn_relu_2.body, fn_relu_3.body, fn_where_5.body, fn_nan_to_num_4.body, seq, bind_assoc, pure_bind]
  rfl

set_option maxRecDepth 65536 in
set_option maxHeartbeats 4000000 in
/-- The second window is its line. -/
theorem part1_eq (c : Dev nD) : main_part1 (F := F) c = seq ops1 := by
  simp only [main_part1, fn_where.body, fn_where_0.body, fn_nan_to_num.body, fn_clip.body, fn_relu.body, fn_relu_1.body, fn_relu_2.body, fn_relu_3.body, fn_where_5.body, fn_nan_to_num_4.body, seq, bind_assoc, pure_bind]

/-- @main runs the two windows in order, so it is the concatenated line. -/
theorem main_eq (c : Dev nD) : main (F := F) c = seq ops := by
  rw [ops_eq, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., binary_bufs_sub .., unary_bufs_sub .., unary_bufs_sub ..,
    ternary_bufs_sub .., nullary_bufs_sub .., unary_bufs_sub .., binary_bufs_sub .., unary_bufs_sub .., unary_bufs_sub ..,
    ternary_bufs_sub .., nullary_bufs_sub .., unary_bufs_sub .., binary_bufs_sub .., unary_bufs_sub .., unary_bufs_sub ..,
    ternary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    nullary_bufs_sub .., unary_bufs_sub .., binary_bufs_sub .., unary_bufs_sub .., reshape_bufs_sub .., unary_bufs_sub ..,
    reshape_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., binary_bufs_sub .., binary_bufs_sub ..,
    unary_bufs_sub .., nary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., reshape_bufs_sub .., nullary_bufs_sub .., nullary_bufs_sub .., nullary_bufs_sub ..,
    binary_bufs_sub .., unary_bufs_sub .., unary_bufs_sub .., ternary_bufs_sub .., nullary_bufs_sub .., unary_bufs_sub ..,
    binary_bufs_sub .., unary_bufs_sub .., unary_bufs_sub .., ternary_bufs_sub .., nullary_bufs_sub .., unary_bufs_sub ..,
    binary_bufs_sub .., unary_bufs_sub .., unary_bufs_sub .., ternary_bufs_sub ..⟩

/-- At the compiled mesh, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefStages.lean ====
/-
  What the reference program computes, stage by stage, as whole-array functions of the argument arrays.

  Each definition is the composition of the host operations of one stretch of the program, in the program's
  own order and grouping: the cleaning of non-numbers (an entry that differs from itself, then the word of
  +infinity, then the word of -infinity, each replaced by a scalar), the normalised and clipped features, the
  first dense layer with its affine normalisation and rectifier, the second dense layer and rectifier (the
  node embeddings); the two index columns of the pair table, each wrapped (a negative index plus the number
  of nodes) and placed as a column; the gathers of embedding rows and of log-degrees; the pair row, the
  scorer's three layers, and the last cleaning. They are generic in the float values.
-/
import proofs.«173014_j64493228917219_1_alg».proof.Proof.Gen.ReferenceIdeal
import Idealize.ShloMosaic.PureOps.Ideal

noncomputable section

namespace Cert.ReferenceIdeal.Hand

open Cert.ReferenceIdeal Cert.ReferenceIdeal.Gen Idealize.ShloMosaic

variable {F : FTy → Type} [FloatOps F]

/-! ## The cleaning of non-numbers -/

/-- Entries that differ from themselves replaced by the scalar `cn`. -/
def cleanNan {S : Shape} (hb : S_.BroadcastsInDim S (![] : Fin 0 → Fin S.rank)) (cn : FVec F S_ .f32) (a : FVec F S .f32) :
    FVec F S .f32 :=
  select (cmpf .une a a) (broadcastInDim S ![] hb cn) a

/-- Entries equal to the float word `w` (the word of an infinity) replaced by the scalar `c`. -/
def cleanInf {S : Shape} (hb : S_.BroadcastsInDim S (![] : Fin 0 → Fin S.rank)) (w : BitVec 32) (c : FVec F S_ .f32)
    (t : FVec F S .f32) : FVec F S .f32 :=
  select (cmpf .oeq t (broadcastInDim S ![] hb (constant S_ .f32 w))) (broadcastInDim S ![] hb c) t

/-- nan_to_num: non-numbers to `cn`, then +infinity to `cp`, then -infinity to `cm`. -/
def nanToNum {S : Shape} (hb : S_.BroadcastsInDim S (![] : Fin 0 → Fin S.rank)) (cn cm cp : FVec F S_ .f32) (a : FVec F S .f32) :
    FVec F S .f32 :=
  cleanInf hb 0xFF800000#32 cm (cleanInf hb 0x7F800000#32 cp (cleanNan hb cn a))

/-! ## The encoder -/

/-- A vector of 128 repeated along the 100000 rows. -/
def rows128 (v : FVec F S128 .f32) : FVec F S100000x128 .f32 :=
  broadcastInDim S100000x128 ![0, 1] bcast_S1x128_S100000x128_0_1 (broadcastInDim S1x128 ![1] bcast_S128_S1x128_1 v)

/-- A vector of 256 repeated along the 100000 rows. -/
def rows256 (v : FVec F S256 .f32) : FVec F S100000x256 .f32 :=
  broadcastInDim S100000x256 ![0, 1] bcast_S1x256_S100000x256_0_1 (broadcastInDim S1x256 ![1] bcast_S256_S1x256_1 v)

/-- The features cleaned (every replacement the zero word), centred, scaled and clipped to [-10, 10]. -/
def xfOf (x : FVec F S100000x128 .f32) (mean std : FVec F S128 .f32) : FVec F S100000x128 .f32 :=
  minimumf (broadcastInDim S100000x128 ![] bcast_S_S100000x128 (constant S_ .f32 0x41200000#32))
    (maximumf (broadcastInDim S100000x128 ![] bcast_S_S100000x128 (constant S_ .f32 0xC1200000#32))
      (Host.divf
        (subf (nanToNum bcast_S_S100000x128 (constant S_ .f32 0x00000000#32) (constant S_ .f32 0x00000000#32)
            (constant S_ .f32 0x00000000#32) x) (rows128 mean))
        (rows128 std)))

/-- The first dense layer, normalised and rectified. -/
def h1Of (xf : FVec F S100000x128 .f32) (W1 : FVec F S128x256 .f32) (b1 g be mu var : FVec F S256 .f32) :
    FVec F S100000x256 .f32 :=
  maximumf
    (addf
      (mulf
        (mulf
          (subf (addf (Host.dotGeneral dot_S100000x128_S128x256_S100000x256_1_0_0_1_n_n none xf W1) (rows256 b1)) (rows256 mu))
          (rows256 (Host.rsqrt (addf var (broadcastInDim S256 ![] bcast_S_S256 (constant S_ .f32 0x3727C5AC#32))))))
        (rows256 g))
      (rows256 be))
    (broadcastInDim S100000x256 ![] bcast_S_S100000x256 (constant S_ .f32 0x00000000#32))

/-- The second dense layer, rectified: the node embeddings. -/
def zOf (h1 : FVec F S100000x256 .f32) (W2 : FVec F S256x128 .f32) (b2 : FVec F S128 .f32) : FVec F S100000x128 .f32 :=
  maximumf (addf (Host.dotGeneral dot_S100000x256_S256x128_S100000x128_1_0_0_1_n_n none h1 W2) (rows128 b2))
    (broadcastInDim S100000x128 ![] bcast_S_S100000x128 (constant S_ .f32 0x00000000#32))

/-- The node embeddings from the arguments. -/
def encOf (x : FVec F S100000x128 .f32) (mean std : FVec F S128 .f32) (W1 : FVec F S128x256 .f32)
    (b1 g be mu var : FVec F S256 .f32) (W2 : FVec F S256x128 .f32) (b2 : FVec F S128 .f32) : FVec F S100000x128 .f32 :=
  zOf (h1Of (xfOf x mean std) W1 b1 g be mu var) W2 b2

/-! ## The index columns and the gathers -/

/-- Column `off 1` of the pair table, as a vector. -/
def idxVec (ep : IVec S500000x2 32) (off : Fin S500000x2.rank → ℕ) (hs : S500000x2.Slices off S500000x1) : IVec S500000 32 :=
  shapeCast S500000 (extractStridedSlice S500000x1 off ep hs) shapeCasts_S500000x1_S500000

/-- The negative entries wrapped by the number of nodes, and the vector placed as a column. -/
def idxCol (v : IVec S500000 32) : IVec S500000x1 32 :=
  broadcastInDim S500000x1 ![0] bcast_S500000_S500000x1_0
    (select (cmpi .slt v (broadcastInDim S500000 ![] bcast_S_S500000 (constantI S_ 32 0#32)))
      (addi v (broadcastInDim S500000 ![] bcast_S_S500000 (constantI S_ 32 100000#32))) v)

/-- The first index column, wrapped. -/
def srcCol (ep : IVec S500000x2 32) : IVec S500000x1 32 := idxCol (idxVec ep ![0, 0] slices_S500000x2_S500000x1_0_0)

/-- The second index column, wrapped. -/
def dstCol (ep : IVec S500000x2 32) : IVec S500000x1 32 := idxCol (idxVec ep ![0, 1] slices_S500000x2_S500000x1_0_1)

/-- The embedding rows an index column names. -/
def rowsAt (z : FVec F S100000x128 .f32) (col : IVec S500000x1 32) : FVec F S500000x128 .f32 :=
  Host.gather gather_S100000x128_S500000x1_S500000x128_1_0_n_n_0_1_1128 z col

/-- The log-degrees an index column names, placed as a column. -/
def degCol (ld : FVec F S100000 .f32) (col : IVec S500000x1 32) : FVec F S500000x1 .f32 :=
  broadcastInDim S500000x1 ![0] bcast_S500000_S500000x1_0 (Host.gather gather_S100000_S500000x1_S500000_n_0_n_n_0_1_1 ld col)

/-- The degree pair: the two log-degree columns side by side. -/
def degPair (ld : FVec F S100000 .f32) (ep : IVec S500000x2 32) : FVec F S500000x2 .f32 :=
  concatenate S500000x2 1 [⟨S500000x1, degCol ld (srcCol ep)⟩, ⟨S500000x1, degCol ld (dstCol ep)⟩]
    concatenates_S500000x1_S500000x1_S500000x2_d1

/-! ## The scorer -/

/-- The pair row [src | dst | src * dst | |src - dst| | deg]. -/
def pairRow (src dst : FVec F S500000x128 .f32) (deg : FVec F S500000x2 .f32) : FVec F S500000x514 .f32 :=
  concatenate S500000x514 1
    [⟨S500000x128, src⟩, ⟨S500000x128, dst⟩, ⟨S500000x128, mulf src dst⟩, ⟨S500000x128, Host.absf (subf src dst)⟩, ⟨S500000x2, deg⟩]
    concatenates_S500000x128_S500000x128_S500000x128_S500000x128_S500000x2_S500000x514_d1

/-- The scorer's first layer, rectified. -/
def s1Of (pair : FVec F S500000x514 .f32) (SW1 : FVec F S514x256 .f32) (Sb1 : FVec F S256 .f32) : FVec F S500000x256 .f32 :=
  maximumf
    (addf (Host.dotGeneral dot_S500000x514_S514x256_S500000x256_1_0_0_1_n_n none pair SW1)
      (broadcastInDim S500000x256 ![0, 1] bcast_S1x256_S500000x256_0_1 (broadcastInDim S1x256 ![1] bcast_S256_S1x256_1 Sb1)))
    (broadcastInDim S500000x256 ![] bcast_S_S500000x256 (constant S_ .f32 0x00000000#32))

/-- The scorer's second layer, rectified. -/
def s2Of (s1 : FVec F S500000x256 .f32) (SW2 : FVec F S256x128 .f32) (Sb2 : FVec F S128 .f32) : FVec F S500000x128 .f32 :=
  maximumf
    (addf (Host.dotGeneral dot_S500000x256_S256x128_S500000x128_1_0_0_1_n_n none s1 SW2)
      (broadcastInDim S500000x128 ![0, 1] bcast_S1x128_S500000x128_0_1 (broadcastInDim S1x128 ![1] bcast_S128_S1x128_1 Sb2)))
    (broadcastInDim S500000x128 ![] bcast_S_S500000x128 (constant S_ .f32 0x00000000#32))

/-- The scorer's last layer, as a vector. -/
def logitOf (s2 : FVec F S500000x128 .f32) (SW3 : FVec F S128x1 .f32) (Sb3 : FVec F S1 .f32) : FVec F S500000 .f32 :=
  shapeCast S500000
    (addf (Host.dotGeneral dot_S500000x128_S128x1_S500000x1_1_0_0_1_n_n none s2 SW3)
      (broadcastInDim S500000x1 ![0, 1] bcast_S1x1_S500000x1_0_1 (broadcastInDim S1x1 ![1] bcast_S1_S1x1_1 Sb3)))
    shapeCasts_S500000x1_S500000

/-- The result from the gathered rows and the degree pair: the three layers, then the cleaning (a non-number to the
    zero word, +infinity to the word of 20, -infinity to the word of -20). -/
def scoreOf (src dst : FVec F S500000x128 .f32) (deg : FVec F S500000x2 .f32) (SW1 : FVec F S514x256 .f32)
    (Sb1 : FVec F S256 .f32) (SW2 : FVec F S256x128 .f32) (Sb2 : FVec F S128 .f32) (SW3 : FVec F S128x1 .f32)
    (Sb3 : FVec F S1 .f32) : FVec F S500000 .f32 :=
  nanToNum bcast_S_S500000 (constant S_ .f32 0x00000000#32) (constant S_ .f32 0xC1A00000#32) (constant S_ .f32 0x41A00000#32)
    (logitOf (s2Of (s1Of (pairRow src dst deg) SW1 Sb1) SW2 Sb2) SW3 Sb3)

/-- The whole result as a function of the argument arrays it depends on. -/
def refOutF (x : FVec F S100000x128 .f32) (ep : IVec S500000x2 32) (mean std : FVec F S128 .f32) (ld : FVec F S100000 .f32)
    (W1 : FVec F S128x256 .f32) (b1 g be mu var : FVec F S256 .f32) (W2 : FVec F S256x128 .f32) (b2 : FVec F S128 .f32)
    (SW1 : FVec F S514x256 .f32) (Sb1 : FVec F S256 .f32) (SW2 : FVec F S256x128 .f32) (Sb2 : FVec F S128 .f32)
    (SW3 : FVec F S128x1 .f32) (Sb3 : FVec F S1 .f32) : FVec F S500000 .f32 :=
  scoreOf (rowsAt (encOf x mean std W1 b1 g be mu var W2 b2) (srcCol ep))
    (rowsAt (encOf x mean std W1 b1 g be mu var W2 b2) (dstCol ep)) (degPair ld ep) SW1 Sb1 SW2 Sb2 SW3 Sb3

/-- The same at the extended reals. -/
abbrev refOut := @refOutF Ideal _

end Cert.ReferenceIdeal.Hand

end
-- ==== Proof.RefValue.lean ====
/-
  The reference program's result buffer after its run IS the staged function of the argument arrays.

  The program's line of operations is read in three stretches (the embeddings; the index columns and the gathers; the
  scorer). After each stretch the buffer it produces holds that stage's function of the buffers the stretch read, and
  the buffers a stretch does not write keep their contents; folding the three (the fold over a concatenation is the
  fold over the second line from the fold over the first) gives the result as `refOutF` of the arguments, and every
  argument buffer unchanged. With the run of the line (`run_main`) that is the statement about every weakly fair
  execution.
-/
import proofs.«173014_j64493228917219_1_alg».proof.Proof.RefRun
import proofs.«173014_j64493228917219_1_alg».proof.Proof.RefStages

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The fold over two lines in a row is the fold over the second from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- An operation over a literal family of FIVE operands (the concatenation of the pair row): its result with each
    operand's contents at its own reference. -/
theorem nary5_result' {x a b c d y : Ref sig .tc}
    (f : ((k : Fin 5) → ((![x, a, b, c, d] : Fin 5 → Ref sig .tc) k).ty.Contents (Elt F)) → y.ty.Contents (Elt F)) (hxs hy)
    (V : Valuation τ sig (Elt F)) :
    (nary (τ := τ) ![x, a, b, c, d] y f hxs hy).result V (no_index (Proc.devRef .tc y))
      = f (Fin.cons (V (Proc.devRef .tc x)) (Fin.cons (V (Proc.devRef .tc a)) (Fin.cons (V (Proc.devRef .tc b))
          (Fin.cons (V (Proc.devRef .tc c)) (Fin.cons (V (Proc.devRef .tc d)) (fun i => i.elim0)))))) := by
  rw [nary_result]; congr 1; funext k; fin_cases k <;> rfl

/-! ## First stretch: the embeddings -/

theorem enc_eq (V : Valuation τ sig (Elt F)) :
    after opsEnc V (main_v32 : DevRef τ sig)
      = encOf (V (main_arg0 : DevRef τ sig)) (V (main_arg3 : DevRef τ sig)) (V (main_arg4 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) := by
  after_results_simp
  rfl

theorem enc_arg2 (V : Valuation τ sig (Elt F)) :
    after opsEnc V (main_arg2 : DevRef τ sig) = V (main_arg2 : DevRef τ sig) := by
  after_results_simp

theorem enc_arg5 (V : Valuation τ sig (Elt F)) :
    after opsEnc V (main_arg5 : DevRef τ sig) = V (main_arg5 : DevRef τ sig) := by
  after_results_simp

theorem enc_arg14 (V : Valuation τ sig (Elt F)) :
    after opsEnc V (main_arg14 : DevRef τ sig) = V (main_arg14 : DevRef τ sig) := by
  after_results_simp

theorem enc_arg15 (V : Valuation τ sig (Elt F)) :
    after opsEnc V (main_arg15 : DevRef τ sig) = V (main_arg15 : DevRef τ sig) := by
  after_results_simp

theorem enc_arg16 (V : Valuation τ sig (Elt F)) :
    after opsEnc V (main_arg16 : DevRef τ sig) = V (main_arg16 : DevRef τ sig) := by
  after_results_simp

theorem enc_arg17 (V : Valuation τ sig (Elt F)) :
    after opsEnc V (main_arg17 : DevRef τ sig) = V (main_arg17 : DevRef τ sig) := by
  after_results_simp

theorem enc_arg18 (V : Valuation τ sig (Elt F)) :
    after opsEnc V (main_arg18 : DevRef τ sig) = V (main_arg18 : DevRef τ sig) := by
  after_results_simp

theorem enc_arg19 (V : Valuation τ sig (Elt F)) :
    after opsEnc V (main_arg19 : DevRef τ sig) = V (main_arg19 : DevRef τ sig) := by
  after_results_simp

/-! ## Second stretch: the index columns and the gathers -/

theorem gat_src (W : Valuation τ sig (Elt F)) :
    after opsGat W (main_v43 : DevRef τ sig) = rowsAt (W (main_v32 : DevRef τ sig)) (srcCol (W (main_arg2 : DevRef τ sig))) := by
  after_results_simp
  rfl

theorem gat_dst (W : Valuation τ sig (Elt F)) :
    after opsGat W (main_v50 : DevRef τ sig) = rowsAt (W (main_v32 : DevRef τ sig)) (dstCol (W (main_arg2 : DevRef τ sig))) := by
  after_results_simp
  rfl

theorem gat_deg (W : Valuation τ sig (Elt F)) :
    after opsGat W (main_v67 : DevRef τ sig) = degPair (W (main_arg5 : DevRef τ sig)) (W (main_arg2 : DevRef τ sig)) := by
  after_results_simp
  rfl

theorem gat_arg14 (W : Valuation τ sig (Elt F)) :
    after opsGat W (main_arg14 : DevRef τ sig) = W (main_arg14 : DevRef τ sig) := by
  after_results_simp

theorem gat_arg15 (W : Valuation τ sig (Elt F)) :
    after opsGat W (main_arg15 : DevRef τ sig) = W (main_arg15 : DevRef τ sig) := by
  after_results_simp

theorem gat_arg16 (W : Valuation τ sig (Elt F)) :
    after opsGat W (main_arg16 : DevRef τ sig) = W (main_arg16 : DevRef τ sig) := by
  after_results_simp

theorem gat_arg17 (W : Valuation τ sig (Elt F)) :
    after opsGat W (main_arg17 : DevRef τ sig) = W (main_arg17 : DevRef τ sig) := by
  after_results_simp

theorem gat_arg18 (W : Valuation τ sig (Elt F)) :
    after opsGat W (main_arg18 : DevRef τ sig) = W (main_arg18 : DevRef τ sig) := by
  after_results_simp

theorem gat_arg19 (W : Valuation τ sig (Elt F)) :
    after opsGat W (main_arg19 : DevRef τ sig) = W (main_arg19 : DevRef τ sig) := by
  after_results_simp

/-! ## Third stretch: the scorer -/

theorem sco_eq (W : Valuation τ sig (Elt F)) :
    after opsSco W (main_v87 : DevRef τ sig)
      = scoreOf (W (main_v43 : DevRef τ sig)) (W (main_v50 : DevRef τ sig)) (W (main_v67 : DevRef τ sig))
          (W (main_arg14 : DevRef τ sig)) (W (main_arg15 : DevRef τ sig)) (W (main_arg16 : DevRef τ sig)) (W (main_arg17 : DevRef τ sig)) (W (main_arg18 : DevRef τ sig)) (W (main_arg19 : DevRef τ sig)) := by
  simp (disch := decide) only [after_cons, after_nil,
      nullary_result', unary_result', binary_result', ternary_result', reshape_result', nary5_result',
      nullary_result_ne', unary_result_ne', binary_result_ne', ternary_result_ne', reshape_result_ne', nary_result_ne']
  rfl

/-! ## The whole line -/

theorem out_eq (V : Valuation τ sig (Elt F)) :
    after ops V (main_v87 : DevRef τ sig)
      = refOutF (V (main_arg0 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) := by
  rw [ops_stages, after_app, after_app, sco_eq, gat_src, gat_dst, gat_deg,
    gat_arg14, gat_arg15, gat_arg16, gat_arg17, gat_arg18, gat_arg19,
    enc_eq, enc_arg2, enc_arg5, enc_arg14, enc_arg15, enc_arg16, enc_arg17, enc_arg18, enc_arg19]
  rfl

end Cert.ReferenceIdeal.Hand

end
-- ==== Proof.RefArgs.lean ====
/-
  The reference program's run leaves every argument buffer as it found it: no operation of the line writes one.
-/
import proofs.«173014_j64493228917219_1_alg».proof.Proof.RefRun

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

theorem arg9_eq (V : Valuation τ sig (Elt F)) :
    after ops V (main_arg9 : DevRef τ sig) = V (main_arg9 : DevRef τ sig) := by
  after_results_simp

theorem arg10_eq (V : Valuation τ sig (Elt F)) :
    after ops V (main_arg10 : DevRef τ sig) = V (main_arg10 : DevRef τ sig) := by
  after_results_simp

theorem arg11_eq (V : Valuation τ sig (Elt F)) :
    after ops V (main_arg11 : DevRef τ sig) = V (main_arg11 : DevRef τ sig) := by
  after_results_simp

theorem arg12_eq (V : Valuation τ sig (Elt F)) :
    after ops V (main_arg12 : DevRef τ sig) = V (main_arg12 : DevRef τ sig) := by
  after_results_simp

theorem arg13_eq (V : Valuation τ sig (Elt F)) :
    after ops V (main_arg13 : DevRef τ sig) = V (main_arg13 : DevRef τ sig) := by
  after_results_simp

theorem arg14_eq (V : Valuation τ sig (Elt F)) :
    after ops V (main_arg14 : DevRef τ sig) = V (main_arg14 : DevRef τ sig) := by
  after_results_simp

theorem arg15_eq (V : Valuation τ sig (Elt F)) :
    after ops V (main_arg15 : DevRef τ sig) = V (main_arg15 : DevRef τ sig) := by
  after_results_simp

theorem arg16_eq (V : Valuation τ sig (Elt F)) :
    after ops V (main_arg16 : DevRef τ sig) = V (main_arg16 : DevRef τ sig) := by
  after_results_simp

theorem arg17_eq (V : Valuation τ sig (Elt F)) :
    after ops V (main_arg17 : DevRef τ sig) = V (main_arg17 : DevRef τ sig) := by
  after_results_simp

theorem arg18_eq (V : Valuation τ sig (Elt F)) :
    after ops V (main_arg18 : DevRef τ sig) = V (main_arg18 : DevRef τ sig) := by
  after_results_simp

theorem arg19_eq (V : Valuation τ sig (Elt F)) :
    after ops V (main_arg19 : DevRef τ sig) = V (main_arg19 : DevRef τ sig) := by
  after_results_simp

end Cert.ReferenceIdeal.Hand

end
-- ==== Proof.RefResult.lean ====
/-
  The reference program's run, stated at its result: every weakly fair execution terminates with the result buffer at
  the staged function `refOut` of the argument arrays' launch contents and every argument buffer unchanged.
-/
import proofs.«173014_j64493228917219_1_alg».proof.Proof.RefValue
import proofs.«173014_j64493228917219_1_alg».proof.Proof.RefArgs

noncomputable section

namespace Cert.ReferenceIdeal.Hand

open Cert.ReferenceIdeal Cert.ReferenceIdeal.Gen Idealize.ShloMosaic Idealize.ShloMosaic.TcCoe Idealize.SL.Sem Idealize.ShloMosaic.StableHlo

/-- On every device, at the extended reals, from any memory with zero counters: every weakly fair execution of @main
    terminates with the result at `refOut` of the arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v87)
          = refOut (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c main_v87).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c)),
      (h c main_arg11).trans (arg11_eq (launchContents m c)),
      (h c main_arg12).trans (arg12_eq (launchContents m c)),
      (h c main_arg13).trans (arg13_eq (launchContents m c)),
      (h c main_arg14).trans (arg14_eq (launchContents m c)),
      (h c main_arg15).trans (arg15_eq (launchContents m c)),
      (h c main_arg16).trans (arg16_eq (launchContents m c)),
      (h c main_arg17).trans (arg17_eq (launchContents m c)),
      (h c main_arg18).trans (arg18_eq (launchContents m c)),
      (h c main_arg19).trans (arg19_eq (launchContents m c))⟩)
    (run_main (F := Ideal) m ρ)

end Cert.ReferenceIdeal.Hand

end
-- ==== Proof.RefReadEnc.lean ====
/-
  The reference's encoder stages read at one entry, on the extended reals: entry (n, e) of the node embeddings is the
  specification's embedding entry `e` of the row `n` of the feature matrix. Each stage is read operation by operation
  (a pointwise operation at the same index, a repeated row at its column, a spread scalar anywhere, a matrix product
  as the sum over the contracted axis); no law of arithmetic is used.
-/
import proofs.«173014_j64493228917219_1_alg».proof.Proof.RefStages
import proofs.«173014_j64493228917219_1_alg».proof.Proof.Spec
import proofs.«173014_j64493228917219_1_alg».proof.Proof.LibPlainDot

noncomputable section

namespace Cert.ReferenceIdeal.Hand

open Cert.ReferenceIdeal Cert.ReferenceIdeal.Gen Idealize.ShloMosaic Idealize.ShloMosaic.ValueIdx Cert.LibHostRead Cert.LibPlainDot

/-! ## Host operations without a library reading lemma, at an index -/

theorem hdivf_apply {s : Shape} {φ : FTy} (a b : FVec Ideal s φ) (i : s.Idx) : Host.divf a b i = Ideal.div (a i) (b i) := rfl
theorem hrsqrt_apply {s : Shape} {φ : FTy} (a : FVec Ideal s φ) (i : s.Idx) : Host.rsqrt a i = Ideal.rsqrt (a i) := rfl
theorem habsf_apply {s : Shape} {φ : FTy} (a : FVec Ideal s φ) (i : s.Idx) : Host.absf a i = max (a i) (-(a i)) := rfl

/-- A scalar spread over a matrix, at an entry. -/
theorem spread2_apply {α : Type} {a b : ℕ} (x : (⟨0, ![]⟩ : Shape).Idx → α)
    (h : (⟨0, ![]⟩ : Shape).BroadcastsInDim ⟨2, ![a, b]⟩ ![]) (p : Fin a) (c : Fin b) :
    broadcastInDim ⟨2, ![a, b]⟩ ![] h x (ix2 p c) = x ix0 := bid_scalar_apply x h _

/-- A scalar spread over a vector, at an entry. -/
theorem spread1_apply {α : Type} {a : ℕ} (x : (⟨0, ![]⟩ : Shape).Idx → α)
    (h : (⟨0, ![]⟩ : Shape).BroadcastsInDim ⟨1, ![a]⟩ ![]) (p : Fin a) :
    broadcastInDim ⟨1, ![a]⟩ ![] h x (ix1 p) = x ix0 := bid_scalar_apply x h _

/-- The cleaning of non-numbers at one entry is the specification's. -/
theorem nanToNum_apply {S : Shape} (hb : S_.BroadcastsInDim S (![] : Fin 0 → Fin S.rank)) (cn cm cp : FVec Ideal S_ .f32)
    (a : FVec Ideal S .f32) (i : S.Idx) :
    nanToNum hb cn cm cp a i = Cert.Spec.n2n (cn ix0) (cp ix0) (cm ix0) (a i) := by
  unfold nanToNum cleanInf cleanNan Cert.Spec.n2n
  simp only [select_apply, cmpf_apply, bid_scalar_apply, constant_apply, Ideal.cmpf_def]

theorem rows128_apply (v : FVec Ideal S128 .f32) (n : Fin 100000) (j : Fin 128) : rows128 v (ix2 n j) = v (ix1 j) := by
  unfold rows128
  rw [bid_1b_ab_apply, bid_b_1b_apply]

theorem rows256_apply (v : FVec Ideal S256 .f32) (n : Fin 100000) (k : Fin 256) : rows256 v (ix2 n k) = v (ix1 k) := by
  unfold rows256
  rw [bid_1b_ab_apply, bid_b_1b_apply]

/-- The cleaned, centred, scaled and clipped feature at (n, j). -/
theorem xfOf_apply (x : FVec Ideal S100000x128 .f32) (mean std : FVec Ideal S128 .f32) (n : Fin 100000) (j : Fin 128) :
    xfOf x mean std (ix2 n j) = Cert.Spec.xfRow (fun j => x (ix2 n j)) mean std j := by
  unfold xfOf Cert.Spec.xfRow
  simp only [minimumf_apply, maximumf_apply, constant_apply, hdivf_apply, subf_apply, nanToNum_apply,
    rows128_apply, Cert.Spec.lit]
  rw [bid_scalar_apply, bid_scalar_apply, constant_apply, constant_apply]

theorem pd_enc1 : PlainDot dot_S100000x128_S128x256_S100000x256_1_0_0_1_n_n := plainDot_plain _ _ _
theorem pd_enc2 : PlainDot dot_S100000x256_S256x128_S100000x128_1_0_0_1_n_n := plainDot_plain _ _ _

/-- The first dense layer, normalised and rectified, at (n, k). -/
theorem h1Of_apply (xf : FVec Ideal S100000x128 .f32) (W1 : FVec Ideal S128x256 .f32) (b1 g be mu var : FVec Ideal S256 .f32)
    (n : Fin 100000) (k : Fin 256) :
    h1Of xf W1 b1 g be mu var (ix2 n k)
      = max ((((((∑ j : Fin 128, xf (ix2 n j) * W1 (ix2 j k)) + b1 (ix1 k)) - mu (ix1 k))
          * Ideal.rsqrt (var (ix1 k) + Ideal.ofBits .f32 0x3727C5AC#32)) * g (ix1 k)) + be (ix1 k)) 0 := by
  unfold h1Of
  simp only [maximumf_apply, addf_apply, mulf_apply, subf_apply, rows256_apply, hrsqrt_apply, hdot_apply _ pd_enc1]
  rw [bid_scalar_apply, bid_scalar_apply, constant_apply, constant_apply, Ideal.ofBits_zero_f32]

/-- The second dense layer, rectified, at (n, e). -/
theorem zOf_apply (h1 : FVec Ideal S100000x256 .f32) (W2 : FVec Ideal S256x128 .f32) (b2 : FVec Ideal S128 .f32)
    (n : Fin 100000) (e : Fin 128) :
    zOf h1 W2 b2 (ix2 n e) = max ((∑ k : Fin 256, h1 (ix2 n k) * W2 (ix2 k e)) + b2 (ix1 e)) 0 := by
  unfold zOf
  simp only [maximumf_apply, addf_apply, rows128_apply, hdot_apply _ pd_enc2]
  rw [bid_scalar_apply, constant_apply, Ideal.ofBits_zero_f32]

/-- Entry (n, e) of the node embeddings is the specification's embedding of row n. -/
theorem encOf_apply (x : FVec Ideal S100000x128 .f32) (mean std : FVec Ideal S128 .f32) (W1 : FVec Ideal S128x256 .f32)
    (b1 g be mu var : FVec Ideal S256 .f32) (W2 : FVec Ideal S256x128 .f32) (b2 : FVec Ideal S128 .f32)
    (n : Fin 100000) (e : Fin 128) :
    encOf x mean std W1 b1 g be mu var W2 b2 (ix2 n e)
      = Cert.Spec.encRow (fun j => x (ix2 n j)) mean std W1 b1 g be mu var W2 b2 e := by
  unfold encOf Cert.Spec.encRow Cert.Spec.h1Row
  rw [zOf_apply]
  simp only [h1Of_apply, xfOf_apply, Cert.Spec.lit]

end Cert.ReferenceIdeal.Hand

end
-- ==== Proof.RefReadIdx.lean ====
/-
  The reference's index columns, gathers and degree pair read at one entry: the wrapped index column at row p is the
  specification's wrapped word of the pair table's entry; a gathered embedding row is the embedding row of the node the
  word names (read signed, clamped into the node range); a gathered log-degree is the log-degree of that node.
-/
import proofs.«173014_j64493228917219_1_alg».proof.Proof.RefStages
import proofs.«173014_j64493228917219_1_alg».proof.Proof.Spec
import proofs.«173014_j64493228917219_1_alg».proof.Proof.LibHostRead
import proofs.«173014_j64493228917219_1_alg».proof.Proof.LibColumn
import proofs.«173014_j64493228917219_1_alg».proof.Proof.LibNodeScatter
import proofs.«173014_j64493228917219_1_alg».proof.Proof.LibGather1

noncomputable section

namespace Cert.ReferenceIdeal.Hand

open Cert.ReferenceIdeal Cert.ReferenceIdeal.Gen Idealize.ShloMosaic Idealize.ShloMosaic.ValueIdx Cert.LibHostRead

/-- The first column of the pair table as a vector, at p. -/
theorem idxVec0_apply (ep : IVec S500000x2 32) (p : Fin 500000) :
    idxVec ep ![0, 0] slices_S500000x2_S500000x1_0_0 (ix1 p) = ep (ix2 p (0 : Fin 2)) := by
  unfold idxVec
  rw [Cert.LibColumn.shapeCast_a1_a_apply]
  exact extractStridedSlice_apply _ _ _ _ (ix2 p (0 : Fin 2)) fun a => by
    match a with
    | ⟨0, _⟩ => show p.val = 0 + p.val; omega
    | ⟨1, _⟩ => rfl

/-- The second column of the pair table as a vector, at p. -/
theorem idxVec1_apply (ep : IVec S500000x2 32) (p : Fin 500000) :
    idxVec ep ![0, 1] slices_S500000x2_S500000x1_0_1 (ix1 p) = ep (ix2 p (1 : Fin 2)) := by
  unfold idxVec
  rw [Cert.LibColumn.shapeCast_a1_a_apply]
  exact extractStridedSlice_apply _ _ _ _ (ix2 p (1 : Fin 2)) fun a => by
    match a with
    | ⟨0, _⟩ => show p.val = 0 + p.val; omega
    | ⟨1, _⟩ => rfl

/-- The wrapped column at row p is the wrapped word. -/
theorem idxCol_apply (v : IVec S500000 32) (p : Fin 500000) :
    idxCol v (ix2 p (0 : Fin 1)) = Cert.Spec.norm (v (ix1 p)) := by
  unfold idxCol Cert.Spec.norm
  rw [bid_a_a1_apply]
  rfl

theorem srcCol_apply (ep : IVec S500000x2 32) (p : Fin 500000) :
    srcCol ep (ix2 p (0 : Fin 1)) = Cert.Spec.norm (ep (ix2 p (0 : Fin 2))) := by
  unfold srcCol
  rw [idxCol_apply, idxVec0_apply]

theorem dstCol_apply (ep : IVec S500000x2 32) (p : Fin 500000) :
    dstCol ep (ix2 p (0 : Fin 1)) = Cert.Spec.norm (ep (ix2 p (1 : Fin 2))) := by
  unfold dstCol
  rw [idxCol_apply, idxVec1_apply]

/-- A gathered embedding row: the row of the node the index word names. -/
theorem rowsAt_apply (z : FVec Ideal S100000x128 .f32) (col : IVec S500000x1 32) (p : Fin 500000) (e : Fin 128) :
    rowsAt z col (ix2 p e) = z (ix2 (Cert.LibNodes.nodeOf 100000 (by decide) (col (ix2 p (0 : Fin 1)))) e) := by
  unfold rowsAt
  exact Cert.LibNodes.gather_nodes_apply (by decide) gather_S100000x128_S500000x1_S500000x128_1_0_n_n_0_1_1128_wf z col p e

/-- A gathered log-degree column at row p: the log-degree of the node the index word names. -/
theorem degCol_apply (ld : FVec Ideal S100000 .f32) (col : IVec S500000x1 32) (p : Fin 500000) :
    degCol ld col (ix2 p (0 : Fin 1)) = ld (ix1 (Cert.LibNodes.nodeOf 100000 (by decide) (col (ix2 p (0 : Fin 1))))) := by
  unfold degCol
  rw [bid_a_a1_apply]
  exact Cert.LibGather1.gather_entries_apply (by decide) gather_S100000_S500000x1_S500000_n_0_n_n_0_1_1_wf ld col p

/-- The degree pair at (p, 0): the log-degree of the first end point. -/
theorem degPair_apply0 (ld : FVec Ideal S100000 .f32) (ep : IVec S500000x2 32) (p : Fin 500000) :
    degPair ld ep (ix2 p (0 : Fin 2)) = ld (ix1 (Cert.Spec.row (ep (ix2 p (0 : Fin 2))))) := by
  unfold degPair
  refine (concatenate_pair_apply_left (t := S500000x2) (s₁ := S500000x1) (s₂ := S500000x1) (1 : Fin 2)
    (degCol ld (srcCol ep)) (degCol ld (dstCol ep)) concatenates_S500000x1_S500000x1_S500000x2_d1 (ix2 p (0 : Fin 2)) rfl
    (ix2 p (0 : Fin 1)) (fun b => by
      match b with
      | ⟨0, _⟩ => rfl
      | ⟨1, _⟩ => rfl)).trans ?_
  rw [degCol_apply, srcCol_apply]
  rfl

/-- The degree pair at (p, 1): the log-degree of the second end point. -/
theorem degPair_apply1 (ld : FVec Ideal S100000 .f32) (ep : IVec S500000x2 32) (p : Fin 500000) :
    degPair ld ep (ix2 p (1 : Fin 2)) = ld (ix1 (Cert.Spec.row (ep (ix2 p (1 : Fin 2))))) := by
  unfold degPair
  refine (concatenate_pair_apply_right (t := S500000x2) (s₁ := S500000x1) (s₂ := S500000x1) (1 : Fin 2)
    (degCol ld (srcCol ep)) (degCol ld (dstCol ep)) concatenates_S500000x1_S500000x1_S500000x2_d1 (ix2 p (1 : Fin 2)) rfl rfl
    (ix2 p (0 : Fin 1)) (fun b hb => by
      match b with
      | ⟨0, _⟩ => rfl
      | ⟨1, _⟩ => exact absurd rfl hb) rfl).trans ?_
  rw [degCol_apply, dstCol_apply]
  rfl

/-- The degree pair at (p, k). -/
theorem degPair_apply (ld : FVec Ideal S100000 .f32) (ep : IVec S500000x2 32) (p : Fin 500000) (k : Fin 2) :
    degPair ld ep (ix2 p k) = ld (ix1 (Cert.Spec.row (ep (ix2 p k)))) := by
  match k with
  | ⟨0, _⟩ => exact degPair_apply0 ld ep p
  | ⟨1, _⟩ => exact degPair_apply1 ld ep p

/-- A gathered embedding row through the first wrapped column: the embedding row of the first end point. -/
theorem rowsAt_src_apply (z : FVec Ideal S100000x128 .f32) (ep : IVec S500000x2 32) (p : Fin 500000) (e : Fin 128) :
    rowsAt z (srcCol ep) (ix2 p e) = z (ix2 (Cert.Spec.row (ep (ix2 p (0 : Fin 2)))) e) := by
  rw [rowsAt_apply, srcCol_apply]
  rfl

theorem rowsAt_dst_apply (z : FVec Ideal S100000x128 .f32) (ep : IVec S500000x2 32) (p : Fin 500000) (e : Fin 128) :
    rowsAt z (dstCol ep) (ix2 p e) = z (ix2 (Cert.Spec.row (ep (ix2 p (1 : Fin 2)))) e) := by
  rw [rowsAt_apply, dstCol_apply]
  rfl

end Cert.ReferenceIdeal.Hand

end
-- ==== Proof.RefReadSco.lean ====
/-
  The reference's scorer read at one entry, on the extended reals.

  The one law of arithmetic on this side: a sum over the 514 columns of the pair row is the sum of the sums over its five
  consecutive ranges [0,128), [128,256), [256,384), [384,512), [512,514), grouped from the left (a finite sum over
  Fin (a + b) splits at a; sums in a commutative monoid, no finiteness of the values needed). On each range the pair row
  is one of its five pieces, and the rows of the first scorer matrix in that range are the matching band. The other
  layers are read operation by operation.
-/
import proofs.«173014_j64493228917219_1_alg».proof.Proof.RefStages
import proofs.«173014_j64493228917219_1_alg».proof.Proof.Spec
import proofs.«173014_j64493228917219_1_alg».proof.Proof.LibPlainDot
import proofs.«173014_j64493228917219_1_alg».proof.Proof.LibColumn
import proofs.«173014_j64493228917219_1_alg».proof.Proof.RefReadEnc

noncomputable section

namespace Cert.ReferenceIdeal.Hand

open Cert.ReferenceIdeal Cert.ReferenceIdeal.Gen Idealize.ShloMosaic Idealize.ShloMosaic.ValueIdx Cert.LibHostRead Cert.LibPlainDot

/-- A sum over Fin 514 as the sum of its five consecutive ranges, grouped from the left. -/
theorem sum514 (f : Fin 514 → EReal) :
    ∑ c : Fin 514, f c
      = ((((∑ k : Fin 128, f ⟨k.val, by have := k.isLt; omega⟩) + ∑ k : Fin 128, f ⟨128 + k.val, by have := k.isLt; omega⟩)
          + ∑ k : Fin 128, f ⟨256 + k.val, by have := k.isLt; omega⟩) + ∑ k : Fin 128, f ⟨384 + k.val, by have := k.isLt; omega⟩)
        + ∑ k : Fin 2, f ⟨512 + k.val, by have := k.isLt; omega⟩ := by
  have e1 : ∑ c : Fin 514, f c = (∑ i : Fin 512, f (Fin.castAdd 2 i)) + ∑ i : Fin 2, f (Fin.natAdd 512 i) :=
    Fin.sum_univ_add (a := 512) (b := 2) f
  have e2 : ∑ i : Fin 512, f (Fin.castAdd 2 i)
      = (∑ i : Fin 384, f (Fin.castAdd 2 (Fin.castAdd 128 i))) + ∑ i : Fin 128, f (Fin.castAdd 2 (Fin.natAdd 384 i)) :=
    Fin.sum_univ_add (a := 384) (b := 128) fun i => f (Fin.castAdd 2 i)
  have e3 : ∑ i : Fin 384, f (Fin.castAdd 2 (Fin.castAdd 128 i))
      = (∑ i : Fin 256, f (Fin.castAdd 2 (Fin.castAdd 128 (Fin.castAdd 128 i))))
        + ∑ i : Fin 128, f (Fin.castAdd 2 (Fin.castAdd 128 (Fin.natAdd 256 i))) :=
    Fin.sum_univ_add (a := 256) (b := 128) fun i => f (Fin.castAdd 2 (Fin.castAdd 128 i))
  have e4 : ∑ i : Fin 256, f (Fin.castAdd 2 (Fin.castAdd 128 (Fin.castAdd 128 i)))
      = (∑ i : Fin 128, f (Fin.castAdd 2 (Fin.castAdd 128 (Fin.castAdd 128 (Fin.castAdd 128 i)))))
        + ∑ i : Fin 128, f (Fin.castAdd 2 (Fin.castAdd 128 (Fin.castAdd 128 (Fin.natAdd 128 i)))) :=
    Fin.sum_univ_add (a := 128) (b := 128) fun i => f (Fin.castAdd 2 (Fin.castAdd 128 (Fin.castAdd 128 i)))
  rw [e1, e2, e3, e4]
  rfl

/-! ## The pair row on each of its five ranges -/

section Pieces

variable (src dst : FVec Ideal S500000x128 .f32) (deg : FVec Ideal S500000x2 .f32) (p : Fin 500000)

theorem pairRow_src (k : Fin 128) (hk : k.val < 514) : pairRow src dst deg (ix2 p ⟨k.val, hk⟩) = src (ix2 p k) := by
  unfold pairRow
  exact concatenate_apply_piece (t := S500000x514) (1 : Fin 2) _ _ (ix2 p ⟨k.val, hk⟩) 0 (by show (0 : ℕ) < 5; omega) S500000x128 src rfl rfl 0 rfl
    (ix2 p k) (fun b hb => by
      match b with
      | ⟨0, _⟩ => rfl
      | ⟨1, _⟩ => exact absurd rfl hb) (by show 0 + k.val = k.val; omega)

theorem pairRow_dst (k : Fin 128) (hk : 128 + k.val < 514) : pairRow src dst deg (ix2 p ⟨128 + k.val, hk⟩) = dst (ix2 p k) := by
  unfold pairRow
  exact concatenate_apply_piece (t := S500000x514) (1 : Fin 2) _ _ (ix2 p ⟨128 + k.val, hk⟩) 1 (by show (1 : ℕ) < 5; omega) S500000x128 dst rfl rfl 128 rfl
    (ix2 p k) (fun b hb => by
      match b with
      | ⟨0, _⟩ => rfl
      | ⟨1, _⟩ => exact absurd rfl hb) rfl

theorem pairRow_mul (k : Fin 128) (hk : 256 + k.val < 514) :
    pairRow src dst deg (ix2 p ⟨256 + k.val, hk⟩) = src (ix2 p k) * dst (ix2 p k) := by
  unfold pairRow
  exact concatenate_apply_piece (t := S500000x514) (1 : Fin 2) _ _ (ix2 p ⟨256 + k.val, hk⟩) 2 (by show (2 : ℕ) < 5; omega) S500000x128 (mulf src dst) rfl rfl
    256 rfl (ix2 p k) (fun b hb => by
      match b with
      | ⟨0, _⟩ => rfl
      | ⟨1, _⟩ => exact absurd rfl hb) rfl

theorem pairRow_abs (k : Fin 128) (hk : 384 + k.val < 514) :
    pairRow src dst deg (ix2 p ⟨384 + k.val, hk⟩)
      = max (src (ix2 p k) - dst (ix2 p k)) (-(src (ix2 p k) - dst (ix2 p k))) := by
  unfold pairRow
  exact concatenate_apply_piece (t := S500000x514) (1 : Fin 2) _ _ (ix2 p ⟨384 + k.val, hk⟩) 3 (by show (3 : ℕ) < 5; omega) S500000x128
    (Host.absf (subf src dst)) rfl rfl 384 rfl (ix2 p k) (fun b hb => by
      match b with
      | ⟨0, _⟩ => rfl
      | ⟨1, _⟩ => exact absurd rfl hb) rfl

theorem pairRow_deg (k : Fin 2) (hk : 512 + k.val < 514) : pairRow src dst deg (ix2 p ⟨512 + k.val, hk⟩) = deg (ix2 p k) := by
  unfold pairRow
  exact concatenate_apply_piece (t := S500000x514) (1 : Fin 2) _ _ (ix2 p ⟨512 + k.val, hk⟩) 4 (by show (4 : ℕ) < 5; omega) S500000x2 deg rfl rfl 512 rfl
    (ix2 p k) (fun b hb => by
      match b with
      | ⟨0, _⟩ => rfl
      | ⟨1, _⟩ => exact absurd rfl hb) rfl

end Pieces

/-! ## The bands of the first scorer matrix -/

theorem band0_apply (SW1 : FVec Ideal S514x256 .f32) (h : S514x256.Slices ![0, 0] S128x256) (k : Fin 128) (j : Fin 256)
    (hk : k.val < 514) : Cert.Spec.band SW1 0 h (ix2 k j) = SW1 (ix2 ⟨k.val, hk⟩ j) :=
  extractStridedSlice_apply _ _ _ _ _ fun a => by
    match a with
    | ⟨0, _⟩ => show k.val = 0 + k.val; omega
    | ⟨1, _⟩ => show j.val = 0 + j.val; omega

theorem band_apply (SW1 : FVec Ideal S514x256 .f32) (off : ℕ) (h : S514x256.Slices ![off, 0] S128x256) (k : Fin 128) (j : Fin 256)
    (hk : off + k.val < 514) : Cert.Spec.band SW1 off h (ix2 k j) = SW1 (ix2 ⟨off + k.val, hk⟩ j) :=
  extractStridedSlice_apply _ _ _ _ _ fun a => by
    match a with
    | ⟨0, _⟩ => rfl
    | ⟨1, _⟩ => show j.val = 0 + j.val; omega

theorem band2_apply (SW1 : FVec Ideal S514x256 .f32) (h : S514x256.Slices ![512, 0] ⟨2, ![2, 256]⟩) (k : Fin 2) (j : Fin 256)
    (hk : 512 + k.val < 514) : Cert.Spec.band2 SW1 h (ix2 k j) = SW1 (ix2 ⟨512 + k.val, hk⟩ j) :=
  extractStridedSlice_apply _ _ _ _ _ fun a => by
    match a with
    | ⟨0, _⟩ => rfl
    | ⟨1, _⟩ => show j.val = 0 + j.val; omega

/-! ## The layers -/

theorem pd_s1 : PlainDot dot_S500000x514_S514x256_S500000x256_1_0_0_1_n_n := plainDot_plain _ _ _
theorem pd_s2 : PlainDot dot_S500000x256_S256x128_S500000x128_1_0_0_1_n_n := plainDot_plain _ _ _
theorem pd_s3 : PlainDot dot_S500000x128_S128x1_S500000x1_1_0_0_1_n_n := plainDot_plain _ _ _

/-- The scorer's first layer over the pair row at (p, j): the specification's, the product split into the five bands. -/
theorem s1Of_apply (src dst : FVec Ideal S500000x128 .f32) (deg : FVec Ideal S500000x2 .f32) (SW1 : FVec Ideal S514x256 .f32)
    (Sb1 : FVec Ideal S256 .f32)
    (h0 : S514x256.Slices ![0, 0] S128x256) (h1 : S514x256.Slices ![128, 0] S128x256) (h2 : S514x256.Slices ![256, 0] S128x256)
    (h3 : S514x256.Slices ![384, 0] S128x256) (h4 : S514x256.Slices ![512, 0] ⟨2, ![2, 256]⟩) (p : Fin 500000) (j : Fin 256) :
    s1Of (pairRow src dst deg) SW1 Sb1 (ix2 p j)
      = Cert.Spec.s1Row (fun k => src (ix2 p k)) (fun k => dst (ix2 p k)) (fun k => deg (ix2 p k))
          (Cert.Spec.band SW1 0 h0) (Cert.Spec.band SW1 128 h1) (Cert.Spec.band SW1 256 h2) (Cert.Spec.band SW1 384 h3)
          (Cert.Spec.band2 SW1 h4) Sb1 j := by
  unfold s1Of Cert.Spec.s1Row
  rw [maximumf_apply, addf_apply, bid_1b_ab_apply, bid_b_1b_apply, bid_scalar_apply, constant_apply, Ideal.ofBits_zero_f32,
    hdot_apply _ pd_s1, sum514]
  have b0 : ∀ k : Fin 128, Cert.Spec.band SW1 0 h0 (ix2 k j) = SW1 (ix2 ⟨k.val, by have := k.isLt; omega⟩ j) :=
    fun k => band0_apply SW1 h0 k j _
  have b1 : ∀ k : Fin 128, Cert.Spec.band SW1 128 h1 (ix2 k j) = SW1 (ix2 ⟨128 + k.val, by have := k.isLt; omega⟩ j) :=
    fun k => band_apply SW1 128 h1 k j _
  have b2 : ∀ k : Fin 128, Cert.Spec.band SW1 256 h2 (ix2 k j) = SW1 (ix2 ⟨256 + k.val, by have := k.isLt; omega⟩ j) :=
    fun k => band_apply SW1 256 h2 k j _
  have b3 : ∀ k : Fin 128, Cert.Spec.band SW1 384 h3 (ix2 k j) = SW1 (ix2 ⟨384 + k.val, by have := k.isLt; omega⟩ j) :=
    fun k => band_apply SW1 384 h3 k j _
  have b4 : ∀ k : Fin 2, Cert.Spec.band2 SW1 h4 (ix2 k j) = SW1 (ix2 ⟨512 + k.val, by have := k.isLt; omega⟩ j) :=
    fun k => band2_apply SW1 h4 k j _
  simp only [pairRow_src, pairRow_dst, pairRow_mul, pairRow_abs, pairRow_deg, b0, b1, b2, b3, b4]

/-- The scorer's second layer at (p, j). -/
theorem s2Of_apply (s1 : FVec Ideal S500000x256 .f32) (SW2 : FVec Ideal S256x128 .f32) (Sb2 : FVec Ideal S128 .f32)
    (p : Fin 500000) (j : Fin 128) :
    s2Of s1 SW2 Sb2 (ix2 p j) = max ((∑ k : Fin 256, s1 (ix2 p k) * SW2 (ix2 k j)) + Sb2 (ix1 j)) 0 := by
  unfold s2Of
  rw [maximumf_apply, addf_apply, bid_1b_ab_apply, bid_b_1b_apply, bid_scalar_apply, constant_apply, Ideal.ofBits_zero_f32,
    hdot_apply _ pd_s2]

/-- The scorer's last layer at p. -/
theorem logitOf_apply (s2 : FVec Ideal S500000x128 .f32) (SW3 : FVec Ideal S128x1 .f32) (Sb3 : FVec Ideal S1 .f32)
    (p : Fin 500000) :
    logitOf s2 SW3 Sb3 (ix1 p) = (∑ k : Fin 128, s2 (ix2 p k) * SW3 (ix2 k (0 : Fin 1))) + Sb3 (ix1 (0 : Fin 1)) := by
  unfold logitOf
  rw [Cert.LibColumn.shapeCast_a1_a_apply, addf_apply, bid_1b_ab_apply, bid_b_1b_apply, hdot_apply _ pd_s3]

/-- The result at p from the gathered rows and the degree pair: the specification's cleaned score. -/
theorem scoreOf_apply (src dst : FVec Ideal S500000x128 .f32) (deg : FVec Ideal S500000x2 .f32) (SW1 : FVec Ideal S514x256 .f32)
    (Sb1 : FVec Ideal S256 .f32) (SW2 : FVec Ideal S256x128 .f32) (Sb2 : FVec Ideal S128 .f32) (SW3 : FVec Ideal S128x1 .f32)
    (Sb3 : FVec Ideal S1 .f32)
    (h0 : S514x256.Slices ![0, 0] S128x256) (h1 : S514x256.Slices ![128, 0] S128x256) (h2 : S514x256.Slices ![256, 0] S128x256)
    (h3 : S514x256.Slices ![384, 0] S128x256) (h4 : S514x256.Slices ![512, 0] ⟨2, ![2, 256]⟩) (p : Fin 500000) :
    scoreOf src dst deg SW1 Sb1 SW2 Sb2 SW3 Sb3 (ix1 p)
      = Cert.Spec.n2n (Cert.Spec.lit 0x00000000#32) (Cert.Spec.lit 0x41A00000#32) (Cert.Spec.lit 0xC1A00000#32)
          (Cert.Spec.logitRow (fun k => src (ix2 p k)) (fun k => dst (ix2 p k)) (fun k => deg (ix2 p k))
            (Cert.Spec.band SW1 0 h0) (Cert.Spec.band SW1 128 h1) (Cert.Spec.band SW1 256 h2) (Cert.Spec.band SW1 384 h3)
            (Cert.Spec.band2 SW1 h4) Sb1 SW2 Sb2 SW3 Sb3) := by
  unfold scoreOf Cert.Spec.logitRow Cert.Spec.s2Row
  rw [nanToNum_apply, constant_apply, constant_apply, constant_apply, logitOf_apply]
  simp only [s2Of_apply, s1Of_apply src dst deg SW1 Sb1 h0 h1 h2 h3 h4]

end Cert.ReferenceIdeal.Hand

end
-- ==== Proof.RefRead.lean ====
/-
  The reference's result is the specification's: entry p of the staged function of the arguments is the specification's
  cleaned score of pair p. The scorer is read at p over the gathered rows; a gathered row is the embedding row of the node
  the pair table's word names, which is the specification's embedding of that node's feature row; a degree entry is the
  log-degree of that node.
-/
import proofs.«173014_j64493228917219_1_alg».proof.Proof.RefStages
import proofs.«173014_j64493228917219_1_alg».proof.Proof.Spec
import proofs.«173014_j64493228917219_1_alg».proof.Proof.SpecRead
import proofs.«173014_j64493228917219_1_alg».proof.Proof.RefReadEnc
import proofs.«173014_j64493228917219_1_alg».proof.Proof.RefReadIdx
import proofs.«173014_j64493228917219_1_alg».proof.Proof.RefReadSco

noncomputable section

namespace Cert.ReferenceIdeal.Hand

open Cert.ReferenceIdeal Cert.ReferenceIdeal.Gen Idealize.ShloMosaic Idealize.ShloMosaic.ValueIdx Cert.LibHostRead Cert.LibPlainDot

theorem refOut_eq_spec (x : FVec Ideal S100000x128 .f32) (ep : IVec S500000x2 32) (mean std : FVec Ideal S128 .f32)
    (ld : FVec Ideal S100000 .f32) (W1 : FVec Ideal S128x256 .f32) (b1 g be mu var : FVec Ideal S256 .f32)
    (W2 : FVec Ideal S256x128 .f32) (b2 : FVec Ideal S128 .f32) (SW1 : FVec Ideal S514x256 .f32) (Sb1 : FVec Ideal S256 .f32)
    (SW2 : FVec Ideal S256x128 .f32) (Sb2 : FVec Ideal S128 .f32) (SW3 : FVec Ideal S128x1 .f32) (Sb3 : FVec Ideal S1 .f32)
    (h0 : S514x256.Slices ![0, 0] S128x256) (h1 : S514x256.Slices ![128, 0] S128x256) (h2 : S514x256.Slices ![256, 0] S128x256)
    (h3 : S514x256.Slices ![384, 0] S128x256) (h4 : S514x256.Slices ![512, 0] ⟨2, ![2, 256]⟩) :
    refOut x ep mean std ld W1 b1 g be mu var W2 b2 SW1 Sb1 SW2 Sb2 SW3 Sb3
      = Cert.Spec.out x ep mean std ld W1 b1 g be mu var W2 b2 SW1 Sb1 SW2 Sb2 SW3 Sb3 h0 h1 h2 h3 h4 := by
  funext i
  obtain ⟨p, rfl⟩ : ∃ p : Fin 500000, i = ix1 p := ⟨i 0, eq_ix1 i⟩
  rw [Cert.Spec.out_ix1]
  show refOutF x ep mean std ld W1 b1 g be mu var W2 b2 SW1 Sb1 SW2 Sb2 SW3 Sb3 (ix1 p) = _
  unfold refOutF Cert.Spec.zRow
  rw [scoreOf_apply _ _ _ SW1 Sb1 SW2 Sb2 SW3 Sb3 h0 h1 h2 h3 h4 p]
  simp only [rowsAt_src_apply, rowsAt_dst_apply, encOf_apply, degPair_apply]

end Cert.ReferenceIdeal.Hand

end
-- ==== Proof.lean ====
/-
  The blocked link-scoring program and its plain reference compute one function on the extended reals.

  Both programs embed every node (a cleaned, centred, scaled and clipped feature row through a dense layer, an affine
  normalisation by a reciprocal square root, a rectifier, a second dense layer and a rectifier) and score every pair of
  nodes named by an index table (the two embedding rows, their product, the absolute value of their difference and the
  two degree entries through three dense layers, the result cleaned of non-numbers). The blocked program embeds the nodes
  ten thousand rows at a time, gathers the rows of 503808 padded pairs on the host, scores them 4096 at a time with the
  first scorer matrix cut into five bands of rows whose five products are added, and keeps the first 500000 scores; the
  reference multiplies the 514-wide concatenated pair row by the whole matrix. On the extended reals a change of float
  format is the identity and a finite sum may be regrouped, so both are the function `Cert.Spec.out` of the argument
  arrays: the blocked program by reading each region's output array as one function of the arrays it finds and each host
  operation at an index; the reference by reading each of its operations at an index and splitting the 514-term sum into
  the five bands. The frames of the two printed kernels are the generated ones; the reference's frame is its run with the
  result dropped; the idealisation rewrote nothing.
-/
import proofs.«173014_j64493228917219_1_alg».proof.Defs
import proofs.«173014_j64493228917219_1_alg».proof.Proof.Gen.Kernel
import proofs.«173014_j64493228917219_1_alg».proof.Proof.Gen.Kernel.Skeleton
import proofs.«173014_j64493228917219_1_alg».proof.Proof.Gen.Kernel.Launch
import proofs.«173014_j64493228917219_1_alg».proof.Proof.Gen.Kernel.Points
import proofs.«173014_j64493228917219_1_alg».proof.Proof.Gen.Kernel.Frame
import proofs.«173014_j64493228917219_1_alg».proof.Proof.Gen.KernelIdeal
import proofs.«173014_j64493228917219_1_alg».proof.Proof.Gen.KernelIdeal.Skeleton
import proofs.«173014_j64493228917219_1_alg».proof.Proof.Gen.KernelIdeal.Launch
import proofs.«173014_j64493228917219_1_alg».proof.Proof.Gen.KernelIdeal.Points
import proofs.«173014_j64493228917219_1_alg».proof.Proof.Gen.KernelIdeal.Frame
import proofs.«173014_j64493228917219_1_alg».proof.Proof.Gen.ReferenceIdeal
import proofs.«173014_j64493228917219_1_alg».proof.Proof.Gen.Pre_finite_inputs
import proofs.«173014_j64493228917219_1_alg».proof.Proof.KernelRun
import proofs.«173014_j64493228917219_1_alg».proof.Proof.KernelBridge
import proofs.«173014_j64493228917219_1_alg».proof.Proof.RefResult
import proofs.«173014_j64493228917219_1_alg».proof.Proof.RefRead
import Idealize.ShloMosaic.Adequacy
import Idealize.ShloMosaic.Init

noncomputable section

namespace Cert.Proof

open Idealize.ShloMosaic Idealize.ShloMosaic.TcCoe Idealize.SL.Sem

/-- The printed kernel program runs and keeps its arguments. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Hand.run m ρ)

/-- The idealisation rewrote no operation. -/
theorem preserves : Cert.preserves_Kernel_KernelIdeal := trivial

/-- From memories that agree on the arguments both programs end with the specification's result array. -/
theorem algebraic : Cert.algebraic_KernelIdeal_ReferenceIdeal := by
  intro m ρ m' ρ' _ hagree
  refine ⟨fun c => Cert.Spec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      Cert.KernelIdeal.Facts₀.slices_S514x256_S128x256_0_0 Cert.KernelIdeal.Facts₀.slices_S514x256_S128x256_128_0
      Cert.KernelIdeal.Facts₀.slices_S514x256_S128x256_256_0 Cert.KernelIdeal.Facts₀.slices_S514x256_S128x256_384_0
      Cert.KernelIdeal.Facts₀.slices_S514x256_S2x256_512_0, ?_, ?_⟩
  · exact (θ_run Cert.KernelIdeal.defs _ _).mono
      (fun r h c => ⟨(h c).1.trans (Cert.KernelIdeal.Hand.W9_eq_spec m ρ c), (h c).2⟩)
      (Cert.KernelIdeal.Hand.run_result (F := Ideal) m ρ)
  · refine (θ_run Cert.ReferenceIdeal.defs _ _).mono (fun r h c => ⟨(h c).1.trans ?_, (h c).2⟩)
      (Cert.ReferenceIdeal.Hand.run m' ρ')
    rw [(hagree c).1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2]
    exact Cert.ReferenceIdeal.Hand.refOut_eq_spec _ _ _ _ _ _ _ _ _ _ _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
